-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x784 : Shape := ⟨2, ![4096, 784]⟩
abbrev S4096x1 : Shape := ⟨2, ![4096, 1]⟩
abbrev S784x1024 : Shape := ⟨2, ![784, 1024]⟩
abbrev S1024 : Shape := ⟨1, ![1024]⟩
abbrev S1024x1024 : Shape := ⟨2, ![1024, 1024]⟩
abbrev S1024x2 : Shape := ⟨2, ![1024, 2]⟩
abbrev S2 : Shape := ⟨1, ![2]⟩
abbrev S1x1024 : Shape := ⟨2, ![1, 1024]⟩
abbrev S1024x1568 : Shape := ⟨2, ![1024, 1568]⟩
abbrev S1568 : Shape := ⟨1, ![1568]⟩
abbrev S_ : Shape := ⟨0, ![]⟩

class Facts : Prop where
  bcast_S_S4096x784 : S_.BroadcastsInDim S4096x784 (![] : Fin 0 → Fin S4096x784.rank)
  reducesTo_S4096x784_S_d0_1 : S4096x784.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S784x1024 : S_.BroadcastsInDim S784x1024 (![] : Fin 0 → Fin S784x1024.rank)
  reducesTo_S784x1024_S_d0_1 : S784x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x2 : S_.BroadcastsInDim S1024x2 (![] : Fin 0 → Fin S1024x2.rank)
  reducesTo_S1024x2_S_d0_1 : S1024x2.ReducesTo [0, 1] S_
  bcast_S_S2 : S_.BroadcastsInDim S2 (![] : Fin 0 → Fin S2.rank)
  reducesTo_S2_S_d0 : S2.ReducesTo [0] S_
  bcast_S_S1x1024 : S_.BroadcastsInDim S1x1024 (![] : Fin 0 → Fin S1x1024.rank)
  reducesTo_S1x1024_S_d0_1 : S1x1024.ReducesTo [0, 1] S_
  bcast_S_S1024x1568 : S_.BroadcastsInDim S1024x1568 (![] : Fin 0 → Fin S1024x1568.rank)
  reducesTo_S1024x1568_S_d0_1 : S1024x1568.ReducesTo [0, 1] S_
  bcast_S_S1568 : S_.BroadcastsInDim S1568 (![] : Fin 0 → Fin S1568.rank)
  reducesTo_S1568_S_d0 : S1568.ReducesTo [0] S_

variable [Facts]

def fn_part4 {F : FTy → Type} [FloatOps F] (main_arg14 : FVec F S1568 .f32) (main_v63 : IVec S_ 1) (main_v67 : IVec S_ 1) : IVec S_ 1 :=
  let main_v68 : IVec S_ 1 := andi main_v63 main_v67
  let main_v69 : FVec F S1568 .f32 := Host.absf main_arg14
  let main_cst_26 : FVec F S_ .f32 := constant S_ .f32 0x7F800000#32
  let main_v70 : FVec F S1568 .f32 := broadcastInDim S1568 ![] bcast_S_S1568 main_cst_26
  let main_v71 : IVec S1568 1 := cmpf .olt main_v69 main_v70
  let main_c_27 : IVec S_ 1 := constantI S_ 1 1#1
  let main_v72 : IVec S_ 1 := (fun x v => Host.reduce IntOp.andi x v reducesTo_S1568_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1568 .f32) (main_arg14 : FVec F S1568 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1568 .f32 := Host.absf main_arg13
  let main_cst_24 : FVec F S_ .f32 := constant S_ .f32 0x7F800000#32
  let main_v65 : FVec F S1024x1568 .f32 := broadcastInDim S1024x1568 ![] bcast_S_S1024x1568 main_cst_24
  let main_v66 : IVec S1024x1568 1 := cmpf .olt main_v64 main_v65
  let main_c_25 : IVec S_ 1 := constantI S_ 1 1#1
  let main_v67 : IVec S_ 1 := (fun x v => Host.reduce IntOp.andi x v reducesTo_S1024x1568_S_d0_1 h_S_) main_v66 main_c_25
  fn_part4 (F := F) main_arg14 main_v63 main_v67

def fn_part2 {F : FTy → Type} [FloatOps F] (main_arg7 : FVec F S1024x2 .f32) (main_arg8 : FVec F S2 .f32) (main_arg9 : FVec F S1x1024 .f32) (main_arg10 : FVec F S1024 .f32) (main_arg11 : FVec F S1024x1024 .f32) (main_arg12 : FVec F S1024 .f32) (main_arg13 : FVec F S1024x1568 .f32) (main_arg14 : FVec F S1568 .f32) (main_v33 : IVec S_ 1) : IVec S_ 1 :=
  let main_v34 : FVec F S1024x2 .f32 := Host.absf main_arg7
  let main_cst_12 : FVec F S_ .f32 := constant S_ .f32 0x7F800000#32
  let main_v35 : FVec F S1024x2 .f32 := broadcastInDim S1024x2 ![] bcast_S_S1024x2 main_cst_12
  let main_v36 : IVec S1024x2 1 := cmpf .olt main_v34 main_v35
  let main_c_13 : IVec S_ 1 := constantI S_ 1 1#1
  let main_v37 : IVec S_ 1 := (fun x v => Host.reduce IntOp.andi x v reducesTo_S1024x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S1024x2 .f32) (main_arg8 : FVec F S2 .f32) (main_arg9 : FVec F S1x1024 .f32) (main_arg10 : FVec F S1024 .f32) (main_arg11 : FVec F S1024x1024 .f32) (main_arg12 : FVec F S1024 .f32) (main_arg13 : FVec F S1024x1568 .f32) (main_arg14 : FVec F S1568 .f32) (main_v13 : IVec S_ 1) (main_v16 : IVec S784x1024 1) : IVec S_ 1 :=
  let main_c_5 : IVec S_ 1 := constantI S_ 1 1#1
  let main_v17 : IVec S_ 1 := (fun x v => Host.reduce IntOp.andi x v reducesTo_S784x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x784 .f32) (main_arg1 : FVec F S4096x1 .f32) (main_arg2 : FVec F S4096x1 .f32) (main_arg3 : FVec F S784x1024 .f32) (main_arg4 : FVec F S1024 .f32) (main_arg5 : FVec F S1024x1024 .f32) (main_arg6 : FVec F S1024 .f32) (main_arg7 : FVec F S1024x2 .f32) (main_arg8 : FVec F S2 .f32) (main_arg9 : FVec F S1x1024 .f32) (main_arg10 : FVec F S1024 .f32) (main_arg11 : FVec F S1024x1024 .f32) (main_arg12 : FVec F S1024 .f32) (main_arg13 : FVec F S1024x1568 .f32) (main_arg14 : FVec F S1568 .f32) : IVec S_ 1 :=
  let main_v0 : FVec F S4096x784 .f32 := Host.absf main_arg0
  let main_cst : FVec F S_ .f32 := constant S_ .f32 0x7F800000#32
  let main_v1 : FVec F S4096x784 .f32 := broadcastInDim S4096x784 ![] bcast_S_S4096x784 main_cst
  let main_v2 : IVec S4096x784 1 := cmpf .olt main_v0 main_v1
  let main_c : IVec S_ 1 := constantI S_ 1 1#1
  let main_v3 : IVec S_ 1 := (fun x v => Host.reduce IntOp.andi x v reducesTo_S4096x784_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S784x1024 .f32 := Host.absf main_arg3
  let main_cst_4 : FVec F S_ .f32 := constant S_ .f32 0x7F800000#32
  let main_v15 : FVec F S784x1024 .f32 := broadcastInDim S784x1024 ![] bcast_S_S784x1024 main_cst_4
  let main_v16 : IVec S784x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x784 : Shape := ⟨2, ![4096, 784]⟩
abbrev S4096x1 : Shape := ⟨2, ![4096, 1]⟩
abbrev S784x1024 : Shape := ⟨2, ![784, 1024]⟩
abbrev S1024 : Shape := ⟨1, ![1024]⟩
abbrev S1024x1024 : Shape := ⟨2, ![1024, 1024]⟩
abbrev S1024x2 : Shape := ⟨2, ![1024, 2]⟩
abbrev S2 : Shape := ⟨1, ![2]⟩
abbrev S1x1024 : Shape := ⟨2, ![1, 1024]⟩
abbrev S1024x1568 : Shape := ⟨2, ![1024, 1568]⟩
abbrev S1568 : Shape := ⟨1, ![1568]⟩
abbrev S1x2 : Shape := ⟨2, ![1, 2]⟩
abbrev S1x1568 : Shape := ⟨2, ![1, 1568]⟩
abbrev S256x784 : Shape := ⟨2, ![256, 784]⟩
abbrev S256x1 : Shape := ⟨2, ![256, 1]⟩
abbrev S256x1024 : Shape := ⟨2, ![256, 1024]⟩
abbrev S256x2 : Shape := ⟨2, ![256, 2]⟩
abbrev S256x1568 : Shape := ⟨2, ![256, 1568]⟩
abbrev S256 : Shape := ⟨1, ![256]⟩
abbrev S1x4096 : Shape := ⟨2, ![1, 4096]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩
abbrev S4096 : Shape := ⟨1, ![4096]⟩

abbrev nBuf : Space → Nat
  | .hbm => 40
  | .vmem => 30
  | .smem => 0
  | _ => 0

abbrev bufTy : (tb : Table) → Fin (tcTables nBuf tb) → BufTy
  | .hbm, ⟨0, _⟩ => ⟨S4096x784, .f32⟩
  | .hbm, ⟨1, _⟩ => ⟨S4096x1, .f32⟩
  | .hbm, ⟨2, _⟩ => ⟨S4096x1, .f32⟩
  | .hbm, ⟨3, _⟩ => ⟨S784x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2, .f32⟩
  | .hbm, ⟨8, _⟩ => ⟨S2, .f32⟩
  | .hbm, ⟨9, _⟩ => ⟨S1x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1568, .f32⟩
  | .hbm, ⟨14, _⟩ => ⟨S1568, .f32⟩
  | .hbm, ⟨15, _⟩ => ⟨S784x1024, .bf16⟩
  | .hbm, ⟨16, _⟩ => ⟨S1024x1024, .bf16⟩
  | .hbm, ⟨17, _⟩ => ⟨S1024x2, .bf16⟩
  | .hbm, ⟨18, _⟩ => ⟨S1x1024, .bf16⟩
  | .hbm, ⟨19, _⟩ => ⟨S1024x1024, .bf16⟩
  | .hbm, ⟨20, _⟩ => ⟨S1024x1568, .bf16⟩
  | .hbm, ⟨21, _⟩ => ⟨S1x1024, .f32⟩
  | .hbm, ⟨22, _⟩ => ⟨S1x1024, .f32⟩
  | .hbm, ⟨23, _⟩ => ⟨S1x2, .f32⟩
  | .hbm, ⟨24, _⟩ => ⟨S1x1024, .f32⟩
  | .hbm, ⟨25, _⟩ => ⟨S1x1024, .f32⟩
  | .hbm, ⟨26, _⟩ => ⟨S1x1568, .f32⟩
  | .hbm, ⟨27, _⟩ => ⟨S4096x1, .f32⟩
  | .hbm, ⟨28, _⟩ => ⟨S4096x1, .f32⟩
  | .hbm, ⟨29, _⟩ => ⟨S1x4096, .f32⟩
  | .hbm, ⟨30, _⟩ => ⟨S1x4096, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .local _ .vmem, ⟨0, _⟩ => ⟨S256x784, .f32⟩
  | .local _ .vmem, ⟨1, _⟩ => ⟨S256x784, .f32⟩
  | .local _ .vmem, ⟨2, _⟩ => ⟨S256x1, .f32⟩
  | .local _ .vmem, ⟨3, _⟩ => ⟨S256x1, .f32⟩
  | .local _ .vmem, ⟨4, _⟩ => ⟨S784x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2, .bf16⟩
  | .local _ .vmem, ⟨9, _⟩ => ⟨S1x2, .f32⟩
  | .local _ .vmem, ⟨10, _⟩ => ⟨S1x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S1024x1568, .bf16⟩
  | .local _ .vmem, ⟨15, _⟩ => ⟨S1x1568, .f32⟩
  | .local _ .vmem, ⟨16, _⟩ => ⟨S256x1, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S512x1, .f32⟩
  | .local _ .vmem, ⟨21, _⟩ => ⟨S512x1, .f32⟩
  | .local _ .vmem, ⟨22, _⟩ => ⟨S1x512, .f32⟩
  | .local _ .vmem, ⟨23, _⟩ => ⟨S1x512, .f32⟩
  | .local _ .vmem, ⟨24, _⟩ => ⟨S512x1, .f32⟩
  | .local _ .vmem, ⟨25, _⟩ => ⟨S512x1, .f32⟩
  | .local _ .vmem, ⟨26, _⟩ => ⟨S1x512, .f32⟩
  | .local _ .vmem, ⟨27, _⟩ => ⟨S1x512, .f32⟩
  | .local _ .vmem, ⟨28, _⟩ => ⟨S1x1, .f32⟩
  | .local _ .vmem, ⟨29, _⟩ => ⟨S1x1, .f32⟩
  | _, _ => ⟨S4096x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12_0 : Ref sig .tc := ⟨.hbm, 27, rfl⟩
abbrev main_v12_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S784x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1568 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1568 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨2, ![8, 8], ![false, false]⟩

def k1_cond2 (i : grid1.Coords) : BitVec 1 :=
  let arg0 : BitVec 32 := BitVec.ofNat 32 (i 0).val
  let c7_i32 : BitVec 32 := 7#32
  let v54 : BitVec 1 := Scalar.cmpi .eq arg0 c7_i32
  let arg1 : BitVec 32 := BitVec.ofNat 32 (i 1).val
  let c7_i32_22 : BitVec 32 := 7#32
  let v55 : BitVec 1 := Scalar.cmpi .eq arg1 c7_i32_22
  let v56 : BitVec 1 := Scalar.andi v54 v55
  let v57 : BitVec 32 := Scalar.extui v56
  let c0_i32_23 : BitVec 32 := 0#32
  let v58 : BitVec 1 := Scalar.cmpi .ne v57 c0_i32_23
  v58

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

class Facts₀ : Prop where
  bitsLt_bf16_f32 : FTy.bits .bf16 < FTy.bits .f32
  shapeCasts_S1024_S1x1024 : S1024.ShapeCasts S1x1024
  shapeCasts_S2_S1x2 : S2.ShapeCasts S1x2
  shapeCasts_S1568_S1x1568 : S1568.ShapeCasts S1x1568
  inb_S256x784_S256x784_0_0 : ∀ a, (![0, 0] : Fin 2 → Nat) a + S256x784.size a ≤ S256x784.size a
  h_S256x784 : 0 < S256x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  slices_S256x2_o0_0_S256x1 : S256x2.Slices ![0, 0] S256x1
  slices_S256x2_o0_1_S256x1 : S256x2.Slices ![0, 1] S256x1
  inb_S256x1_S256x1_0_0 : ∀ a, (![0, 0] : Fin 2 → Nat) a + S256x1.size a ≤ S256x1.size a
  h_S256x1 : 0 < S256x1.numel
  inb_S1024x1568_S1024x1568_0_0 : ∀ a, (![0, 0] : Fin 2 → Nat) a + S1024x1568.size a ≤ S1024x1568.size a
  h_S1024x1568 : 0 < S1024x1568.numel
  shapeCasts_S1024x1568_S1024x1568 : S1024x1568.ShapeCasts S1024x1568
  inb_S1x1568_S1x1568_0_0 : ∀ a, (![0, 0] : Fin 2 → Nat) a + S1x1568.size a ≤ S1x1568.size a
  h_S1x1568 : 0 < S1x1568.numel
  shapeCasts_S1x1568_S1x1568 : S1x1568.ShapeCasts S1x1568
  broadcasts_S1x1568_S256x1568 : S1x1568.Broadcasts S256x1568
  slices_S256x1568_o0_0_S256x784 : S256x1568.Slices ![0, 0] S256x784
  slices_S256x1568_o0_784_S256x784 : S256x1568.Slices ![0, 784] S256x784
  reduces_S256x784_S256 : S256x784.Reduces [1] S256
  shapeCasts_S256_S256x1 : S256.ShapeCasts S256x1
  shapeCasts_S4096x1_S1x4096 : S4096x1.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  shapeCasts_S4096x1_S4096 : S4096x1.ShapeCasts S4096
  bcast_S_S4096 : S_.BroadcastsInDim S4096 (![] : Fin 0 → Fin S4096.rank)
  dot_S256x784_S784x1024_S256x1024_1_0_0_1_n_n_wf : DotDims.WF S256x784 S784x1024 S256x1024 [1] [0] [0] [1] [] []
  dot_S256x1024_S1024x1024_S256x1024_1_0_0_1_n_n_wf : DotDims.WF S256x1024 S1024x1024 S256x1024 [1] [0] [0] [1] [] []
  dot_S256x1024_S1024x2_S256x2_1_0_0_1_n_n_wf : DotDims.WF S256x1024 S1024x2 S256x2 [1] [0] [0] [1] [] []
  dot_S256x1_S1x1024_S256x1024_1_0_0_1_n_n_wf : DotDims.WF S256x1 S1x1024 S256x1024 [1] [0] [0] [1] [] []
  dot_S256x1024_S1024x1568_S256x1568_1_0_0_1_n_n_wf : DotDims.WF S256x1024 S1024x1568 S256x1568 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x784.size a ≤ S4096x784.size a
  hwx0_0 : ∀ i : grid0.Coords, EltTy.bits .f32 = 32 ∨ (Rect.block (s := S4096x784) S256x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x1024.size a ≤ S784x1024.size a
  hwx0_2 : ∀ i : grid0.Coords, EltTy.bits .bf16 = 32 ∨ (Rect.block (s := S784x1024) S784x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2.size a ≤ S1024x2.size a
  hwx0_6 : ∀ i : grid0.Coords, EltTy.bits .bf16 = 32 ∨ (Rect.block (s := S1024x2) S1024x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .bf16 = 32 ∨ (Rect.block (s := S1x1024) S1x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1568.size a ≤ S1024x1568.size a
  hwx0_12 : ∀ i : grid0.Coords, EltTy.bits .bf16 = 32 ∨ (Rect.block (s := S1024x1568) S1024x1568.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1568.size a ≤ S1x1568.size a
  hwx0_13 : ∀ i : grid0.Coords, EltTy.bits .f32 = 32 ∨ (Rect.block (s := S1x1568) S1x1568.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1.size a ≤ S4096x1.size a
  hwx0_14 : ∀ i : grid0.Coords, EltTy.bits .f32 = 32 ∨ (Rect.block (s := S4096x1) S256x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x1.size a ≤ S4096x1.size a
  hwx0_15 : ∀ i : grid0.Coords, EltTy.bits .f32 = 32 ∨ (Rect.block (s := S4096x1) S256x1.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S4096x1.size a
  hwx1_0 : ∀ i : grid1.Coords, EltTy.bits .f32 = 32 ∨ (Rect.block (s := S4096x1) S512x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .f32 = 32 ∨ (Rect.block (s := S1x4096) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S256x784_S784x1024_S256x1024_1_0_0_1_n_n : DotDims S256x784 S784x1024 S256x1024 where
  lhsContracting := [1]
  rhsContracting := [0]
  lhsNonContracting := [0]
  rhsNonContracting := [1]
  lhsBatch := []
  rhsBatch := []
  wf := dot_S256x784_S784x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2_S256x2_1_0_0_1_n_n : DotDims S256x1024 S1024x2 S256x2 where
  lhsContracting := [1]
  rhsContracting := [0]
  lhsNonContracting := [0]
  rhsNonContracting := [1]
  lhsBatch := []
  rhsBatch := []
  wf := dot_S256x1024_S1024x2_S256x2_1_0_0_1_n_n_wf
def dot_S256x1_S1x1024_S256x1024_1_0_0_1_n_n : DotDims S256x1 S1x1024 S256x1024 where
  lhsContracting := [1]
  rhsContracting := [0]
  lhsNonContracting := [0]
  rhsNonContracting := [1]
  lhsBatch := []
  rhsBatch := []
  wf := dot_S256x1_S1x1024_S256x1024_1_0_0_1_n_n_wf
def dot_S256x1024_S1024x1568_S256x1568_1_0_0_1_n_n : DotDims S256x1024 S1024x1568 S256x1568 where
  lhsContracting := [1]
  rhsContracting := [0]
  lhsNonContracting := [0]
  rhsNonContracting := [1]
  lhsBatch := []
  rhsBatch := []
  wf := dot_S256x1024_S1024x1568_S256x1568_1_0_0_1_n_n_wf

abbrev win0_0 : Pipeline.Window sig grid0 :=
  Pipeline.Window.ofSpec (Memref.whole main_arg0) S256x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S784x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1568.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x1568.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12_0) S256x1.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v12_1) S256x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v12_1) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x784 : Shape := ⟨2, ![4096, 784]⟩
abbrev S4096x1 : Shape := ⟨2, ![4096, 1]⟩
abbrev S784x1024 : Shape := ⟨2, ![784, 1024]⟩
abbrev S1024 : Shape := ⟨1, ![1024]⟩
abbrev S1024x1024 : Shape := ⟨2, ![1024, 1024]⟩
abbrev S1024x2 : Shape := ⟨2, ![1024, 2]⟩
abbrev S2 : Shape := ⟨1, ![2]⟩
abbrev S1x1024 : Shape := ⟨2, ![1, 1024]⟩
abbrev S1024x1568 : Shape := ⟨2, ![1024, 1568]⟩
abbrev S1568 : Shape := ⟨1, ![1568]⟩
abbrev S4096x1024 : Shape := ⟨2, ![4096, 1024]⟩
abbrev S4096x2 : Shape := ⟨2, ![4096, 2]⟩
abbrev S1x2 : Shape := ⟨2, ![1, 2]⟩
abbrev S_ : Shape := ⟨0, ![]⟩
abbrev S4096 : Shape := ⟨1, ![4096]⟩
abbrev S4096x1568 : Shape := ⟨2, ![4096, 1568]⟩
abbrev S1x1568 : Shape := ⟨2, ![1, 1568]⟩
abbrev S1x4096 : Shape := ⟨2, ![1, 4096]⟩
abbrev S4096x4096 : Shape := ⟨2, ![4096, 4096]⟩

abbrev nBuf : Space → Nat
  | .hbm => 167
  | .vmem => 0
  | .smem => 0
  | _ => 0

abbrev hbmTy0_0 (i : Nat) : BufTy := match i % 128 with
  | 0 => ⟨S4096x784, .f32⟩
  | 1 => ⟨S4096x1, .f32⟩
  | 2 => ⟨S4096x1, .f32⟩
  | 3 => ⟨S784x1024, .f32⟩
  | 4 => ⟨S1024, .f32⟩
  | 5 => ⟨S1024x1024, .f32⟩
  | 6 => ⟨S1024, .f32⟩
  | 7 => ⟨S1024x2, .f32⟩
  | 8 => ⟨S2, .f32⟩
  | 9 => ⟨S1x1024, .f32⟩
  | 10 => ⟨S1024, .f32⟩
  | 11 => ⟨S1024x1024, .f32⟩
  | 12 => ⟨S1024, .f32⟩
  | 13 => ⟨S1024x1568, .f32⟩
  | 14 => ⟨S1568, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S4096x1024, .f32⟩
  | 25 => ⟨S4096x2, .f32⟩
  | 26 => ⟨S1x2, .f32⟩
  | 27 => ⟨S4096x2, .f32⟩
  | 28 => ⟨S4096x2, .f32⟩
  | 29 => ⟨S4096x1, .f32⟩
  | 30 => ⟨S4096x1, .f32⟩
  | 31 => ⟨S4096x1, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096, .f32⟩
  | 44 => ⟨S4096x1, .f32⟩
  | 45 => ⟨S4096x1, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S4096x1568, .f32⟩
  | 57 => ⟨S1x1568, .f32⟩
  | 58 => ⟨S4096x1568, .f32⟩
  | 59 => ⟨S4096x1568, .f32⟩
  | 60 => ⟨S4096x784, .f32⟩
  | 61 => ⟨S4096x784, .f32⟩
  | 62 => ⟨S4096x784, .f32⟩
  | 63 => ⟨S4096x784, .f32⟩
  | 64 => ⟨S4096x784, .f32⟩
  | 65 => ⟨S4096x784, .f32⟩
  | 66 => ⟨S4096x784, .f32⟩
  | 67 => ⟨S_, .f32⟩
  | 68 => ⟨S4096x784, .f32⟩
  | 69 => ⟨S4096x784, .f32⟩
  | 70 => ⟨S4096x784, .f32⟩
  | 71 => ⟨S_, .f32⟩
  | 72 => ⟨S4096x784, .f32⟩
  | 73 => ⟨S4096x784, .f32⟩
  | 74 => ⟨S_, .f32⟩
  | 75 => ⟨S4096, .f32⟩
  | 76 => ⟨S4096, .f32⟩
  | 77 => ⟨S4096x1, .f32⟩
  | 78 => ⟨S_, .f32⟩
  | 79 => ⟨S4096, .f32⟩
  | 80 => ⟨S4096x1, .f32⟩
  | 81 => ⟨S4096x1, .f32⟩
  | 82 => ⟨S_, .f32⟩
  | 83 => ⟨S4096, .f32⟩
  | 84 => ⟨S1x4096, .f32⟩
  | 85 => ⟨S4096x4096, .f32⟩
  | 86 => ⟨S4096x4096, .f32⟩
  | 87 => ⟨S4096x4096, .f32⟩
  | 88 => ⟨S1x4096, .f32⟩
  | 89 => ⟨S4096x4096, .f32⟩
  | 90 => ⟨S_, .f32⟩
  | 91 => ⟨S4096x4096, .f32⟩
  | 92 => ⟨S4096x4096, .f32⟩
  | 93 => ⟨S4096x4096, .f32⟩
  | 94 => ⟨S4096x4096, .f32⟩
  | 95 => ⟨S_, .f32⟩
  | 96 => ⟨S4096x4096, .f32⟩
  | 97 => ⟨S4096x4096, .f32⟩
  | 98 => ⟨S4096x4096, .f32⟩
  | 99 => ⟨S_, .f32⟩
  | 100 => ⟨S_, .f32⟩
  | 101 => ⟨S_, .f32⟩
  | 102 => ⟨S_, .f32⟩
  | 103 => ⟨S4096x1, .f32⟩
  | 104 => ⟨S_, .f32⟩
  | 105 => ⟨S4096, .f32⟩
  | 106 => ⟨S4096x1, .f32⟩
  | 107 => ⟨S4096x1, .f32⟩
  | 108 => ⟨S_, .f32⟩
  | 109 => ⟨S4096, .f32⟩
  | 110 => ⟨S1x4096, .f32⟩
  | 111 => ⟨S4096x4096, .f32⟩
  | 112 => ⟨S4096x4096, .f32⟩
  | 113 => ⟨S4096x4096, .f32⟩
  | 114 => ⟨S1x4096, .f32⟩
  | 115 => ⟨S4096x4096, .f32⟩
  | 116 => ⟨S_, .f32⟩
  | 117 => ⟨S4096x4096, .f32⟩
  | 118 => ⟨S4096x4096, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x4096, .f32⟩
  | 125 => ⟨S_, .f32⟩
  | 126 => ⟨S_, .f32⟩
  | 127 => ⟨S_, .f32⟩
  | _ => ⟨S4096x784, .f32⟩

abbrev hbmTy0_1 (i : Nat) : BufTy := match i % 128 with
  | 0 => ⟨S_, .f32⟩
  | 1 => ⟨S_, .f32⟩
  | 2 => ⟨S4096x1, .f32⟩
  | 3 => ⟨S_, .f32⟩
  | 4 => ⟨S4096, .f32⟩
  | 5 => ⟨S4096x1, .f32⟩
  | 6 => ⟨S4096x1, .f32⟩
  | 7 => ⟨S_, .f32⟩
  | 8 => ⟨S4096, .f32⟩
  | 9 => ⟨S1x4096, .f32⟩
  | 10 => ⟨S4096x4096, .f32⟩
  | 11 => ⟨S4096x4096, .f32⟩
  | 12 => ⟨S4096x4096, .f32⟩
  | 13 => ⟨S1x4096, .f32⟩
  | 14 => ⟨S4096x4096, .f32⟩
  | 15 => ⟨S_, .f32⟩
  | 16 => ⟨S4096x4096, .f32⟩
  | 17 => ⟨S4096x4096, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4096, .f32⟩
  | 33 => ⟨S4096, .f32⟩
  | 34 => ⟨S4096, .f32⟩
  | 35 => ⟨S_, .f32⟩
  | 36 => ⟨S_, .f32⟩
  | 37 => ⟨S4096, .f32⟩
  | 38 => ⟨S4096, .f32⟩
  | _ => ⟨S4096x784, .f32⟩

abbrev hbmTy (i : Nat) : BufTy := match i / 128 with
  | 0 => hbmTy0_0 i
  | 1 => hbmTy0_1 i
  | _ => ⟨S4096x784, .f32⟩

abbrev bufTy : (tb : Table) → Fin (tcTables nBuf tb) → BufTy
  | .hbm, ⟨i, _⟩ => hbmTy i
  | _, _ => ⟨S4096x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_cst_3 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_7 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_8 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_12 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_14 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_16 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_17 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_18 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_19 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_20 : Ref sig .tc := ⟨.hbm, 152, rfl⟩
abbrev main_v116 : Ref sig .tc := ⟨.hbm, 153, rfl⟩
abbrev main_cst_21 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_cst_23 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_24 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  slices_S4096x2_S4096x1_0_0 : S4096x2.Slices ![0, 0] S4096x1
  slices_S4096x2_S4096x1_0_1 : S4096x2.Slices ![0, 1] S4096x1
  bcast_S_S4096x1 : S_.BroadcastsInDim S4096x1 (![] : Fin 0 → Fin S4096x1.rank)
  shapeCasts_S4096x1_S4096 : S4096x1.ShapeCasts S4096
  bcast_S1568_S1x1568_1 : S1568.BroadcastsInDim S1x1568 (![1] : Fin 1 → Fin S1x1568.rank)
  bcast_S1x1568_S4096x1568_0_1 : S1x1568.BroadcastsInDim S4096x1568 (![0, 1] : Fin 2 → Fin S4096x1568.rank)
  slices_S4096x1568_S4096x784_0_0 : S4096x1568.Slices ![0, 0] S4096x784
  slices_S4096x1568_S4096x784_0_784 : S4096x1568.Slices ![0, 784] S4096x784
  bcast_S_S4096x784 : S_.BroadcastsInDim S4096x784 (![] : Fin 0 → Fin S4096x784.rank)
  reducesTo_S4096x784_S4096_d1 : S4096x784.ReducesTo [1] S4096
  h_S_ : 0 < S_.numel
  reducesTo_S4096x1_S4096_d1 : S4096x1.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1_S1x4096_1_0 : S4096x1.Transposes [1, 0] S1x4096
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  dot_S4096x784_S784x1024_S4096x1024_1_0_0_1_n_n_wf : DotDims.WF S4096x784 S784x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x2_S4096x2_1_0_0_1_n_n_wf : DotDims.WF S4096x1024 S1024x2 S4096x2 [1] [0] [0] [1] [] []
  dot_S4096x1_S1x1024_S4096x1024_1_0_0_1_n_n_wf : DotDims.WF S4096x1 S1x1024 S4096x1024 [1] [0] [0] [1] [] []
  dot_S4096x1024_S1024x1568_S4096x1568_1_0_0_1_n_n_wf : DotDims.WF S4096x1024 S1024x1568 S4096x1568 [1] [0] [0] [1] [] []
  dot_S4096x1_S1x4096_S4096x4096_1_0_0_1_n_n_wf : DotDims.WF S4096x1 S1x4096 S4096x4096 [1] [0] [0] [1] [] []

variable [Facts₀]

def dot_S4096x784_S784x1024_S4096x1024_1_0_0_1_n_n : DotDims S4096x784 S784x1024 S4096x1024 where
  lhsContracting := [1]
  rhsContracting := [0]
  lhsNonContracting := [0]
  rhsNonContracting := [1]
  lhsBatch := []
  rhsBatch := []
  wf := dot_S4096x784_S784x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf
def dot_S4096x1_S1x1024_S4096x1024_1_0_0_1_n_n : DotDims S4096x1 S1x1024 S4096x1024 where
  lhsContracting := [1]
  rhsContracting := [0]
  lhsNonContracting := [0]
  rhsNonContracting := [1]
  lhsBatch := []
  rhsBatch := []
  wf := dot_S4096x1_S1x1024_S4096x1024_1_0_0_1_n_n_wf
def dot_S4096x1024_S1024x1568_S4096x1568_1_0_0_1_n_n : DotDims S4096x1024 S1024x1568 S4096x1568 where
  lhsContracting := [1]
  rhsContracting := [0]
  lhsNonContracting := [0]
  rhsNonContracting := [1]
  lhsBatch := []
  rhsBatch := []
  wf := dot_S4096x1024_S1024x1568_S4096x1568_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.Frame0K.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the encoder / sampler / decoder / log-likelihood kernel): the body's half of the frame

Stated at a parameter `V`, the TensorCore's buffer contents when the region is entered:

* each window's block at a grid point, read off its array (`iblk0`);
* every input window's staging buffer holds that block at every point, fetched there or not: the twelve
  weight and bias windows have a constant block index, so a point that does not fetch them still finds
  the block of the point before, which is the same block (`before0_W_of`);
* what the body leaves in each of the two output buffers, as the canonical contents of its single
  whole-buffer store over the input blocks (`out0_14`, `out0_15`);
* the body's triple (`sound_kernel0`), the proof data (`dat0`) and the body obligation at every point
  (`body_obligation0`).

Everything is generic in the float interpretation `F`.
-/

-- membership in a rectangle of the long extents recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block index
    has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block index
    has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block index
    has not moved; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not, for any proof
    data whose array is `V`'s (`hA`) and whose body leaves the block in place (`hafter`): unfetched, the block index
    has not moved; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current staging buffer holds its block at every point, fetched there or not, for any proof
    data whose array is `V`'s (`hA`) and whose body leaves the block in place (`hafter`): unfetched, the block index
    has not moved; the window is uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current staging buffer holds its block at every point, fetched there or not, for any proof
    data whose array is `V`'s (`hA`) and whose body leaves the block in place (`hafter`): unfetched, the block index
    has not moved; the window is uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current staging buffer holds its block at every point, fetched there or not, for any proof
    data whose array is `V`'s (`hA`) and whose body leaves the block in place (`hafter`): unfetched, the block index
    has not moved; the window is uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through its buffer's whole rectangle -/

abbrev r0_0 : Rect S256x784 := Rect.unit (s := S256x784) ![0, 0] S256x784.size inb_S256x784_S256x784_0_0
abbrev r0_1 : Rect S256x1 := Rect.unit (s := S256x1) ![0, 0] S256x1.size inb_S256x1_S256x1_0_0
abbrev r0_2 : Rect S784x1024 := Rect.unit (s := S784x1024) ![0, 0] S784x1024.size inb_S784x1024_S784x1024_0_0
abbrev r0_3 : Rect S1x1024 := Rect.unit (s := S1x1024) ![0, 0] S1x1024.size inb_S1x1024_S1x1024_0_0
abbrev r0_4 : Rect S1024x1024 := Rect.unit (s := S1024x1024) ![0, 0] S1024x1024.size inb_S1024x1024_S1024x1024_0_0
abbrev r0_5 : Rect S1x1024 := Rect.unit (s := S1x1024) ![0, 0] S1x1024.size inb_S1x1024_S1x1024_0_0
abbrev r0_6 : Rect S1024x2 := Rect.unit (s := S1024x2) ![0, 0] S1024x2.size inb_S1024x2_S1024x2_0_0
abbrev r0_7 : Rect S1x2 := Rect.unit (s := S1x2) ![0, 0] S1x2.size inb_S1x2_S1x2_0_0
abbrev r0_8 : Rect S1x1024 := Rect.unit (s := S1x1024) ![0, 0] S1x1024.size inb_S1x1024_S1x1024_0_0
abbrev r0_9 : Rect S1x1024 := Rect.unit (s := S1x1024) ![0, 0] S1x1024.size inb_S1x1024_S1x1024_0_0
abbrev r0_10 : Rect S1024x1024 := Rect.unit (s := S1024x1024) ![0, 0] S1024x1024.size inb_S1024x1024_S1024x1024_0_0
abbrev r0_11 : Rect S1x1024 := Rect.unit (s := S1x1024) ![0, 0] S1x1024.size inb_S1x1024_S1x1024_0_0
abbrev r0_12 : Rect S1024x1568 := Rect.unit (s := S1024x1568) ![0, 0] S1024x1568.size inb_S1024x1568_S1024x1568_0_0
abbrev r0_13 : Rect S1x1568 := Rect.unit (s := S1x1568) ![0, 0] S1x1568.size inb_S1x1568_S1x1568_0_0
abbrev r0_14 : Rect S256x1 := Rect.unit (s := S256x1) ![0, 0] S256x1.size inb_S256x1_S256x1_0_0
abbrev r0_15 : Rect S256x1 := Rect.unit (s := S256x1) ![0, 0] S256x1.size inb_S256x1_S256x1_0_0

/-! ## What the body leaves in each output window's buffer -/

/-- Window 14's staging buffer after the body, from the input windows' blocks: its one store as a piece. The payload
    is the log-likelihood row sum plus half the KL term: `k0_pay1` of the KL row (`k0_pay8` of its two halves
    `k0_pay6`, `k0_pay7` over the encoder's loads) and of the per-pixel log-density (`k0_pay10` over the image block,
    the latent mean `k0_pay3`, the latent scale `k0_pay5`, the noise block and the decoder's loads). -/
def out0_14 (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) : Vec F S256x1 .f32 :=
  View.canon [⟨r0_14, k0_pay1 (k0_pay8 (k0_pay6 (View.ld x0 r0_0) (View.ld x2 r0_2) (View.ld x3 r0_3) (View.ld x4 r0_4) (View.ld x5 r0_5) (View.ld x6 r0_6) (View.ld x7 r0_7)) (k0_pay7 (View.ld x0 r0_0) (View.ld x2 r0_2) (View.ld x3 r0_3) (View.ld x4 r0_4) (View.ld x5 r0_5) (View.ld x6 r0_6) (View.ld x7 r0_7)))
    (k0_pay10 (View.ld x0 r0_0) (k0_pay3 (View.ld x0 r0_0) (View.ld x2 r0_2) (View.ld x3 r0_3) (View.ld x4 r0_4) (View.ld x5 r0_5) (View.ld x6 r0_6) (View.ld x7 r0_7)) (k0_pay5 (View.ld x0 r0_0) (View.ld x2 r0_2) (View.ld x3 r0_3) (View.ld x4 r0_4) (View.ld x5 r0_5) (View.ld x6 r0_6) (View.ld x7 r0_7)) (View.ld x1 r0_1) (View.ld x8 r0_8) (View.ld x9 r0_9) (View.ld x10 r0_10) (View.ld x11 r0_11) (View.ld x12 r0_12) (View.ld x13 r0_13))⟩]

/-- Window 15's staging buffer after the body: its one store as a piece, the latent sample `k0_pay9` (mean plus
    scale times noise) over the encoder's loads and the noise block. -/
def out0_15 (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) : Vec F S256x1 .f32 :=
  View.canon [⟨r0_15, k0_pay9 (k0_pay3 (View.ld x0 r0_0) (View.ld x2 r0_2) (View.ld x3 r0_3) (View.ld x4 r0_4) (View.ld x5 r0_5) (View.ld x6 r0_6) (View.ld x7 r0_7)) (k0_pay5 (View.ld x0 r0_0) (View.ld x2 r0_2) (View.ld x3 r0_3) (View.ld x4 r0_4) (View.ld x5 r0_5) (View.ld x6 r0_6) (View.ld x7 r0_7)) (View.ld x1 r0_1)⟩]

/-- Window 14's store tiles its buffer (checked by evaluation), so it covers it. -/
theorem cover0_14 (p0 : Vec F S256x1 .f32) (y : S256x1.Idx) :
    ∃ pc ∈ ([⟨r0_14, p0⟩] : List (View.Piece (Elt F) S256x1 .f32)), y ∈ pc.1.set :=
  View.cover_of_tiled [⟨r0_14, p0⟩] S256x1.size (by rfl) y

/-- Window 15's store tiles its buffer (checked by evaluation), so it covers it. -/
theorem cover0_15 (p0 : Vec F S256x1 .f32) (y : S256x1.Idx) :
    ∃ pc ∈ ([⟨r0_15, p0⟩] : List (View.Piece (Elt F) S256x1 .f32)), y ∈ pc.1.set :=
  View.cover_of_tiled [⟨r0_15, p0⟩] S256x1.size (by rfl) y

/-! ## The body's triple -/

set_option maxHeartbeats 4000000 in
/-- The kernel body on whole staging memrefs, the inputs' at read contents `xW` and the two outputs' at anything, runs
    to the continuation holding the inputs' as they were and each output's at `out0_W` of the inputs': the printed
    function and its two parts are their skeletons, a sequence of whole-buffer loads (the two output buffers are also
    loaded once, the value unused) and two whole-buffer stores, which the executor runs. -/
theorem sound_kernel0 (c : Dev nD) (E : Set ℕ) (i : grid0.Coords) (arg1 : Memref sig .tc .vmem S256x784 .f32) (harg1 : arg1.IsWhole) (arg2 : Memref sig .tc .vmem S256x1 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2 .bf16) (harg7 : arg7.IsWhole) (arg8 : Memref sig .tc .vmem S1x2 .f32) (harg8 : arg8.IsWhole) (arg9 : Memref sig .tc .vmem S1x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x1568 .bf16) (harg13 : arg13.IsWhole) (arg14 : Memref sig .tc .vmem S1x1568 .f32) (harg14 : arg14.IsWhole) (arg15 : Memref sig .tc .vmem S256x1 .f32) (harg15 : arg15.IsWhole) (arg16 : Memref sig .tc .vmem S256x1 .f32) (harg16 : arg16.IsWhole)
    (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mlp_kernel_eq_skeleton]; unfold cc0_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The pipeline's proof data -/

/-- The proof data of pipeline 0 on core `c`: the arrays as the region finds them (`V`); after the body at point `t`
    each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.R1DefsK.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: tile sums accumulated into a carried scratch cell — what its three control cases share -/

/-- The first conditional of the body (reset the cell): both grid coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional (copy the cell out): both grid coordinates are seven. -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-- The scratch cell as a memref and as a view. -/
abbrev scM1 : Memref sig .tc .vmem S1x1 .f32 := Memref.whole cc1_scratch0
abbrev VS1 : View sig .tc .vmem S1x1 .f32 := scM1.view
/-- One staging buffer of the output window, through which its contents are stated. -/
abbrev VO1 : View sig .tc .vmem S1x1 .f32 := (Memref.whole cc1_stg4_0 : Memref sig .tc .vmem S1x1 .f32).view

/-- Each window's current staging memref at a point, as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The input windows are never idle; the output window is idle except at the last point, where it is written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The class invariant with the scratch cell split off: the cell at some contents, the other scoped buffers unopened,
    the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]
  try rfl

end Cert.Kernel.Hand

end
-- ==== Proof.R1RunAK.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import proofs.«167655_j26061861552780_1_alg».proof.Proof.R1DefsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the cell is reset to zero, read back and stored once; the output is untouched. What its stores leave in the cell is found as pieces
    (last first) by running the body on whole memrefs holding the four input blocks. -/
noncomputable def kernelRun1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S512x1 .f32) (x1 : Vec F S1x512 .f32) (x2 : Vec F S512x1 .f32) (x3 : Vec F S1x512 .f32) :
    { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, fun xi4 E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.R1RunBK.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import proofs.«167655_j26061861552780_1_alg».proof.Proof.R1DefsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A POINT THAT IS NEITHER FIRST NOR LAST: the cell, holding `xs0`, is read and stored once; the output is untouched. What its stores leave in the cell is found as pieces
    (last first) by running the body on whole memrefs holding the four input blocks. -/
noncomputable def kernelRun1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S512x1 .f32) (x1 : Vec F S1x512 .f32) (x2 : Vec F S512x1 .f32) (x3 : Vec F S1x512 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, fun xi4 E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.R1RunCK.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import proofs.«167655_j26061861552780_1_alg».proof.Proof.R1DefsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: the cell, holding `xs0`, is read and stored once, then read again and copied into the output. What its stores leave in the cell and in the output's staging buffer is found as pieces
    (last first) by running the body on whole memrefs holding the four input blocks. -/
noncomputable def kernelRun1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S512x1 .f32) (x1 : Vec F S1x512 .f32) (x2 : Vec F S512x1 .f32) (x3 : Vec F S1x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, ?_, fun E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.Kernel.Hand

end
-- ==== Proof.Frame1K.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import proofs.«167655_j26061861552780_1_alg».proof.Proof.R1RunAK
import proofs.«167655_j26061861552780_1_alg».proof.Proof.R1RunBK
import proofs.«167655_j26061861552780_1_alg».proof.Proof.R1RunCK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: what the cell and the output hold point by point, the proof data, the body obligation -/

/-! ## What each case leaves -/

/-- The first point's pieces cover the cell. -/
theorem scover1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 : Vec F S512x1 .f32) (x1 : Vec F S1x512 .f32) (x2 : Vec F S512x1 .f32) (x3 : Vec F S1x512 .f32) (y : S1x1.Idx) :
    ∃ pc ∈ (kernelRun1_A (F := F) c i arg2 harg2 arg3 harg3 arg4 harg4 arg5 harg5 arg6 harg6 arg7 harg7 hc0 hc1 x0 x1 x2 x3).1, y ∈ pc.1.set :=
  View.cover_of_tiledL (kernelRun1_A (F := F) c i arg2 harg2 arg3 harg3 arg4 harg4 arg5 harg5 arg6 harg6 arg7 harg7 hc0 hc1 x0 x1 x2 x3).1 S1x1.size (by sl_kernel_rfl) y
/-- What the first point leaves in the cell: its pieces read back. -/
def sout1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 : Vec F S512x1 .f32) (x1 : Vec F S1x512 .f32) (x2 : Vec F S512x1 .f32) (x3 : Vec F S1x512 .f32) : Vec F S1x1 .f32 :=
  VS1.read (Elt F) (VS1.writes (Elt F) VS1.junk (kernelRun1_A (F := F) c i arg2 harg2 arg3 harg3 arg4 harg4 arg5 harg5 arg6 harg6 arg7 harg7 hc0 hc1 x0 x1 x2 x3).1)

theorem scover1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_B (F := F) c i arg2 harg2 arg3 harg3 arg4 harg4 arg5 harg5 arg6 harg6 arg7 harg7 hc0 hc1 x0 x1 x2 x3 xs0).1, y ∈ pc.1.set :=
  View.cover_of_tiledL (kernelRun1_B (F := F) c i arg2 harg2 arg3 harg3 arg4 harg4 arg5 harg5 arg6 harg6 arg7 harg7 hc0 hc1 x0 x1 x2 x3 xs0).1 S1x1.size (by sl_kernel_rfl) y
/-- What a middle point leaves in the cell, over what the point before left (`xs0`). -/
def sout1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 : Vec F S512x1 .f32) (x1 : Vec F S1x512 .f32) (x2 : Vec F S512x1 .f32) (x3 : Vec F S1x512 .f32) (xs0 : Vec F S1x1 .f32) : Vec F S1x1 .f32 :=
  VS1.read (Elt F) (VS1.writes (Elt F) VS1.junk (kernelRun1_B (F := F) c i arg2 harg2 arg3 harg3 arg4 harg4 arg5 harg5 arg6 harg6 arg7 harg7 hc0 hc1 x0 x1 x2 x3 xs0).1)

theorem scover1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_C (F := F) c i arg2 harg2 arg3 harg3 arg4 harg4 arg5 harg5 arg6 harg6 arg7 harg7 hc0 hc1 x0 x1 x2 x3 xs0).2.1, y ∈ pc.1.set :=
  View.cover_of_tiledL (kernelRun1_C (F := F) c i arg2 harg2 arg3 harg3 arg4 harg4 arg5 harg5 arg6 harg6 arg7 harg7 hc0 hc1 x0 x1 x2 x3 xs0).2.1 S1x1.size (by sl_kernel_rfl) y
theorem cover1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_C (F := F) c i arg2 harg2 arg3 harg3 arg4 harg4 arg5 harg5 arg6 harg6 arg7 harg7 hc0 hc1 x0 x1 x2 x3 xs0).1, y ∈ pc.1.set :=
  View.cover_of_tiledL (kernelRun1_C (F := F) c i arg2 harg2 arg3 harg3 arg4 harg4 arg5 harg5 arg6 harg6 arg7 harg7 hc0 hc1 x0 x1 x2 x3 xs0).1 S1x1.size (by sl_kernel_rfl) y
/-- What the last point leaves in the cell and in the output's staging buffer. -/
def sout1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) : Vec F S1x1 .f32 :=
  VS1.read (Elt F) (VS1.writes (Elt F) VS1.junk (kernelRun1_C (F := F) c i arg2 harg2 arg3 harg3 arg4 harg4 arg5 harg5 arg6 harg6 arg7 harg7 hc0 hc1 x0 x1 x2 x3 xs0).2.1)
def out1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) : Vec F S1x1 .f32 :=
  VO1.read (Elt F) (VO1.writes (Elt F) VO1.junk (kernelRun1_C (F := F) c i arg2 harg2 arg3 harg3 arg4 harg4 arg5 harg5 arg6 harg6 arg7 harg7 hc0 hc1 x0 x1 x2 x3 xs0).1)
/-- At the other points nothing is stored into the output: a placeholder nothing consults. -/
def outIdle1 : Vec F S1x1 .f32 := VO1.read (Elt F) (VO1.writes (Elt F) VO1.junk [])

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- What the output's staging buffer and the cell hold after the body at position `n`: the first point starts the cell
    from zero, every later point adds to what the point before left, and the last also copies the cell out. -/
def outsAt1 (c : Dev nD) : (n : ℕ) → n < cfg1.N → Vec F S1x1 .f32 × Vec F S1x1 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the cell at what the point before left -/

/-- Before the first point the class's invariant (every scoped buffer at anything); afterwards the cell at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's and the cell at the
    accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h1 : ¬t.val = 63 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_A c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ h0]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ h0]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the cell's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Region

end Cert.Kernel.Hand

end
-- ==== Proof.RunK.lean ====
import proofs.«167655_j26061861552780_1_alg».proof.Proof.Gen.Kernel.Launch
import proofs.«167655_j26061861552780_1_alg».proof.Proof.Gen.Kernel.Skeleton
import proofs.«167655_j26061861552780_1_alg».proof.Proof.Gen.Kernel.Points
import proofs.«167655_j26061861552780_1_alg».proof.Proof.Gen.Kernel.Regions
import proofs.«167655_j26061861552780_1_alg».proof.Proof.Frame0K
import proofs.«167655_j26061861552780_1_alg».proof.Proof.Frame1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host lines, the first kernel region, host lines, the second kernel region, host lines -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host lines (the first region's entry). -/
abbrev W1 : Dev nD → Valuation τ sig (Elt F) := fun c => StableHlo.after hostOps0 (W0 m c)
abbrev VA1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (VA1 m) c).arrAt w cfg0.N
theorem W2_arr (c : Dev nD) (w : Fin cfg0.W) :
    W2 m c (Proc.devRef .tc (Pipeline.arrRef spec0 w)) = (dat0 (VA1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VA2 : (c : Dev nD) → (b : Ref sig .tc) → Buf (Elt F) ((c : Thread nD τ).loc b) := fun c b => W2 m c b
theorem hF0 (c : Dev nD) (w : Fin cfg0.W) : (dat0 (VA1 m) c).arrAt w cfg0.N = VA2 m c (Pipeline.arrRef spec0 w) :=
  (W2_arr m c w).symm
theorem hrest0 (c : Dev nD) : ∀ b, b ∉ Finset.univ.image (Pipeline.arrRef spec0) → VA2 m c b = VA1 m c b :=
  fun b hb => W2_of_ne m c b fun w e => hb (Finset.mem_image.mpr ⟨w, Finset.mem_univ _, e⟩)

/-- After the middle host lines (the second region's entry). -/
abbrev W3 : Dev nD → Valuation τ sig (Elt F) := fun c => StableHlo.after hostOps1 (W2 m c)
abbrev VA3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (VA3 m) c).arrAt w cfg1.N
theorem W4_arr (c : Dev nD) (w : Fin cfg1.W) :
    W4 m c (Proc.devRef .tc (Pipeline.arrRef spec1 w)) = (dat1 (VA3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VA4 : (c : Dev nD) → (b : Ref sig .tc) → Buf (Elt F) ((c : Thread nD τ).loc b) := fun c b => W4 m c b
theorem hF1 (c : Dev nD) (w : Fin cfg1.W) : (dat1 (VA3 m) c).arrAt w cfg1.N = VA4 m c (Pipeline.arrRef spec1 w) :=
  (W4_arr m c w).symm
theorem hrest1 (c : Dev nD) : ∀ b, b ∉ Finset.univ.image (Pipeline.arrRef spec1) → VA4 m c b = VA3 m c b :=
  fun b hb => W4_of_ne m c b fun w e => hb (Finset.mem_image.mpr ⟨w, Finset.mem_univ _, e⟩)
/-- After the last host lines: what the program returns with. -/
abbrev W5 : Dev nD → Valuation τ sig (Elt F) := fun c => StableHlo.after hostOps2 (W4 m c)

/-! ## No line and no region writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (VA1 m) c).arrAt_in 0 rfl _).trans (A_eq0 (VA1 m) c 0))
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((dat0 (VA1 m) c).arrAt_in 1 rfl _).trans (A_eq0 (VA1 m) c 1))
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := (W4_arr m c 2).trans (((dat1 (VA3 m) c).arrAt_in 2 rfl _).trans (A_eq1 (VA3 m) c 2))
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (r := main_arg11) (by decide)
    _ = W3 m c (Proc.devRef .tc main_arg11) := W4_of_ne m c main_arg11 (by decide)
    _ = W2 m c (Proc.devRef .tc main_arg11) := StableHlo.after_of_writes_sub hostOps1 _ hostOps1_writes (r := main_arg11) (by decide)
    _ = W1 m c (Proc.devRef .tc main_arg11) := W2_of_ne m c main_arg11 (by decide)
    _ = W0 m c (Proc.devRef .tc main_arg11) := StableHlo.after_of_writes_sub hostOps0 _ hostOps0_writes (r := main_arg11) (by decide)
    _ = m ((c : Thread nD τ).loc main_arg11) := rfl
theorem W5_main_arg12 (c : Dev nD) : W5 m c (Proc.devRef .tc main_arg12) = m ((c : Thread nD τ).loc main_arg12) :=
  calc W5 m c (Proc.devRef .tc main_arg12)
    _ = W4 m c (Proc.devRef .tc main_arg12) := StableHlo.after_of_writes_sub hostOps2 _ hostOps2_writes (r := main_arg12) (by decide)
    _ = W3 m c (Proc.devRef .tc main_arg12) := W4_of_ne m c main_arg12 (by decide)
    _ = W2 m c (Proc.devRef .tc main_arg12) := StableHlo.after_of_writes_sub hostOps1 _ hostOps1_writes (r := main_arg12) (by decide)
    _ = W1 m c (Proc.devRef .tc main_arg12) := W2_of_ne m c main_arg12 (by decide)
    _ = W0 m c (Proc.devRef .tc main_arg12) := StableHlo.after_of_writes_sub hostOps0 _ hostOps0_writes (r := main_arg12) (by decide)
    _ = m ((c : Thread nD τ).loc main_arg12) := rfl
theorem W5_main_arg13 (c : Dev nD) : W5 m c (Proc.devRef .tc main_arg13) = m ((c : Thread nD τ).loc main_arg13) :=
  calc W5 m c (Proc.devRef .tc main_arg13)
    _ = W4 m c (Proc.devRef .tc main_arg13) := StableHlo.after_of_writes_sub hostOps2 _ hostOps2_writes (r := main_arg13) (by decide)
    _ = W3 m c (Proc.devRef .tc main_arg13) := W4_of_ne m c main_arg13 (by decide)
    _ = W2 m c (Proc.devRef .tc main_arg13) := StableHlo.after_of_writes_sub hostOps1 _ hostOps1_writes (r := main_arg13) (by decide)
    _ = W1 m c (Proc.devRef .tc main_arg13) := W2_of_ne m c main_arg13 (by decide)
    _ = W0 m c (Proc.devRef .tc main_arg13) := StableHlo.after_of_writes_sub hostOps0 _ hostOps0_writes (r := main_arg13) (by decide)
    _ = m ((c : Thread nD τ).loc main_arg13) := rfl
theorem W5_main_arg14 (c : Dev nD) : W5 m c (Proc.devRef .tc main_arg14) = m ((c : Thread nD τ).loc main_arg14) :=
  calc W5 m c (Proc.devRef .tc main_arg14)
    _ = W4 m c (Proc.devRef .tc main_arg14) := StableHlo.after_of_writes_sub hostOps2 _ hostOps2_writes (r := main_arg14) (by decide)
    _ = W3 m c (Proc.devRef .tc main_arg14) := W4_of_ne m c main_arg14 (by decide)
    _ = W2 m c (Proc.devRef .tc main_arg14) := StableHlo.after_of_writes_sub hostOps1 _ hostOps1_writes (r := main_arg14) (by decide)
    _ = W1 m c (Proc.devRef .tc main_arg14) := W2_of_ne m c main_arg14 (by decide)
    _ = W0 m c (Proc.devRef .tc main_arg14) := StableHlo.after_of_writes_sub hostOps0 _ hostOps0_writes (r := main_arg14) (by decide)
    _ = m ((c : Thread nD τ).loc main_arg14) := rfl

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VA1 m) c
  | ⟨1, _⟩ => fun c => dat1 (VA3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the boundary before it, left at the one after it:
    its arrays split out of the unscoped buffers and put back at their exit contents; the generator register and the scoped
    rest into the region's invariant and out; nothing owed; no semaphore of the kernel's own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VA1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VA1 m c) (VA2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after it:
    its arrays split out of the unscoped buffers and put back at their exit contents; the generator register and the scoped
    rest into the region's invariant and out; nothing owed; no semaphore of the kernel's own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VA3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VA3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VA3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VA3 m) c).Φ (Fin.last cfg1.N) from rfl]
    have h := hout1 (VA3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VA3 m c) (VA4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segsH m) := (main_chain c).trans (by chain_rfl)

set_option backward.isDefEq.respectTransparency.types false in
/-- THE RUN. From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c),
    (h c _ (mem_uc main_arg13 (by decide))).trans (W5_main_arg13 m c),
    (h c _ (mem_uc main_arg14 (by decide))).trans (W5_main_arg14 m c)⟩) (run_all m ρ)

/-- The result buffer ends at the last boundary's contents. -/
theorem result_at (r : PUnit × MemSt nD τ sig (Elt F)) (h : ∀ c : Dev nD, ∀ b ∈ Pipeline.ucRefs τ sig, r.2.mem (((c : Thread nD τ)).1, b) = W5 m c b) (c : Dev nD) :
    r.2.mem ((c.tc : Thread nD τ).loc main_v21) = W5 m c (Proc.devRef .tc main_v21) :=
  h c _ (mem_uc main_v21 (by decide))

end Cert.Kernel.Hand

end
-- ==== Proof.Frame0.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 0 (the encoder / sampler / decoder / log-likelihood kernel): the body's half of the frame

Stated at a parameter `V`, the TensorCore's buffer contents when the region is entered:

* each window's block at a grid point, read off its array (`iblk0`);
* every input window's staging buffer holds that block at every point, fetched there or not: the twelve
  weight and bias windows have a constant block index, so a point that does not fetch them still finds
  the block of the point before, which is the same block (`before0_W_of`);
* what the body leaves in each of the two output buffers, as the canonical contents of its single
  whole-buffer store over the input blocks (`out0_14`, `out0_15`);
* the body's triple (`sound_kernel0`), the proof data (`dat0`) and the body obligation at every point
  (`body_obligation0`).

Everything is generic in the float interpretation `F`.
-/

-- membership in a rectangle of the long extents recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof
    data whose array is `V`'s (`hA`) and whose body leaves the block in place (`hafter`): unfetched, the block index
    has not moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof
    data whose array is `V`'s (`hA`) and whose body leaves the block in place (`hafter`): unfetched, the block index
    has not moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not, for any proof
    data whose array is `V`'s (`hA`) and whose body leaves the block in place (`hafter`): unfetched, the block index
    has not moved; the window is uncut and never idle. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not, for any proof
    data whose array is `V`'s (`hA`) and whose body leaves the block in place (`hafter`): unfetched, the block index
    has not moved; the window is uncut and never idle. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11's current staging buffer holds its block at every point, fetched there or not, for any proof
    data whose array is `V`'s (`hA`) and whose body leaves the block in place (`hafter`): unfetched, the block index
    has not moved; the window is uncut and never idle. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12's current staging buffer holds its block at every point, fetched there or not, for any proof
    data whose array is `V`'s (`hA`) and whose body leaves the block in place (`hafter`): unfetched, the block index
    has not moved; the window is uncut and never idle. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13's current staging buffer holds its block at every point, fetched there or not, for any proof
    data whose array is `V`'s (`hA`) and whose body leaves the block in place (`hafter`): unfetched, the block index
    has not moved; the window is uncut and never idle. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through its buffer's whole rectangle -/

abbrev r0_0 : Rect S256x784 := Rect.unit (s := S256x784) ![0, 0] S256x784.size inb_S256x784_S256x784_0_0
abbrev r0_1 : Rect S256x1 := Rect.unit (s := S256x1) ![0, 0] S256x1.size inb_S256x1_S256x1_0_0
abbrev r0_2 : Rect S784x1024 := Rect.unit (s := S784x1024) ![0, 0] S784x1024.size inb_S784x1024_S784x1024_0_0
abbrev r0_3 : Rect S1x1024 := Rect.unit (s := S1x1024) ![0, 0] S1x1024.size inb_S1x1024_S1x1024_0_0
abbrev r0_4 : Rect S1024x1024 := Rect.unit (s := S1024x1024) ![0, 0] S1024x1024.size inb_S1024x1024_S1024x1024_0_0
abbrev r0_5 : Rect S1x1024 := Rect.unit (s := S1x1024) ![0, 0] S1x1024.size inb_S1x1024_S1x1024_0_0
abbrev r0_6 : Rect S1024x2 := Rect.unit (s := S1024x2) ![0, 0] S1024x2.size inb_S1024x2_S1024x2_0_0
abbrev r0_7 : Rect S1x2 := Rect.unit (s := S1x2) ![0, 0] S1x2.size inb_S1x2_S1x2_0_0
abbrev r0_8 : Rect S1x1024 := Rect.unit (s := S1x1024) ![0, 0] S1x1024.size inb_S1x1024_S1x1024_0_0
abbrev r0_9 : Rect S1x1024 := Rect.unit (s := S1x1024) ![0, 0] S1x1024.size inb_S1x1024_S1x1024_0_0
abbrev r0_10 : Rect S1024x1024 := Rect.unit (s := S1024x1024) ![0, 0] S1024x1024.size inb_S1024x1024_S1024x1024_0_0
abbrev r0_11 : Rect S1x1024 := Rect.unit (s := S1x1024) ![0, 0] S1x1024.size inb_S1x1024_S1x1024_0_0
abbrev r0_12 : Rect S1024x1568 := Rect.unit (s := S1024x1568) ![0, 0] S1024x1568.size inb_S1024x1568_S1024x1568_0_0
abbrev r0_13 : Rect S1x1568 := Rect.unit (s := S1x1568) ![0, 0] S1x1568.size inb_S1x1568_S1x1568_0_0
abbrev r0_14 : Rect S256x1 := Rect.unit (s := S256x1) ![0, 0] S256x1.size inb_S256x1_S256x1_0_0
abbrev r0_15 : Rect S256x1 := Rect.unit (s := S256x1) ![0, 0] S256x1.size inb_S256x1_S256x1_0_0

/-! ## What the body leaves in each output window's buffer -/

/-- Window 14's staging buffer after the body, from the input windows' blocks: its one store as a piece. The payload
    is the log-likelihood row sum plus half the KL term: `k0_pay1` of the KL row (`k0_pay8` of its two halves
    `k0_pay6`, `k0_pay7` over the encoder's loads) and of the per-pixel log-density (`k0_pay10` over the image block,
    the latent mean `k0_pay3`, the latent scale `k0_pay5`, the noise block and the decoder's loads). -/
def out0_14 (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) : Vec F S256x1 .f32 :=
  View.canon [⟨r0_14, k0_pay1 (k0_pay8 (k0_pay6 (View.ld x0 r0_0) (View.ld x2 r0_2) (View.ld x3 r0_3) (View.ld x4 r0_4) (View.ld x5 r0_5) (View.ld x6 r0_6) (View.ld x7 r0_7)) (k0_pay7 (View.ld x0 r0_0) (View.ld x2 r0_2) (View.ld x3 r0_3) (View.ld x4 r0_4) (View.ld x5 r0_5) (View.ld x6 r0_6) (View.ld x7 r0_7)))
    (k0_pay10 (View.ld x0 r0_0) (k0_pay3 (View.ld x0 r0_0) (View.ld x2 r0_2) (View.ld x3 r0_3) (View.ld x4 r0_4) (View.ld x5 r0_5) (View.ld x6 r0_6) (View.ld x7 r0_7)) (k0_pay5 (View.ld x0 r0_0) (View.ld x2 r0_2) (View.ld x3 r0_3) (View.ld x4 r0_4) (View.ld x5 r0_5) (View.ld x6 r0_6) (View.ld x7 r0_7)) (View.ld x1 r0_1) (View.ld x8 r0_8) (View.ld x9 r0_9) (View.ld x10 r0_10) (View.ld x11 r0_11) (View.ld x12 r0_12) (View.ld x13 r0_13))⟩]

/-- Window 15's staging buffer after the body: its one store as a piece, the latent sample `k0_pay9` (mean plus
    scale times noise) over the encoder's loads and the noise block. -/
def out0_15 (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) : Vec F S256x1 .f32 :=
  View.canon [⟨r0_15, k0_pay9 (k0_pay3 (View.ld x0 r0_0) (View.ld x2 r0_2) (View.ld x3 r0_3) (View.ld x4 r0_4) (View.ld x5 r0_5) (View.ld x6 r0_6) (View.ld x7 r0_7)) (k0_pay5 (View.ld x0 r0_0) (View.ld x2 r0_2) (View.ld x3 r0_3) (View.ld x4 r0_4) (View.ld x5 r0_5) (View.ld x6 r0_6) (View.ld x7 r0_7)) (View.ld x1 r0_1)⟩]

/-- Window 14's store tiles its buffer (checked by evaluation), so it covers it. -/
theorem cover0_14 (p0 : Vec F S256x1 .f32) (y : S256x1.Idx) :
    ∃ pc ∈ ([⟨r0_14, p0⟩] : List (View.Piece (Elt F) S256x1 .f32)), y ∈ pc.1.set :=
  View.cover_of_tiled [⟨r0_14, p0⟩] S256x1.size (by rfl) y

/-- Window 15's store tiles its buffer (checked by evaluation), so it covers it. -/
theorem cover0_15 (p0 : Vec F S256x1 .f32) (y : S256x1.Idx) :
    ∃ pc ∈ ([⟨r0_15, p0⟩] : List (View.Piece (Elt F) S256x1 .f32)), y ∈ pc.1.set :=
  View.cover_of_tiled [⟨r0_15, p0⟩] S256x1.size (by rfl) y

/-! ## The body's triple -/

set_option maxHeartbeats 4000000 in
/-- The kernel body on whole staging memrefs, the inputs' at read contents `xW` and the two outputs' at anything, runs
    to the continuation holding the inputs' as they were and each output's at `out0_W` of the inputs': the printed
    function and its two parts are their skeletons, a sequence of whole-buffer loads (the two output buffers are also
    loaded once, the value unused) and two whole-buffer stores, which the executor runs. -/
theorem sound_kernel0 (c : Dev nD) (E : Set ℕ) (i : grid0.Coords) (arg1 : Memref sig .tc .vmem S256x784 .f32) (harg1 : arg1.IsWhole) (arg2 : Memref sig .tc .vmem S256x1 .f32) (harg2 : arg2.IsWhole) (arg3 : Memref sig .tc .vmem S784x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x2 .bf16) (harg7 : arg7.IsWhole) (arg8 : Memref sig .tc .vmem S1x2 .f32) (harg8 : arg8.IsWhole) (arg9 : Memref sig .tc .vmem S1x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x1568 .bf16) (harg13 : arg13.IsWhole) (arg14 : Memref sig .tc .vmem S1x1568 .f32) (harg14 : arg14.IsWhole) (arg15 : Memref sig .tc .vmem S256x1 .f32) (harg15 : arg15.IsWhole) (arg16 : Memref sig .tc .vmem S256x1 .f32) (harg16 : arg16.IsWhole)
    (x0 : Vec F S256x784 .f32) (x1 : Vec F S256x1 .f32) (x2 : Vec F S784x1024 .bf16) (x3 : Vec F S1x1024 .f32) (x4 : Vec F S1024x1024 .bf16) (x5 : Vec F S1x1024 .f32) (x6 : Vec F S1024x2 .bf16) (x7 : Vec F S1x2 .f32) (x8 : Vec F S1x1024 .bf16) (x9 : Vec F S1x1024 .f32) (x10 : Vec F S1024x1024 .bf16) (x11 : Vec F S1x1024 .f32) (x12 : Vec F S1024x1568 .bf16) (x13 : Vec F S1x1568 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13)) -∗ K ⟨⟩))
      ⊢ wp frame (wpE (defs₀ (F := F)) Variants.none c none) E (cc0_mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mlp_kernel_eq_skeleton]; unfold cc0_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (cover0_14 _)
  iexists _; isplitr
  swap; · iexact H15
  ipureintro
  exact View.read_writes_eq_canon _ _ _ (cover0_15 _)

/-! ## The pipeline's proof data -/

/-- The proof data of pipeline 0 on core `c`: the arrays as the region finds them (`V`); after the body at point `t`
    each input's buffer at its block and each output's at `out0_W` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 16, h⟩ => absurd h (Nat.not_lt.2 (Nat.le_add_left _ _))
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel0 c Set.univ (grid0.coords t) _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: tile sums accumulated into a carried scratch cell — what its three control cases share -/

/-- The first conditional of the body (reset the cell): both grid coordinates are zero. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional (copy the cell out): both grid coordinates are seven. -/
abbrev cond1_1 (i : grid1.Coords) : Prop := k1_cond2 i = 1#1
/-- It holds at the last point only. -/
theorem hcond1_1 : ∀ t : Fin cfg1.N, cond1_1 (grid1.coords t) ↔ t.val = 63 :=
  (by decide +kernel : ∀ t : Fin grid1.N, cond1_1 (grid1.coords t) ↔ t.val = 63)

/-- The scratch cell as a memref and as a view. -/
abbrev scM1 : Memref sig .tc .vmem S1x1 .f32 := Memref.whole cc1_scratch0
abbrev VS1 : View sig .tc .vmem S1x1 .f32 := scM1.view
/-- One staging buffer of the output window, through which its contents are stated. -/
abbrev VO1 : View sig .tc .vmem S1x1 .f32 := (Memref.whole cc1_stg4_0 : Memref sig .tc .vmem S1x1 .f32).view

/-- Each window's current staging memref at a point, as the pipeline passes it, and its wholeness. -/
abbrev ms1_0 (t : Fin cfg1.N) : Memref sig .tc .vmem S512x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)

/-- The input windows are never idle; the output window is idle except at the last point, where it is written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The class invariant with the scratch cell split off: the cell at some contents, the other scoped buffers unopened,
    the generator register at some state. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]
  try rfl

end Cert.KernelIdeal.Hand

end
-- ==== Proof.R1RunA.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST POINT: the cell is reset to zero, read back and stored once; the output is untouched. What its stores leave in the cell is found as pieces
    (last first) by running the body on whole memrefs holding the four input blocks. -/
noncomputable def kernelRun1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S512x1 .f32) (x1 : Vec F S1x512 .f32) (x2 : Vec F S512x1 .f32) (x3 : Vec F S1x512 .f32) :
    { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, fun xi4 E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.R1RunB.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A POINT THAT IS NEITHER FIRST NOR LAST: the cell, holding `xs0`, is read and stored once; the output is untouched. What its stores leave in the cell is found as pieces
    (last first) by running the body on whole memrefs holding the four input blocks. -/
noncomputable def kernelRun1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S512x1 .f32) (x1 : Vec F S1x512 .f32) (x2 : Vec F S512x1 .f32) (x3 : Vec F S1x512 .f32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, fun xi4 E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.R1RunC.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST POINT: the cell, holding `xs0`, is read and stored once, then read again and copied into the output. What its stores leave in the cell and in the output's staging buffer is found as pieces
    (last first) by running the body on whole memrefs holding the four input blocks. -/
noncomputable def kernelRun1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S512x1 .f32) (x1 : Vec F S1x512 .f32) (x2 : Vec F S512x1 .f32) (x3 : Vec F S1x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_mmd_kernel i arg2 harg2 arg3 harg3 arg4 harg4 arg5 harg5 arg6 harg6 arg7 harg7) K } := by
  refine ⟨?_, ?_, fun E K => ?run⟩
  case run =>
    simp only [cc1_mmd_kernel_eq_skeleton]; unfold cc1_mmd_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact HS0

end Cert.KernelIdeal.Hand

end
-- ==== Proof.Frame1.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.R1RunA
import proofs.«167655_j26061861552780_1_alg».proof.Proof.R1RunB
import proofs.«167655_j26061861552780_1_alg».proof.Proof.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel region: what the cell and the output hold point by point, the proof data, the body obligation -/

/-! ## What each case leaves -/

/-- The first point's pieces cover the cell. -/
theorem scover1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 : Vec F S512x1 .f32) (x1 : Vec F S1x512 .f32) (x2 : Vec F S512x1 .f32) (x3 : Vec F S1x512 .f32) (y : S1x1.Idx) :
    ∃ pc ∈ (kernelRun1_A (F := F) c i arg2 harg2 arg3 harg3 arg4 harg4 arg5 harg5 arg6 harg6 arg7 harg7 hc0 hc1 x0 x1 x2 x3).1, y ∈ pc.1.set :=
  View.cover_of_tiledL (kernelRun1_A (F := F) c i arg2 harg2 arg3 harg3 arg4 harg4 arg5 harg5 arg6 harg6 arg7 harg7 hc0 hc1 x0 x1 x2 x3).1 S1x1.size (by sl_kernel_rfl) y
/-- What the first point leaves in the cell: its pieces read back. -/
def sout1_A (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i) (x0 : Vec F S512x1 .f32) (x1 : Vec F S1x512 .f32) (x2 : Vec F S512x1 .f32) (x3 : Vec F S1x512 .f32) : Vec F S1x1 .f32 :=
  VS1.read (Elt F) (VS1.writes (Elt F) VS1.junk (kernelRun1_A (F := F) c i arg2 harg2 arg3 harg3 arg4 harg4 arg5 harg5 arg6 harg6 arg7 harg7 hc0 hc1 x0 x1 x2 x3).1)

theorem scover1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_B (F := F) c i arg2 harg2 arg3 harg3 arg4 harg4 arg5 harg5 arg6 harg6 arg7 harg7 hc0 hc1 x0 x1 x2 x3 xs0).1, y ∈ pc.1.set :=
  View.cover_of_tiledL (kernelRun1_B (F := F) c i arg2 harg2 arg3 harg3 arg4 harg4 arg5 harg5 arg6 harg6 arg7 harg7 hc0 hc1 x0 x1 x2 x3 xs0).1 S1x1.size (by sl_kernel_rfl) y
/-- What a middle point leaves in the cell, over what the point before left (`xs0`). -/
def sout1_B (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i) (x0 : Vec F S512x1 .f32) (x1 : Vec F S1x512 .f32) (x2 : Vec F S512x1 .f32) (x3 : Vec F S1x512 .f32) (xs0 : Vec F S1x1 .f32) : Vec F S1x1 .f32 :=
  VS1.read (Elt F) (VS1.writes (Elt F) VS1.junk (kernelRun1_B (F := F) c i arg2 harg2 arg3 harg3 arg4 harg4 arg5 harg5 arg6 harg6 arg7 harg7 hc0 hc1 x0 x1 x2 x3 xs0).1)

theorem scover1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_C (F := F) c i arg2 harg2 arg3 harg3 arg4 harg4 arg5 harg5 arg6 harg6 arg7 harg7 hc0 hc1 x0 x1 x2 x3 xs0).2.1, y ∈ pc.1.set :=
  View.cover_of_tiledL (kernelRun1_C (F := F) c i arg2 harg2 arg3 harg3 arg4 harg4 arg5 harg5 arg6 harg6 arg7 harg7 hc0 hc1 x0 x1 x2 x3 xs0).2.1 S1x1.size (by sl_kernel_rfl) y
theorem cover1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) (y : S1x1.Idx) :
    ∃ pc ∈ (kernelRun1_C (F := F) c i arg2 harg2 arg3 harg3 arg4 harg4 arg5 harg5 arg6 harg6 arg7 harg7 hc0 hc1 x0 x1 x2 x3 xs0).1, y ∈ pc.1.set :=
  View.cover_of_tiledL (kernelRun1_C (F := F) c i arg2 harg2 arg3 harg3 arg4 harg4 arg5 harg5 arg6 harg6 arg7 harg7 hc0 hc1 x0 x1 x2 x3 xs0).1 S1x1.size (by sl_kernel_rfl) y
/-- What the last point leaves in the cell and in the output's staging buffer. -/
def sout1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) : Vec F S1x1 .f32 :=
  VS1.read (Elt F) (VS1.writes (Elt F) VS1.junk (kernelRun1_C (F := F) c i arg2 harg2 arg3 harg3 arg4 harg4 arg5 harg5 arg6 harg6 arg7 harg7 hc0 hc1 x0 x1 x2 x3 xs0).2.1)
def out1_C (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i) (x0 : Vec F S512x1 .f32) (x1 : Vec F S1x512 .f32) (x2 : Vec F S512x1 .f32) (x3 : Vec F S1x512 .f32) (xs0 : Vec F S1x1 .f32) : Vec F S1x1 .f32 :=
  VO1.read (Elt F) (VO1.writes (Elt F) VO1.junk (kernelRun1_C (F := F) c i arg2 harg2 arg3 harg3 arg4 harg4 arg5 harg5 arg6 harg6 arg7 harg7 hc0 hc1 x0 x1 x2 x3 xs0).1)
/-- At the other points nothing is stored into the output: a placeholder nothing consults. -/
def outIdle1 : Vec F S1x1 .f32 := VO1.read (Elt F) (VO1.writes (Elt F) VO1.junk [])

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- What the output's staging buffer and the cell hold after the body at position `n`: the first point starts the cell
    from zero, every later point adds to what the point before left, and the last also copies the cell out. -/
def outsAt1 (c : Dev nD) : (n : ℕ) → n < cfg1.N → Vec F S1x1 .f32 × Vec F S1x1 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 63 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => (fun h => by (try dsimp only at h); omega) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 63) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 63) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 63) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant: the cell at what the point before left -/

/-- Before the first point the class's invariant (every scoped buffer at anything); afterwards the cell at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's and the cell at the
    accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h1 : ¬t.val = 63 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    rw [PhiS1_castSucc V c t, PhiS1_zero V c _ _ h0, PhiA1_eq]
    iintro ⟨⟨⟨HS0, Hrest⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_A c _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C sout1_C; (try dsimp only)
      rw [PhiS1_castSucc V c t, PhiS1_pos V c _ _ h0]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS1_castSucc V c t, PhiS1_pos V c _ _ h0]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the cell's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Region

end Cert.KernelIdeal.Hand

end
-- ==== Proof.Run.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.Gen.KernelIdeal.Regions
import proofs.«167655_j26061861552780_1_alg».proof.Proof.Frame0
import proofs.«167655_j26061861552780_1_alg».proof.Proof.Frame1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host lines, the first kernel region, host lines, the second kernel region, host lines -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first host lines (the first region's entry). -/
abbrev W1 : Dev nD → Valuation τ sig (Elt F) := fun c => StableHlo.after hostOps0 (W0 m c)
abbrev VA1 : (c : Dev nD) → (b : Ref sig .tc) → Buf (Elt F) ((c : Thread nD τ).loc b) := fun c b => W1 m c b
/-- At the first region's exit: its arrays at what its write-backs leave, every other buffer as entered. -/
def W2 (c : Dev nD) : Valuation τ sig (Elt F) :=
  Pipeline.withArrays spec0 c (W1 m c) fun w => (dat0 (VA1 m) c).arrAt w cfg0.N
theorem W2_arr (c : Dev nD) (w : Fin cfg0.W) :
    W2 m c (Proc.devRef .tc (Pipeline.arrRef spec0 w)) = (dat0 (VA1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VA2 : (c : Dev nD) → (b : Ref sig .tc) → Buf (Elt F) ((c : Thread nD τ).loc b) := fun c b => W2 m c b
theorem hF0 (c : Dev nD) (w : Fin cfg0.W) : (dat0 (VA1 m) c).arrAt w cfg0.N = VA2 m c (Pipeline.arrRef spec0 w) :=
  (W2_arr m c w).symm
theorem hrest0 (c : Dev nD) : ∀ b, b ∉ Finset.univ.image (Pipeline.arrRef spec0) → VA2 m c b = VA1 m c b :=
  fun b hb => W2_of_ne m c b fun w e => hb (Finset.mem_image.mpr ⟨w, Finset.mem_univ _, e⟩)

/-- After the middle host lines (the second region's entry). -/
abbrev W3 : Dev nD → Valuation τ sig (Elt F) := fun c => StableHlo.after hostOps1 (W2 m c)
abbrev VA3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (VA3 m) c).arrAt w cfg1.N
theorem W4_arr (c : Dev nD) (w : Fin cfg1.W) :
    W4 m c (Proc.devRef .tc (Pipeline.arrRef spec1 w)) = (dat1 (VA3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev VA4 : (c : Dev nD) → (b : Ref sig .tc) → Buf (Elt F) ((c : Thread nD τ).loc b) := fun c b => W4 m c b
theorem hF1 (c : Dev nD) (w : Fin cfg1.W) : (dat1 (VA3 m) c).arrAt w cfg1.N = VA4 m c (Pipeline.arrRef spec1 w) :=
  (W4_arr m c w).symm
theorem hrest1 (c : Dev nD) : ∀ b, b ∉ Finset.univ.image (Pipeline.arrRef spec1) → VA4 m c b = VA3 m c b :=
  fun b hb => W4_of_ne m c b fun w e => hb (Finset.mem_image.mpr ⟨w, Finset.mem_univ _, e⟩)
/-- After the last host lines: what the program returns with. -/
abbrev W5 : Dev nD → Valuation τ sig (Elt F) := fun c => StableHlo.after hostOps2 (W4 m c)

/-! ## No line and no region writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (VA1 m) c).arrAt_in 0 rfl _).trans (A_eq0 (VA1 m) c 0))
    _ = W0 m c (Proc.devRef .tc main_arg0) := StableHlo.after_of_writes_sub hostOps0 _ hostOps0_writes (r := main_arg0) (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 1).trans (((dat0 (VA1 m) c).arrAt_in 1 rfl _).trans (A_eq0 (VA1 m) c 1))
    _ = W0 m c (Proc.devRef .tc main_arg1) := StableHlo.after_of_writes_sub hostOps0 _ hostOps0_writes (r := main_arg1) (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := (W4_arr m c 2).trans (((dat1 (VA3 m) c).arrAt_in 2 rfl _).trans (A_eq1 (VA3 m) c 2))
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl
theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl
theorem W5_main_arg8 (c : Dev nD) : W5 m c (Proc.devRef .tc main_arg8) = m ((c : Thread nD τ).loc main_arg8) :=
  calc W5 m c (Proc.devRef .tc main_arg8)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl
theorem W5_main_arg9 (c : Dev nD) : W5 m c (Proc.devRef .tc main_arg9) = m ((c : Thread nD τ).loc main_arg9) :=
  calc W5 m c (Proc.devRef .tc main_arg9)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl
theorem W5_main_arg10 (c : Dev nD) : W5 m c (Proc.devRef .tc main_arg10) = m ((c : Thread nD τ).loc main_arg10) :=
  calc W5 m c (Proc.devRef .tc main_arg10)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl
theorem W5_main_arg11 (c : Dev nD) : W5 m c (Proc.devRef .tc main_arg11) = m ((c : Thread nD τ).loc main_arg11) :=
  calc W5 m c (Proc.devRef .tc main_arg11)
    _ = W4 m c (Proc.devRef .tc main_arg11) := StableHlo.after_of_writes_sub hostOps2 _ hostOps2_writes (r := main_arg11) (by decide)
    _ = W3 m c (Proc.devRef .tc main_arg11) := W4_of_ne m c main_arg11 (by decide)
    _ = W2 m c (Proc.devRef .tc main_arg11) := StableHlo.after_of_writes_sub hostOps1 _ hostOps1_writes (r := main_arg11) (by decide)
    _ = W1 m c (Proc.devRef .tc main_arg11) := W2_of_ne m c main_arg11 (by decide)
    _ = W0 m c (Proc.devRef .tc main_arg11) := StableHlo.after_of_writes_sub hostOps0 _ hostOps0_writes (r := main_arg11) (by decide)
    _ = m ((c : Thread nD τ).loc main_arg11) := rfl
theorem W5_main_arg12 (c : Dev nD) : W5 m c (Proc.devRef .tc main_arg12) = m ((c : Thread nD τ).loc main_arg12) :=
  calc W5 m c (Proc.devRef .tc main_arg12)
    _ = W4 m c (Proc.devRef .tc main_arg12) := StableHlo.after_of_writes_sub hostOps2 _ hostOps2_writes (r := main_arg12) (by decide)
    _ = W3 m c (Proc.devRef .tc main_arg12) := W4_of_ne m c main_arg12 (by decide)
    _ = W2 m c (Proc.devRef .tc main_arg12) := StableHlo.after_of_writes_sub hostOps1 _ hostOps1_writes (r := main_arg12) (by decide)
    _ = W1 m c (Proc.devRef .tc main_arg12) := W2_of_ne m c main_arg12 (by decide)
    _ = W0 m c (Proc.devRef .tc main_arg12) := StableHlo.after_of_writes_sub hostOps0 _ hostOps0_writes (r := main_arg12) (by decide)
    _ = m ((c : Thread nD τ).loc main_arg12) := rfl
theorem W5_main_arg13 (c : Dev nD) : W5 m c (Proc.devRef .tc main_arg13) = m ((c : Thread nD τ).loc main_arg13) :=
  calc W5 m c (Proc.devRef .tc main_arg13)
    _ = W4 m c (Proc.devRef .tc main_arg13) := StableHlo.after_of_writes_sub hostOps2 _ hostOps2_writes (r := main_arg13) (by decide)
    _ = W3 m c (Proc.devRef .tc main_arg13) := W4_of_ne m c main_arg13 (by decide)
    _ = W2 m c (Proc.devRef .tc main_arg13) := StableHlo.after_of_writes_sub hostOps1 _ hostOps1_writes (r := main_arg13) (by decide)
    _ = W1 m c (Proc.devRef .tc main_arg13) := W2_of_ne m c main_arg13 (by decide)
    _ = W0 m c (Proc.devRef .tc main_arg13) := StableHlo.after_of_writes_sub hostOps0 _ hostOps0_writes (r := main_arg13) (by decide)
    _ = m ((c : Thread nD τ).loc main_arg13) := rfl
theorem W5_main_arg14 (c : Dev nD) : W5 m c (Proc.devRef .tc main_arg14) = m ((c : Thread nD τ).loc main_arg14) :=
  calc W5 m c (Proc.devRef .tc main_arg14)
    _ = W4 m c (Proc.devRef .tc main_arg14) := StableHlo.after_of_writes_sub hostOps2 _ hostOps2_writes (r := main_arg14) (by decide)
    _ = W3 m c (Proc.devRef .tc main_arg14) := W4_of_ne m c main_arg14 (by decide)
    _ = W2 m c (Proc.devRef .tc main_arg14) := StableHlo.after_of_writes_sub hostOps1 _ hostOps1_writes (r := main_arg14) (by decide)
    _ = W1 m c (Proc.devRef .tc main_arg14) := W2_of_ne m c main_arg14 (by decide)
    _ = W0 m c (Proc.devRef .tc main_arg14) := StableHlo.after_of_writes_sub hostOps0 _ hostOps0_writes (r := main_arg14) (by decide)
    _ = m ((c : Thread nD τ).loc main_arg14) := rfl

/-! ## The proof data family and the thread state -/

abbrev admH : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) admH p) c
  | ⟨0, _⟩ => fun c => dat0 (VA1 m) c
  | ⟨1, _⟩ => fun c => dat1 (VA3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at the boundary before it, left at the one after it:
    its arrays split out of the unscoped buffers and put back at their exit contents; the generator register and the scoped
    rest into the region's invariant and out; nothing owed; no semaphore of the kernel's own. -/
def reg0 : Pipeline.RegionSeg (pcfgs (F := F)) admH (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VA1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (VA1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VA1 m c) (VA2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after it:
    its arrays split out of the unscoped buffers and put back at their exit contents; the generator register and the scoped
    rest into the region's invariant and out; nothing owed; no semaphore of the kernel's own. -/
def reg1 : Pipeline.RegionSeg (pcfgs (F := F)) admH (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VA3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VA3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (VA3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (VA3 m) c).Φ (Fin.last cfg1.N) from rfl]
    have h := hout1 (VA3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VA3 m c) (VA4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segsH m) := (main_chain c).trans (by chain_rfl)

set_option backward.isDefEq.respectTransparency.types false in
/-- THE RUN. From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admH (pdats m) () cellOf_inj emb₁ defs₀ 𝒱₀ L lv m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (StableHlo.after hostOps2 (W4 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c),
    (h c _ (mem_uc main_arg13 (by decide))).trans (W5_main_arg13 m c),
    (h c _ (mem_uc main_arg14 (by decide))).trans (W5_main_arg14 m c)⟩) (run_all m ρ)

/-- The result buffer ends at the last boundary's contents. -/
theorem result_at (r : PUnit × MemSt nD τ sig (Elt F)) (h : ∀ c : Dev nD, ∀ b ∈ Pipeline.ucRefs τ sig, r.2.mem (((c : Thread nD τ)).1, b) = W5 m c b) (c : Dev nD) :
    r.2.mem ((c.tc : Thread nD τ).loc main_v21) = W5 m c (Proc.devRef .tc main_v21) :=
  h c _ (mem_uc main_v21 (by decide))

end Cert.KernelIdeal.Hand

end
-- ==== Proof.Spec.lean ====
/-
  The mathematics both programs compute, on the extended reals, stated once.

  A row `xr` of 784 inputs goes through a three-layer encoder (two tanh layers of width 1024, then a linear
  layer of width 2 giving a mean and a log standard deviation); a latent sample is `mean + exp(logsd) * noise`;
  the sample goes through a three-layer decoder (width 1024, 1024, 1568) giving per-pixel means and log standard
  deviations; the row's loss is the negated Gaussian log-likelihood of the row plus half the KL term.  To every
  row's loss the same scalar is added: half the (biased) maximum-mean-discrepancy between the 4096 latent samples
  and 4096 prior samples under the kernel `exp(-(a - b)^2)`.

  The discrepancy is written twice: as a running total over an 8 x 8 grid of 512 x 512 tiles of
  `exp(-(a - b)^2)` (`mmdTiled`), and as three means over all 4096 x 4096 pairs of
  `exp(-((a^2 + b^2) - 2 (a b)) / 1)` (`mmdExpanded`).  They agree when every sample is a real number.
-/
import Idealize.ShloMosaic.PureOps.Ideal

noncomputable section

namespace Cert.Vae

open Idealize.ShloMosaic

/-- 0.5, -0.5, 1, 2, 2^24 and 0.5 * log(2π) as the float words both programs carry. -/
abbrev cHalf : EReal := Ideal.ofBits .f32 0x3F000000#32
abbrev cNegHalf : EReal := Ideal.ofBits .f32 0xBF000000#32
abbrev cOne : EReal := Ideal.ofBits .f32 0x3F800000#32
abbrev cTwo : EReal := Ideal.ofBits .f32 0x40000000#32
abbrev cCount : EReal := Ideal.ofBits .f32 0x4B800000#32
abbrev cHalfLog2Pi : EReal := Ideal.ofBits .f32 0x3F6B3F8E#32

/-- The encoder's weights and biases. -/
structure Enc where
  W1 : Fin 784 → Fin 1024 → EReal
  b1 : Fin 1024 → EReal
  W2 : Fin 1024 → Fin 1024 → EReal
  b2 : Fin 1024 → EReal
  W3 : Fin 1024 → Fin 2 → EReal
  b3 : Fin 2 → EReal

/-- The decoder's weights and biases. -/
structure Dec where
  D1 : Fin 1 → Fin 1024 → EReal
  c1 : Fin 1024 → EReal
  D2 : Fin 1024 → Fin 1024 → EReal
  c2 : Fin 1024 → EReal
  D3 : Fin 1024 → Fin 1568 → EReal
  c3 : Fin 1568 → EReal

/-- One output of an affine layer: `∑ k, a k * W k j + b j`. -/
def layer {K N : ℕ} (a : Fin K → EReal) (W : Fin K → Fin N → EReal) (b : Fin N → EReal) (j : Fin N) : EReal :=
  (∑ k : Fin K, a k * W k j) + b j

def encHid1 (P : Enc) (xr : Fin 784 → EReal) (j : Fin 1024) : EReal := Ideal.tanh (layer xr P.W1 P.b1 j)
def encHid2 (P : Enc) (xr : Fin 784 → EReal) (j : Fin 1024) : EReal := Ideal.tanh (layer (encHid1 P xr) P.W2 P.b2 j)
def encOut (P : Enc) (xr : Fin 784 → EReal) (a : Fin 2) : EReal := layer (encHid2 P xr) P.W3 P.b3 a

def zMean (P : Enc) (xr : Fin 784 → EReal) : EReal := encOut P xr 0
def zLogSd (P : Enc) (xr : Fin 784 → EReal) : EReal := encOut P xr 1
def zSd (P : Enc) (xr : Fin 784 → EReal) : EReal := Ideal.exp (zLogSd P xr)

/-- The KL term of a row: `-logsd + 0.5 * ((sd * sd + mean * mean) - 1)`. -/
def klRow (P : Enc) (xr : Fin 784 → EReal) : EReal :=
  -(zLogSd P xr) + cHalf * ((zSd P xr * zSd P xr + zMean P xr * zMean P xr) - cOne)

/-- The latent sample of a row with noise `e`: `mean + sd * e`. -/
def zRow (P : Enc) (xr : Fin 784 → EReal) (e : EReal) : EReal := zMean P xr + zSd P xr * e

def decHid1 (Q : Dec) (z : EReal) (j : Fin 1024) : EReal := Ideal.tanh (layer (fun _ : Fin 1 => z) Q.D1 Q.c1 j)
def decHid2 (Q : Dec) (z : EReal) (j : Fin 1024) : EReal := Ideal.tanh (layer (decHid1 Q z) Q.D2 Q.c2 j)
def decOut (Q : Dec) (z : EReal) (q : Fin 1568) : EReal := layer (decHid2 Q z) Q.D3 Q.c3 q

/-- The mean and the log standard deviation the decoder gives pixel `i`. -/
def xMean (Q : Dec) (z : EReal) (i : Fin 784) : EReal := decOut Q z ⟨i.val, by omega⟩
def xLogSd (Q : Dec) (z : EReal) (i : Fin 784) : EReal := decOut Q z ⟨784 + i.val, by omega⟩

/-- The Gaussian log-likelihood of pixel `i`: `((-0.5 * d * d) - logsd) - 0.5 log 2π`, `d = (x - mean) * exp(-logsd)`. -/
def logProb (Q : Dec) (z : EReal) (xr : Fin 784 → EReal) (i : Fin 784) : EReal :=
  ((cNegHalf * (((xr i - xMean Q z i) * Ideal.exp (-(xLogSd Q z i))) * ((xr i - xMean Q z i) * Ideal.exp (-(xLogSd Q z i))))) - xLogSd Q z i)
    - cHalfLog2Pi

/-- A row's loss before the shared discrepancy term: `-(∑ i, logProb i) + 0.5 * kl`. -/
def partialRow (P : Enc) (Q : Dec) (xr : Fin 784 → EReal) (e : EReal) : EReal :=
  -(∑ i : Fin 784, logProb Q (zRow P xr e) xr i) + cHalf * klRow P xr

/-! ## The discrepancy, tile by tile -/

/-- Row `a` of row-block `bi`. -/
def tileIx (bi : Fin 8) (a : Fin 512) : Fin 4096 := ⟨bi.val * 512 + a.val, by omega⟩

/-- The sum of `exp(-(u i - w j)^2)` over the 512 x 512 tile `(bi, bj)`. -/
def tileSum (u w : Fin 4096 → EReal) (bi bj : Fin 8) : EReal :=
  ∑ a : Fin 512, ∑ b : Fin 512,
    Ideal.exp (-((u (tileIx bi a) - w (tileIx bj b)) * (u (tileIx bi a) - w (tileIx bj b))))

/-- What one grid point adds: `(zz + pp) - 2 * zp` of its tile. -/
def tileTerm (z p : Fin 4096 → EReal) (bi bj : Fin 8) : EReal :=
  (tileSum z z bi bj + tileSum p p bi bj) - cTwo * tileSum z p bi bj

/-- Grid point number `n` (row-major over 8 x 8) as a tile. -/
def pointRow (n : ℕ) : Fin 8 := ⟨(n / 8) % 8, Nat.mod_lt _ (by norm_num)⟩
def pointCol (n : ℕ) : Fin 8 := ⟨n % 8, Nat.mod_lt _ (by norm_num)⟩

/-- The running total after grid point `n`: it starts from zero at the first point. -/
def runningTotal (z p : Fin 4096 → EReal) : ℕ → EReal
  | 0 => 0 + tileTerm z p (pointRow 0) (pointCol 0)
  | n + 1 => runningTotal z p n + tileTerm z p (pointRow (n + 1)) (pointCol (n + 1))

/-- The discrepancy as the kernel forms it: the total after the 64th point over `2^24`. -/
def mmdTiled (z p : Fin 4096 → EReal) : EReal := Ideal.div (runningTotal z p 63) cCount

/-! ## The discrepancy, by the expanded square -/

/-- `exp(-((u i * u i + w j * w j) - 2 * (u i * w j)) / 1)`. -/
def rbf (u w : Fin 4096 → EReal) (i j : Fin 4096) : EReal :=
  Ideal.exp (Ideal.div (-((u i * u i + w j * w j) - cTwo * (u i * w j))) cOne)

/-- The mean of `rbf u w` over all pairs. -/
def rbfMean (u w : Fin 4096 → EReal) : EReal := Ideal.div (∑ i : Fin 4096, ∑ j : Fin 4096, rbf u w i j) cCount

/-- The discrepancy as the reference forms it: `(mean zz + mean pp) - 2 * mean zp`. -/
def mmdExpanded (z p : Fin 4096 → EReal) : EReal := (rbfMean z z + rbfMean p p) - cTwo * rbfMean z p

/-- The final loss of a row given the discrepancy `d`: `partial + 0.5 * d`. -/
def loss (P : Enc) (Q : Dec) (xr : Fin 784 → EReal) (e : EReal) (d : EReal) : EReal := partialRow P Q xr e + cHalf * d

end Cert.Vae

end
-- ==== Proof.KLay.lean ====
/-
  Layout operations and lane sums read at an index given by coordinates: the forms a keep-dims column meets.
  A column `[a, 1]` broadcast along its unit axis, a vector `[a]` viewed as a column `[a, 1]`, the sum of a
  matrix along its rows or of a column along its one axis, each as the operand at named coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` matrix along its rows, at row `r`, is the sum over the columns of the entries of row `r`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-- The sum of an `[a, 1]` column along its long axis is the sum of its entries. -/
theorem colSum_apply {a : ℕ} (src : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (u : Fin 1) :
    multiReduction .add [0] ⟨1, ![1]⟩ src 0x00000000#32 h hφ hacc (ix1 u) = ∑ k : Fin a, src (ix2 k u) := by
  refine (Ideal.multiReduction_add_single src 0x00000000#32 h hφ hacc (ix1 u)).trans ?_
  refine Finset.sum_congr rfl fun k _ => congrArg src ?_
  funext c
  match c with
  | ⟨0, _⟩ => rfl
  | ⟨1, _⟩ => rfl

/-- The float word of zero subtracted from: `0 - x = -x`. -/
theorem zero_word_sub (x : EReal) : Ideal.ofBits .f32 0x00000000#32 - x = -x := by
  rw [Ideal.ofBits_zero_f32, zero_sub]

end Cert.KernelIdeal.Pay

end
-- ==== Proof.KDense.lean ====
/-
  An affine layer as a kernel forms it, read at an index: the matrix product of a block of rows, rounded to the
  narrower format (the identity on extended reals), with a weight matrix into a zero accumulator, plus a bias row
  broadcast over the block's rows, is `Cert.Vae.layer` of the row.
-/
import proofs.«167655_j26061861552780_1_alg».proof.Proof.Spec
import proofs.«167655_j26061861552780_1_alg».proof.Proof.KLay

noncomputable section

namespace Cert.KernelIdeal.Pay

open Idealize.ShloMosaic Idealize.ShloMosaic.ValueIdx

/-- The left operand's row coordinate of a plain `M x K` by `K x N` product is the result's row. -/
theorem plain_lhs0 {M K N : ℕ} (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate of a plain product is the result's column. -/
theorem plain_rhs1 {M K N : ℕ} (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain `M x K` by `K x N` matrix product into the zero accumulator, at `(r, j)`: the sum over `k` of the left
    operand at `(r, k)` times the right at `(k, j)`. -/
theorem matmul_plain_apply {M K N : ℕ} (φ₁ φ₂ : FTy) (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs0 _ _
      | ⟨1, _⟩ => exact ((DotDims.plain M K N).lhsIdx_val_of_single rfl _ _).trans hk)
  have er : (DotDims.plain M K N).rhsIdx (ix2 r j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => exact plain_rhs1 _ _)
  rw [el, er]

/-- The affine layer of a block at `(r, j)`: `layer` of row `r` of the block, at `j`. -/
theorem dense_apply {M K N : ℕ} (A : FVec Ideal ⟨2, ![M, K]⟩ .f32) (W : FVec Ideal ⟨2, ![K, N]⟩ .bf16)
    (b : FVec Ideal ⟨2, ![1, N]⟩ .f32) (hlt : FTy.bits .bf16 < FTy.bits .f32)
    (hW : (⟨2, ![K, N]⟩ : Shape).ShapeCasts ⟨2, ![K, N]⟩) (hb : (⟨2, ![1, N]⟩ : Shape).ShapeCasts ⟨2, ![1, N]⟩)
    (hB : (⟨2, ![1, N]⟩ : Shape).Broadcasts ⟨2, ![M, N]⟩) (r : Fin M) (j : Fin N) :
    addf (FloatOps.matmul (DotDims.plain M K N) none (truncf .bf16 A hlt) (shapeCast ⟨2, ![K, N]⟩ W hW)
        (constant ⟨2, ![M, N]⟩ .f32 0x00000000#32))
      (broadcastTo ⟨2, ![M, N]⟩ (shapeCast ⟨2, ![1, N]⟩ b hb) hB) (ix2 r j)
      = Cert.Vae.layer (fun k => A (ix2 r k)) (fun k j => W (ix2 k j)) (fun j => b (ix2 0 j)) j := by
  rw [addf_apply, matmul_plain_apply .bf16 .bf16, shapeCast_self, shapeCast_self, broadcastTo_1b_ab_apply]
  rfl

/-- A hidden layer of a block at `(r, j)`: the hyperbolic tangent of the affine layer of row `r`, at `j`. -/
theorem tanh_dense_apply {M K N : ℕ} (A : FVec Ideal ⟨2, ![M, K]⟩ .f32) (W : FVec Ideal ⟨2, ![K, N]⟩ .bf16)
    (b : FVec Ideal ⟨2, ![1, N]⟩ .f32) (hlt : FTy.bits .bf16 < FTy.bits .f32)
    (hW : (⟨2, ![K, N]⟩ : Shape).ShapeCasts ⟨2, ![K, N]⟩) (hb : (⟨2, ![1, N]⟩ : Shape).ShapeCasts ⟨2, ![1, N]⟩)
    (hB : (⟨2, ![1, N]⟩ : Shape).Broadcasts ⟨2, ![M, N]⟩) (r : Fin M) (j : Fin N) :
    Idealize.ShloMosaic.tanh (addf (FloatOps.matmul (DotDims.plain M K N) none (truncf .bf16 A hlt)
        (shapeCast ⟨2, ![K, N]⟩ W hW) (constant ⟨2, ![M, N]⟩ .f32 0x00000000#32))
      (broadcastTo ⟨2, ![M, N]⟩ (shapeCast ⟨2, ![1, N]⟩ b hb) hB)) (ix2 r j)
      = Ideal.tanh (Cert.Vae.layer (fun k => A (ix2 r k)) (fun k j => W (ix2 k j)) (fun j => b (ix2 0 j)) j) :=
  congrArg Ideal.tanh (dense_apply A W b hlt hW hb hB r j)

/-- `layer` depends on its input row only through its entries. -/
theorem layer_congr {K N : ℕ} {a a' : Fin K → EReal} (h : ∀ k, a k = a' k) (W : Fin K → Fin N → EReal)
    (b : Fin N → EReal) (j : Fin N) : Cert.Vae.layer a W b j = Cert.Vae.layer a' W b j := by
  rw [show a = a' from funext h]

end Cert.KernelIdeal.Pay

end
-- ==== Proof.KPay0.lean ====
/-
  The loss kernel's arithmetic read at an index. One grid point reads a block of 256 rows of the input and of the
  noise and all the weights; it forms the encoder's two hidden layers and its output (a mean and a log standard
  deviation per row), the latent sample and the KL term of each row, the decoder's two hidden layers and its output
  (a mean and a log standard deviation per pixel), the Gaussian log-likelihood of each pixel, and stores, per row, the
  latent sample and the negated sum of the log-likelihoods plus half the KL term. Each step is read here at one row
  of the block as the specification's function of that row.
-/
import proofs.«167655_j26061861552780_1_alg».proof.Proof.Gen.KernelIdeal.Skeleton
import proofs.«167655_j26061861552780_1_alg».proof.Proof.Spec
import proofs.«167655_j26061861552780_1_alg».proof.Proof.KLay
import proofs.«167655_j26061861552780_1_alg».proof.Proof.KDense

noncomputable section

namespace Cert.KernelIdeal.Pay

open Idealize.ShloMosaic Idealize.ShloMosaic.ValueIdx Cert.KernelIdeal Cert.KernelIdeal.Gen

/-- The encoder whose weights and biases are the six loaded blocks. -/
def encBlk (v2 : Vec Ideal S784x1024 .bf16) (v5 : Vec Ideal S1x1024 .f32) (v11 : Vec Ideal S1024x1024 .bf16)
    (v14 : Vec Ideal S1x1024 .f32) (v20 : Vec Ideal S1024x2 .bf16) (v23 : Vec Ideal S1x2 .f32) : Cert.Vae.Enc :=
  ⟨fun k j => v2 (ix2 k j), fun j => v5 (ix2 0 j), fun k j => v11 (ix2 k j), fun j => v14 (ix2 0 j),
    fun k j => v20 (ix2 k j), fun j => v23 (ix2 0 j)⟩

/-- The decoder whose weights and biases are the six loaded blocks. -/
def decBlk (v44 : Vec Ideal S1x1024 .bf16) (v47 : Vec Ideal S1x1024 .f32) (v53 : Vec Ideal S1024x1024 .bf16)
    (v56 : Vec Ideal S1x1024 .f32) (v62 : Vec Ideal S1024x1568 .bf16) (v65 : Vec Ideal S1x1568 .f32) : Cert.Vae.Dec :=
  ⟨fun k j => v44 (ix2 k j), fun j => v47 (ix2 0 j), fun k j => v53 (ix2 k j), fun j => v56 (ix2 0 j),
    fun k j => v62 (ix2 k j), fun j => v65 (ix2 0 j)⟩

/-! ## The five matrix products are plain ones -/

theorem dot_enc1 : dot_S256x784_S784x1024_S256x1024_1_0_0_1_n_n = DotDims.plain 256 784 1024 := rfl
theorem dot_mid : dot_S256x1024_S1024x1024_S256x1024_1_0_0_1_n_n = DotDims.plain 256 1024 1024 := rfl
theorem dot_enc3 : dot_S256x1024_S1024x2_S256x2_1_0_0_1_n_n = DotDims.plain 256 1024 2 := rfl
theorem dot_dec1 : dot_S256x1_S1x1024_S256x1024_1_0_0_1_n_n = DotDims.plain 256 1 1024 := rfl
theorem dot_dec3 : dot_S256x1024_S1024x1568_S256x1568_1_0_0_1_n_n = DotDims.plain 256 1024 1568 := rfl

/-! ## The encoder -/

section Encoder

variable (v0 : Vec Ideal S256x784 .f32) (v2 : Vec Ideal S784x1024 .bf16) (v5 : Vec Ideal S1x1024 .f32)
  (v11 : Vec Ideal S1024x1024 .bf16) (v14 : Vec Ideal S1x1024 .f32) (v20 : Vec Ideal S1024x2 .bf16)
  (v23 : Vec Ideal S1x2 .f32)

/-- The encoder's first hidden block as the kernel forms it. -/
def kEncHid1 : FVec Ideal S256x1024 .f32 :=
  Idealize.ShloMosaic.tanh (addf (matmul (φ₂ := .bf16) dot_S256x784_S784x1024_S256x1024_1_0_0_1_n_n none (truncf .bf16 v0 bitsLt_bf16_f32)
      (shapeCast S784x1024 v2 shapeCasts_S784x1024_S784x1024) (constant S256x1024 .f32 0x00000000#32))
    (broadcastTo S256x1024 (shapeCast S1x1024 v5 shapeCasts_S1x1024_S1x1024) broadcasts_S1x1024_S256x1024))

/-- The encoder's second hidden block as the kernel forms it. -/
def kEncHid2 : FVec Ideal S256x1024 .f32 :=
  Idealize.ShloMosaic.tanh (addf (matmul (φ₂ := .bf16) dot_S256x1024_S1024x1024_S256x1024_1_0_0_1_n_n none
      (truncf .bf16 (kEncHid1 v0 v2 v5) bitsLt_bf16_f32)
      (shapeCast S1024x1024 v11 shapeCasts_S1024x1024_S1024x1024) (constant S256x1024 .f32 0x00000000#32))
    (broadcastTo S256x1024 (shapeCast S1x1024 v14 shapeCasts_S1x1024_S1x1024) broadcasts_S1x1024_S256x1024))

/-- The encoder's output block is the third affine layer of the second hidden block. -/
theorem pay2_eq : Gen.k0_pay2 v0 v2 v5 v11 v14 v20 v23
    = addf (matmul (φ₂ := .bf16) dot_S256x1024_S1024x2_S256x2_1_0_0_1_n_n none (truncf .bf16 (kEncHid2 v0 v2 v5 v11 v14) bitsLt_bf16_f32)
        (shapeCast S1024x2 v20 shapeCasts_S1024x2_S1024x2) (constant S256x2 .f32 0x00000000#32))
      (broadcastTo S256x2 (shapeCast S1x2 v23 shapeCasts_S1x2_S1x2) broadcasts_S1x2_S256x2) := rfl

/-- Hidden layer 1 of row `r`. -/
theorem kEncHid1_apply (r : Fin 256) (j : Fin 1024) :
    kEncHid1 v0 v2 v5 (ix2 r j) = Cert.Vae.encHid1 (encBlk v2 v5 v11 v14 v20 v23) (fun k => v0 (ix2 r k)) j := by
  unfold kEncHid1
  rw [dot_enc1]
  exact tanh_dense_apply v0 v2 v5 _ _ _ _ r j

/-- Hidden layer 2 of row `r`. -/
theorem kEncHid2_apply (r : Fin 256) (j : Fin 1024) :
    kEncHid2 v0 v2 v5 v11 v14 (ix2 r j) = Cert.Vae.encHid2 (encBlk v2 v5 v11 v14 v20 v23) (fun k => v0 (ix2 r k)) j := by
  unfold kEncHid2
  rw [dot_mid]
  refine (tanh_dense_apply _ v11 v14 _ _ _ _ r j).trans ?_
  exact congrArg Ideal.tanh (layer_congr (fun k => kEncHid1_apply v0 v2 v5 v11 v14 v20 v23 r k) _ _ j)

/-- The encoder's output of row `r`. -/
theorem pay2_apply (r : Fin 256) (a : Fin 2) :
    Gen.k0_pay2 v0 v2 v5 v11 v14 v20 v23 (ix2 r a)
      = Cert.Vae.encOut (encBlk v2 v5 v11 v14 v20 v23) (fun k => v0 (ix2 r k)) a := by
  rw [pay2_eq, dot_enc3]
  refine (dense_apply _ v20 v23 _ _ _ _ r a).trans ?_
  exact layer_congr (fun k => kEncHid2_apply v0 v2 v5 v11 v14 v20 v23 r k) _ _ a

/-- The mean of row `r`'s latent. -/
theorem pay3_apply (r : Fin 256) :
    Gen.k0_pay3 v0 v2 v5 v11 v14 v20 v23 (ix2 r 0)
      = Cert.Vae.zMean (encBlk v2 v5 v11 v14 v20 v23) (fun k => v0 (ix2 r k)) := by
  unfold Gen.k0_pay3
  refine (slice2_axis1_apply 0 _ _ r (0 : Fin 1) (0 : Fin 2) rfl).trans ?_
  exact pay2_apply v0 v2 v5 v11 v14 v20 v23 r 0

/-- The log standard deviation of row `r`'s latent. -/
theorem pay4_apply (r : Fin 256) :
    Gen.k0_pay4 v0 v2 v5 v11 v14 v20 v23 (ix2 r 0)
      = Cert.Vae.zLogSd (encBlk v2 v5 v11 v14 v20 v23) (fun k => v0 (ix2 r k)) := by
  unfold Gen.k0_pay4
  refine (slice2_axis1_apply 1 _ _ r (0 : Fin 1) (1 : Fin 2) rfl).trans ?_
  exact pay2_apply v0 v2 v5 v11 v14 v20 v23 r 1

/-- The standard deviation of row `r`'s latent. -/
theorem pay5_apply (r : Fin 256) :
    Gen.k0_pay5 v0 v2 v5 v11 v14 v20 v23 (ix2 r 0)
      = Cert.Vae.zSd (encBlk v2 v5 v11 v14 v20 v23) (fun k => v0 (ix2 r k)) := by
  unfold Gen.k0_pay5
  exact congrArg Ideal.exp (pay4_apply v0 v2 v5 v11 v14 v20 v23 r)

/-- The negated log standard deviation of row `r`. -/
theorem pay6_apply (r : Fin 256) :
    Gen.k0_pay6 v0 v2 v5 v11 v14 v20 v23 (ix2 r 0)
      = -(Cert.Vae.zLogSd (encBlk v2 v5 v11 v14 v20 v23) (fun k => v0 (ix2 r k))) := by
  unfold Gen.k0_pay6
  rw [subf_apply, broadcast_apply, pay4_apply]
  exact zero_word_sub _

/-- Half of `(sd^2 + mean^2) - 1` of row `r`. -/
theorem pay7_apply (r : Fin 256) :
    Gen.k0_pay7 v0 v2 v5 v11 v14 v20 v23 (ix2 r 0)
      = Cert.Vae.cHalf * ((Cert.Vae.zSd (encBlk v2 v5 v11 v14 v20 v23) (fun k => v0 (ix2 r k))
            * Cert.Vae.zSd (encBlk v2 v5 v11 v14 v20 v23) (fun k => v0 (ix2 r k))
          + Cert.Vae.zMean (encBlk v2 v5 v11 v14 v20 v23) (fun k => v0 (ix2 r k))
            * Cert.Vae.zMean (encBlk v2 v5 v11 v14 v20 v23) (fun k => v0 (ix2 r k))) - Cert.Vae.cOne) := by
  unfold Gen.k0_pay7
  simp only [mulf_apply, subf_apply, addf_apply, broadcast_apply, pay5_apply, pay3_apply]
  rfl

/-- The KL term of row `r`. -/
theorem kl_apply (r : Fin 256) :
    Gen.k0_pay8 (Gen.k0_pay6 v0 v2 v5 v11 v14 v20 v23) (Gen.k0_pay7 v0 v2 v5 v11 v14 v20 v23) (ix2 r 0)
      = Cert.Vae.klRow (encBlk v2 v5 v11 v14 v20 v23) (fun k => v0 (ix2 r k)) := by
  unfold Gen.k0_pay8
  rw [addf_apply, pay6_apply, pay7_apply]
  rfl

end Encoder

/-- The latent sample of row `r`. -/
theorem z_apply (v0 : Vec Ideal S256x784 .f32) (v2 : Vec Ideal S784x1024 .bf16) (v5 : Vec Ideal S1x1024 .f32)
    (v11 : Vec Ideal S1024x1024 .bf16) (v14 : Vec Ideal S1x1024 .f32) (v20 : Vec Ideal S1024x2 .bf16)
    (v23 : Vec Ideal S1x2 .f32) (v40 : Vec Ideal S256x1 .f32) (r : Fin 256) :
    Gen.k0_pay9 (Gen.k0_pay3 v0 v2 v5 v11 v14 v20 v23) (Gen.k0_pay5 v0 v2 v5 v11 v14 v20 v23) v40 (ix2 r 0)
      = Cert.Vae.zRow (encBlk v2 v5 v11 v14 v20 v23) (fun k => v0 (ix2 r k)) (v40 (ix2 r 0)) := by
  unfold Gen.k0_pay9
  rw [addf_apply, mulf_apply, pay3_apply, pay5_apply]
  rfl

/-! ## The decoder -/

section Decoder

variable (Z : FVec Ideal S256x1 .f32) (v44 : Vec Ideal S1x1024 .bf16) (v47 : Vec Ideal S1x1024 .f32)
  (v53 : Vec Ideal S1024x1024 .bf16) (v56 : Vec Ideal S1x1024 .f32) (v62 : Vec Ideal S1024x1568 .bf16)
  (v65 : Vec Ideal S1x1568 .f32)

/-- The decoder's first hidden block as the kernel forms it from the column `Z` of latent samples. -/
def kDecHid1 : FVec Ideal S256x1024 .f32 :=
  Idealize.ShloMosaic.tanh (addf (matmul (φ₂ := .bf16) dot_S256x1_S1x1024_S256x1024_1_0_0_1_n_n none (truncf .bf16 Z bitsLt_bf16_f32)
      (shapeCast S1x1024 v44 shapeCasts_S1x1024_S1x1024) (constant S256x1024 .f32 0x00000000#32))
    (broadcastTo S256x1024 (shapeCast S1x1024 v47 shapeCasts_S1x1024_S1x1024) broadcasts_S1x1024_S256x1024))

/-- The decoder's second hidden block as the kernel forms it. -/
def kDecHid2 : FVec Ideal S256x1024 .f32 :=
  Idealize.ShloMosaic.tanh (addf (matmul (φ₂ := .bf16) dot_S256x1024_S1024x1024_S256x1024_1_0_0_1_n_n none
      (truncf .bf16 (kDecHid1 Z v44 v47) bitsLt_bf16_f32)
      (shapeCast S1024x1024 v53 shapeCasts_S1024x1024_S1024x1024) (constant S256x1024 .f32 0x00000000#32))
    (broadcastTo S256x1024 (shapeCast S1x1024 v56 shapeCasts_S1x1024_S1x1024) broadcasts_S1x1024_S256x1024))

/-- The decoder's output block as the kernel forms it. -/
def kDecOut : FVec Ideal S256x1568 .f32 :=
  addf (matmul (φ₂ := .bf16) dot_S256x1024_S1024x1568_S256x1568_1_0_0_1_n_n none
      (truncf .bf16 (kDecHid2 Z v44 v47 v53 v56) bitsLt_bf16_f32)
      (shapeCast S1024x1568 v62 shapeCasts_S1024x1568_S1024x1568) (constant S256x1568 .f32 0x00000000#32))
    (broadcastTo S256x1568 (shapeCast S1x1568 v65 shapeCasts_S1x1568_S1x1568) broadcasts_S1x1568_S256x1568)

/-- Decoder hidden layer 1 of row `r`: the one-term sum over the latent's single coordinate. -/
theorem kDecHid1_apply (r : Fin 256) (j : Fin 1024) :
    kDecHid1 Z v44 v47 (ix2 r j) = Cert.Vae.decHid1 (decBlk v44 v47 v53 v56 v62 v65) (Z (ix2 r 0)) j := by
  unfold kDecHid1
  rw [dot_dec1]
  refine (tanh_dense_apply Z v44 v47 _ _ _ _ r j).trans ?_
  exact congrArg Ideal.tanh (layer_congr
    (fun k => congrArg (fun k' : Fin 1 => Z (ix2 r k')) (Subsingleton.elim k 0)) _ _ j)

/-- Decoder hidden layer 2 of row `r`. -/
theorem kDecHid2_apply (r : Fin 256) (j : Fin 1024) :
    kDecHid2 Z v44 v47 v53 v56 (ix2 r j) = Cert.Vae.decHid2 (decBlk v44 v47 v53 v56 v62 v65) (Z (ix2 r 0)) j := by
  unfold kDecHid2
  rw [dot_mid]
  refine (tanh_dense_apply _ v53 v56 _ _ _ _ r j).trans ?_
  exact congrArg Ideal.tanh (layer_congr (fun k => kDecHid1_apply Z v44 v47 v53 v56 v62 v65 r k) _ _ j)

/-- The decoder's output of row `r`. -/
theorem kDecOut_apply (r : Fin 256) (q : Fin 1568) :
    kDecOut Z v44 v47 v53 v56 v62 v65 (ix2 r q) = Cert.Vae.decOut (decBlk v44 v47 v53 v56 v62 v65) (Z (ix2 r 0)) q := by
  unfold kDecOut
  rw [dot_dec3]
  refine (dense_apply _ v62 v65 _ _ _ _ r q).trans ?_
  exact layer_congr (fun k => kDecHid2_apply Z v44 v47 v53 v56 v62 v65 r k) _ _ q

end Decoder

/-! ## The log-likelihood and the row's loss -/

/-- The scalar unit's float word at the extended reals is the word's value. -/
theorem scalar_ofBits (φ : FTy) (b : BitVec φ.bits) : Scalar.ofBits (F := Ideal) φ b = Ideal.ofBits φ b := rfl

/-- A pixel's log-likelihood before the constant is taken off, as the kernel forms it from the input block and the
    decoder's output block: the first 784 columns are the means, the last 784 the log standard deviations. -/
def kLogCore (v0 : Vec Ideal S256x784 .f32) (O : FVec Ideal S256x1568 .f32) : FVec Ideal S256x784 .f32 :=
  subf (mulf (broadcast S256x784 (Scalar.ofBits (F := Ideal) .f32 0xBF000000#32))
      (mulf
        (mulf (subf v0 (extractStridedSlice S256x784 ![0, 0] O slices_S256x1568_o0_0_S256x784))
          (Idealize.ShloMosaic.exp (subf (broadcast S256x784 (Scalar.ofBits (F := Ideal) .f32 0x00000000#32))
            (extractStridedSlice S256x784 ![0, 784] O slices_S256x1568_o0_784_S256x784))))
        (mulf (subf v0 (extractStridedSlice S256x784 ![0, 0] O slices_S256x1568_o0_0_S256x784))
          (Idealize.ShloMosaic.exp (subf (broadcast S256x784 (Scalar.ofBits (F := Ideal) .f32 0x00000000#32))
            (extractStridedSlice S256x784 ![0, 784] O slices_S256x1568_o0_784_S256x784))))))
    (extractStridedSlice S256x784 ![0, 784] O slices_S256x1568_o0_784_S256x784)

/-- The kernel's log-likelihood block is that term of the decoder's output on the column of latent samples. -/
theorem pay10_eq (v0 : Vec Ideal S256x784 .f32) (v27 v29 : FVec Ideal S256x1 .f32) (v40 : Vec Ideal S256x1 .f32)
    (v44 : Vec Ideal S1x1024 .bf16) (v47 : Vec Ideal S1x1024 .f32) (v53 : Vec Ideal S1024x1024 .bf16)
    (v56 : Vec Ideal S1x1024 .f32) (v62 : Vec Ideal S1024x1568 .bf16) (v65 : Vec Ideal S1x1568 .f32) :
    Gen.k0_pay10 v0 v27 v29 v40 v44 v47 v53 v56 v62 v65
      = kLogCore v0 (kDecOut (Gen.k0_pay9 v27 v29 v40) v44 v47 v53 v56 v62 v65) := rfl

/-- The term at pixel `i` of row `r`. -/
theorem kLogCore_apply (v0 : Vec Ideal S256x784 .f32) (O : FVec Ideal S256x1568 .f32) (r : Fin 256) (i : Fin 784) :
    kLogCore v0 O (ix2 r i)
      = Cert.Vae.cNegHalf
          * (((v0 (ix2 r i) - O (ix2 r ⟨i.val, by omega⟩)) * Ideal.exp (-(O (ix2 r ⟨784 + i.val, by omega⟩))))
            * ((v0 (ix2 r i) - O (ix2 r ⟨i.val, by omega⟩)) * Ideal.exp (-(O (ix2 r ⟨784 + i.val, by omega⟩)))))
        - O (ix2 r ⟨784 + i.val, by omega⟩) := by
  have h0 : extractStridedSlice S256x784 ![0, 0] O slices_S256x1568_o0_0_S256x784 (ix2 r i)
      = O (ix2 r ⟨i.val, by omega⟩) := slice2_axis1_apply 0 O _ r i ⟨i.val, by omega⟩ (Nat.zero_add _).symm
  have h1 : extractStridedSlice S256x784 ![0, 784] O slices_S256x1568_o0_784_S256x784 (ix2 r i)
      = O (ix2 r ⟨784 + i.val, by omega⟩) := slice2_axis1_apply 784 O _ r i ⟨784 + i.val, by omega⟩ rfl
  show Ideal.ofBits .f32 0xBF000000#32
        * (((v0 (ix2 r i) - extractStridedSlice S256x784 ![0, 0] O slices_S256x1568_o0_0_S256x784 (ix2 r i))
            * Ideal.exp (Ideal.ofBits .f32 0x00000000#32
                - extractStridedSlice S256x784 ![0, 784] O slices_S256x1568_o0_784_S256x784 (ix2 r i)))
          * ((v0 (ix2 r i) - extractStridedSlice S256x784 ![0, 0] O slices_S256x1568_o0_0_S256x784 (ix2 r i))
            * Ideal.exp (Ideal.ofBits .f32 0x00000000#32
                - extractStridedSlice S256x784 ![0, 784] O slices_S256x1568_o0_784_S256x784 (ix2 r i))))
      - extractStridedSlice S256x784 ![0, 784] O slices_S256x1568_o0_784_S256x784 (ix2 r i) = _
  rw [h0, h1, zero_word_sub]

/-- The Gaussian log-likelihood of pixel `i` of row `r`, given the column `Z` of latent samples. -/
theorem logProb_apply (v0 : Vec Ideal S256x784 .f32) (Z : FVec Ideal S256x1 .f32) (v44 : Vec Ideal S1x1024 .bf16)
    (v47 : Vec Ideal S1x1024 .f32) (v53 : Vec Ideal S1024x1024 .bf16) (v56 : Vec Ideal S1x1024 .f32)
    (v62 : Vec Ideal S1024x1568 .bf16) (v65 : Vec Ideal S1x1568 .f32) (r : Fin 256) (i : Fin 784) :
    kLogCore v0 (kDecOut Z v44 v47 v53 v56 v62 v65) (ix2 r i) - Cert.Vae.cHalfLog2Pi
      = Cert.Vae.logProb (decBlk v44 v47 v53 v56 v62 v65) (Z (ix2 r 0)) (fun k => v0 (ix2 r k)) i := by
  rw [kLogCore_apply, kDecOut_apply Z v44 v47 v53 v56 v62 v65 r ⟨i.val, by omega⟩,
    kDecOut_apply Z v44 v47 v53 v56 v62 v65 r ⟨784 + i.val, by omega⟩]
  rfl

/-- What the kernel stores per row from the KL column and the log-likelihood block: the negated row sum of the
    log-likelihoods, each less the constant, plus half the KL term. -/
theorem pay1_apply (v39 : FVec Ideal S256x1 .f32) (v79 : FVec Ideal S256x784 .f32) (r : Fin 256) :
    Gen.k0_pay1 v39 v79 (ix2 r 0)
      = -(∑ i : Fin 784, (v79 (ix2 r i) - Cert.Vae.cHalfLog2Pi)) + Cert.Vae.cHalf * v39 (ix2 r 0) := by
  unfold Gen.k0_pay1
  rw [addf_apply, subf_apply, broadcast_apply, mulf_apply, broadcast_apply, shapeCast_a_a1_apply, rowSum_apply,
    scalar_ofBits, scalar_ofBits, zero_word_sub]
  rfl

/-- The loss of row `r` before the shared discrepancy term. -/
theorem partial_apply (v0 : Vec Ideal S256x784 .f32) (v2 : Vec Ideal S784x1024 .bf16) (v5 : Vec Ideal S1x1024 .f32)
    (v11 : Vec Ideal S1024x1024 .bf16) (v14 : Vec Ideal S1x1024 .f32) (v20 : Vec Ideal S1024x2 .bf16)
    (v23 : Vec Ideal S1x2 .f32) (v40 : Vec Ideal S256x1 .f32) (v44 : Vec Ideal S1x1024 .bf16)
    (v47 : Vec Ideal S1x1024 .f32) (v53 : Vec Ideal S1024x1024 .bf16) (v56 : Vec Ideal S1x1024 .f32)
    (v62 : Vec Ideal S1024x1568 .bf16) (v65 : Vec Ideal S1x1568 .f32) (r : Fin 256) :
    Gen.k0_pay1 (Gen.k0_pay8 (Gen.k0_pay6 v0 v2 v5 v11 v14 v20 v23) (Gen.k0_pay7 v0 v2 v5 v11 v14 v20 v23))
        (Gen.k0_pay10 v0 (Gen.k0_pay3 v0 v2 v5 v11 v14 v20 v23) (Gen.k0_pay5 v0 v2 v5 v11 v14 v20 v23) v40
          v44 v47 v53 v56 v62 v65) (ix2 r 0)
      = Cert.Vae.partialRow (encBlk v2 v5 v11 v14 v20 v23) (decBlk v44 v47 v53 v56 v62 v65)
          (fun k => v0 (ix2 r k)) (v40 (ix2 r 0)) := by
  rw [pay1_apply, kl_apply, pay10_eq]
  unfold Cert.Vae.partialRow
  refine congrArg (fun s => -s + _) (Finset.sum_congr rfl fun i _ => ?_)
  rw [← z_apply v0 v2 v5 v11 v14 v20 v23 v40 r]
  exact logProb_apply v0 _ v44 v47 v53 v56 v62 v65 r i

end Cert.KernelIdeal.Pay

end
-- ==== Proof.Value0.lean ====
import proofs.«167655_j26061861552780_1_alg».proof.Proof.Frame0
import proofs.«167655_j26061861552780_1_alg».proof.Proof.Spec
import proofs.«167655_j26061861552780_1_alg».proof.Proof.KPay0
import Idealize.ShloMosaic.Lib.Pipeline.Value
import Idealize.ShloMosaic.Lib.ValueIdx

/-!
# Region 0: what its two output arrays hold after the run, on the extended reals

Each grid point of region 0 writes back one block of 256 rows of each output array; the 16 blocks tile the
4096 rows. Row `r` of a block is the specification's function of row `r` of the point's input block and noise
block and of the weights (the payload lemmas), the point's input and noise blocks are rows
`256 t … 256 t + 255` of the input and noise arrays, and every weight window's block is its whole array. So the
latent-sample array ends holding `zRow` of every row and the partial-loss array `partialRow` of every row, for
any contents `V` the region is entered with.
-/

set_option maxRecDepth 16384

noncomputable section

namespace Cert.KernelIdeal.Hand

open Cert.KernelIdeal Cert.KernelIdeal.Gen Cert.KernelIdeal.Pay Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-! ## The weights, the rows and the two result arrays -/

/-- The encoder whose weights and biases are the six arrays the encoder's windows stage. -/
def encAt (c : Dev nD) : Cert.Vae.Enc :=
  ⟨fun k j => (V c main_v0 : S784x1024.Idx → EReal) (ix2 k j), fun j => (V c main_v6 : S1x1024.Idx → EReal) (ix2 0 j),
    fun k j => (V c main_v1 : S1024x1024.Idx → EReal) (ix2 k j), fun j => (V c main_v7 : S1x1024.Idx → EReal) (ix2 0 j),
    fun k j => (V c main_v2 : S1024x2.Idx → EReal) (ix2 k j), fun j => (V c main_v8 : S1x2.Idx → EReal) (ix2 0 j)⟩

/-- The decoder whose weights and biases are the six arrays the decoder's windows stage. -/
def decAt (c : Dev nD) : Cert.Vae.Dec :=
  ⟨fun k j => (V c main_v3 : S1x1024.Idx → EReal) (ix2 k j), fun j => (V c main_v9 : S1x1024.Idx → EReal) (ix2 0 j),
    fun k j => (V c main_v4 : S1024x1024.Idx → EReal) (ix2 k j), fun j => (V c main_v10 : S1x1024.Idx → EReal) (ix2 0 j),
    fun k j => (V c main_v5 : S1024x1568.Idx → EReal) (ix2 k j), fun j => (V c main_v11 : S1x1568.Idx → EReal) (ix2 0 j)⟩

/-- The latent sample of every row: what the second output array ends holding. -/
def zArr (c : Dev nD) : S4096x1.Idx → EReal := fun i =>
  Cert.Vae.zRow (encAt V c) (fun k => (V c main_arg0 : S4096x784.Idx → EReal) (ix2 (i 0) k))
    ((V c main_arg1 : S4096x1.Idx → EReal) (ix2 (i 0) 0))

/-- Every row's loss before the shared discrepancy term: what the first output array ends holding. -/
def partialArr (c : Dev nD) : S4096x1.Idx → EReal := fun i =>
  Cert.Vae.partialRow (encAt V c) (decAt V c) (fun k => (V c main_arg0 : S4096x784.Idx → EReal) (ix2 (i 0) k))
    ((V c main_arg1 : S4096x1.Idx → EReal) (ix2 (i 0) 0))

theorem hz2 : (![0, 0] : Fin 2 → Nat) = fun _ => 0 := funext fun a => by fin_cases a <;> rfl

/-! ## The printed index maps, decided once over the 16 grid points -/

/-- The input block, the noise block and the two output blocks move together along the rows (block row `t`), at
    column block 0. -/
theorem idx_rows : ∀ t : Fin cfg0.N,
    win0_0.index t (0 : Fin 2) = win0_15.index t (0 : Fin 2) ∧ win0_0.index t (1 : Fin 2) = 0
    ∧ win0_1.index t (0 : Fin 2) = win0_15.index t (0 : Fin 2) ∧ win0_1.index t (1 : Fin 2) = 0
    ∧ win0_14.index t (0 : Fin 2) = win0_15.index t (0 : Fin 2) ∧ win0_14.index t (1 : Fin 2) = 0
    ∧ win0_15.index t (0 : Fin 2) ≤ 15 ∧ win0_15.index t (1 : Fin 2) = 0 :=
  (by decide +kernel : ∀ t : Fin grid0.N, _)

/-- Every weight and bias window stays at block (0, 0). -/
theorem idx_weights : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Every block row is some point's. -/
theorem idx_onto : ∀ (q0 : Fin 16) (q1 : Fin 1), ∃ t : Fin cfg0.N, win0_15.index t = ![q0.val, q1.val] ∧ win0_14.index t = ![q0.val, q1.val] :=
  (by decide +kernel : ∀ (q0 : Fin 16) (q1 : Fin 1), ∃ t : Fin grid0.N, win0_15.index t = ![q0.val, q1.val] ∧ win0_14.index t = ![q0.val, q1.val])

/-! ## The blocks, read off the arrays -/

/-- Window 2's block is its whole array at every point (block index (0, 0), block shape the array's). -/
theorem iblk0_2_eq (c : Dev nD) (t : Fin cfg0.N) : (iblk0 V c 2 t : Vec Ideal S784x1024 .bf16) = (V c main_v0 : S784x1024.Idx → EReal) := by
  obtain ⟨e0, e1, e2, e3, e4, e5, e6, e7, e8, e9, e10, e11, e12, e13, e14, e15, e16, e17, e18, e19, e20, e21, e22, e23⟩ := idx_weights t
  funext y
  show (V c main_v0 : S784x1024.Idx → EReal) (((cfg0.win 2).blk t).view.emb y) = (V c main_v0 : S784x1024.Idx → EReal) y
  refine congrArg _ (funext fun a => Fin.ext ?_)
  match a with
  | ⟨0, _⟩ => show win0_2.index t (0 : Fin 2) * 784 + 1 * (y 0).val = (y 0).val; omega
  | ⟨1, _⟩ => show win0_2.index t (1 : Fin 2) * 1024 + 1 * (y 1).val = (y 1).val; omega

/-- Window 3's block is its whole array at every point (block index (0, 0), block shape the array's). -/
theorem iblk0_3_eq (c : Dev nD) (t : Fin cfg0.N) : (iblk0 V c 3 t : Vec Ideal S1x1024 .f32) = (V c main_v6 : S1x1024.Idx → EReal) := by
  obtain ⟨e0, e1, e2, e3, e4, e5, e6, e7, e8, e9, e10, e11, e12, e13, e14, e15, e16, e17, e18, e19, e20, e21, e22, e23⟩ := idx_weights t
  funext y
  show (V c main_v6 : S1x1024.Idx → EReal) (((cfg0.win 3).blk t).view.emb y) = (V c main_v6 : S1x1024.Idx → EReal) y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- Window 4's block is its whole array at every point (block index (0, 0), block shape the array's). -/
theorem iblk0_4_eq (c : Dev nD) (t : Fin cfg0.N) : (iblk0 V c 4 t : Vec Ideal S1024x1024 .bf16) = (V c main_v1 : S1024x1024.Idx → EReal) := by
  obtain ⟨e0, e1, e2, e3, e4, e5, e6, e7, e8, e9, e10, e11, e12, e13, e14, e15, e16, e17, e18, e19, e20, e21, e22, e23⟩ := idx_weights t
  funext y
  show (V c main_v1 : S1024x1024.Idx → EReal) (((cfg0.win 4).blk t).view.emb y) = (V c main_v1 : S1024x1024.Idx → EReal) y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 1024 + 1 * (y 1).val = (y 1).val; omega

/-- Window 5's block is its whole array at every point (block index (0, 0), block shape the array's). -/
theorem iblk0_5_eq (c : Dev nD) (t : Fin cfg0.N) : (iblk0 V c 5 t : Vec Ideal S1x1024 .f32) = (V c main_v7 : S1x1024.Idx → EReal) := by
  obtain ⟨e0, e1, e2, e3, e4, e5, e6, e7, e8, e9, e10, e11, e12, e13, e14, e15, e16, e17, e18, e19, e20, e21, e22, e23⟩ := idx_weights t
  funext y
  show (V c main_v7 : S1x1024.Idx → EReal) (((cfg0.win 5).blk t).view.emb y) = (V c main_v7 : S1x1024.Idx → EReal) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega

/-- Window 6's block is its whole array at every point (block index (0, 0), block shape the array's). -/
theorem iblk0_6_eq (c : Dev nD) (t : Fin cfg0.N) : (iblk0 V c 6 t : Vec Ideal S1024x2 .bf16) = (V c main_v2 : S1024x2.Idx → EReal) := by
  obtain ⟨e0, e1, e2, e3, e4, e5, e6, e7, e8, e9, e10, e11, e12, e13, e14, e15, e16, e17, e18, e19, e20, e21, e22, e23⟩ := idx_weights t
  funext y
  show (V c main_v2 : S1024x2.Idx → EReal) (((cfg0.win 6).blk t).view.emb y) = (V c main_v2 : S1024x2.Idx → EReal) y
  refine congrArg _ (funext fun a => Fin.ext ?_)
  match a with
  | ⟨0, _⟩ => show win0_6.index t (0 : Fin 2) * 1024 + 1 * (y 0).val = (y 0).val; omega
  | ⟨1, _⟩ => show win0_6.index t (1 : Fin 2) * 2 + 1 * (y 1).val = (y 1).val; omega

/-- Window 7's block is its whole array at every point (block index (0, 0), block shape the array's). -/
theorem iblk0_7_eq (c : Dev nD) (t : Fin cfg0.N) : (iblk0 V c 7 t : Vec Ideal S1x2 .f32) = (V c main_v8 : S1x2.Idx → EReal) := by
  obtain ⟨e0, e1, e2, e3, e4, e5, e6, e7, e8, e9, e10, e11, e12, e13, e14, e15, e16, e17, e18, e19, e20, e21, e22, e23⟩ := idx_weights t
  funext y
  show (V c main_v8 : S1x2.Idx → EReal) (((cfg0.win 7).blk t).view.emb y) = (V c main_v8 : S1x2.Idx → EReal) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 2 + 1 * (y 1).val = (y 1).val; omega

/-- Window 8's block is its whole array at every point (block index (0, 0), block shape the array's). -/
theorem iblk0_8_eq (c : Dev nD) (t : Fin cfg0.N) : (iblk0 V c 8 t : Vec Ideal S1x1024 .bf16) = (V c main_v3 : S1x1024.Idx → EReal) := by
  obtain ⟨e0, e1, e2, e3, e4, e5, e6, e7, e8, e9, e10, e11, e12, e13, e14, e15, e16, e17, e18, e19, e20, e21, e22, e23⟩ := idx_weights t
  funext y
  show (V c main_v3 : S1x1024.Idx → EReal) (((cfg0.win 8).blk t).view.emb y) = (V c main_v3 : S1x1024.Idx → EReal) y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

/-- Window 9's block is its whole array at every point (block index (0, 0), block shape the array's). -/
theorem iblk0_9_eq (c : Dev nD) (t : Fin cfg0.N) : (iblk0 V c 9 t : Vec Ideal S1x1024 .f32) = (V c main_v9 : S1x1024.Idx → EReal) := by
  obtain ⟨e0, e1, e2, e3, e4, e5, e6, e7, e8, e9, e10, e11, e12, e13, e14, e15, e16, e17, e18, e19, e20, e21, e22, e23⟩ := idx_weights t
  funext y
  show (V c main_v9 : S1x1024.Idx → EReal) (((cfg0.win 9).blk t).view.emb y) = (V c main_v9 : S1x1024.Idx → EReal) y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 1024 + 1 * (y 1).val = (y 1).val; omega

/-- Window 10's block is its whole array at every point (block index (0, 0), block shape the array's). -/
theorem iblk0_10_eq (c : Dev nD) (t : Fin cfg0.N) : (iblk0 V c 10 t : Vec Ideal S1024x1024 .bf16) = (V c main_v4 : S1024x1024.Idx → EReal) := by
  obtain ⟨e0, e1, e2, e3, e4, e5, e6, e7, e8, e9, e10, e11, e12, e13, e14, e15, e16, e17, e18, e19, e20, e21, e22, e23⟩ := idx_weights t
  funext y
  show (V c main_v4 : S1024x1024.Idx → EReal) (((cfg0.win 10).blk t).view.emb y) = (V c main_v4 : S1024x1024.Idx → EReal) y
  refine congrArg _ (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

/-- Window 11's block is its whole array at every point (block index (0, 0), block shape the array's). -/
theorem iblk0_11_eq (c : Dev nD) (t : Fin cfg0.N) : (iblk0 V c 11 t : Vec Ideal S1x1024 .f32) = (V c main_v10 : S1x1024.Idx → EReal) := by
  obtain ⟨e0, e1, e2, e3, e4, e5, e6, e7, e8, e9, e10, e11, e12, e13, e14, e15, e16, e17, e18, e19, e20, e21, e22, e23⟩ := idx_weights t
  funext y
  show (V c main_v10 : S1x1024.Idx → EReal) (((cfg0.win 11).blk t).view.emb y) = (V c main_v10 : S1x1024.Idx → EReal) y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 1024 + 1 * (y 1).val = (y 1).val; omega

/-- Window 12's block is its whole array at every point (block index (0, 0), block shape the array's). -/
theorem iblk0_12_eq (c : Dev nD) (t : Fin cfg0.N) : (iblk0 V c 12 t : Vec Ideal S1024x1568 .bf16) = (V c main_v5 : S1024x1568.Idx → EReal) := by
  obtain ⟨e0, e1, e2, e3, e4, e5, e6, e7, e8, e9, e10, e11, e12, e13, e14, e15, e16, e17, e18, e19, e20, e21, e22, e23⟩ := idx_weights t
  funext y
  show (V c main_v5 : S1024x1568.Idx → EReal) (((cfg0.win 12).blk t).view.emb y) = (V c main_v5 : S1024x1568.Idx → EReal) y
  refine congrArg _ (funext fun a => Fin.ext ?_)
  match a with
  | ⟨0, _⟩ => show win0_12.index t (0 : Fin 2) * 1024 + 1 * (y 0).val = (y 0).val; omega
  | ⟨1, _⟩ => show win0_12.index t (1 : Fin 2) * 1568 + 1 * (y 1).val = (y 1).val; omega

/-- Window 13's block is its whole array at every point (block index (0, 0), block shape the array's). -/
theorem iblk0_13_eq (c : Dev nD) (t : Fin cfg0.N) : (iblk0 V c 13 t : Vec Ideal S1x1568 .f32) = (V c main_v11 : S1x1568.Idx → EReal) := by
  obtain ⟨e0, e1, e2, e3, e4, e5, e6, e7, e8, e9, e10, e11, e12, e13, e14, e15, e16, e17, e18, e19, e20, e21, e22, e23⟩ := idx_weights t
  funext y
  show (V c main_v11 : S1x1568.Idx → EReal) (((cfg0.win 13).blk t).view.emb y) = (V c main_v11 : S1x1568.Idx → EReal) y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 1568 + 1 * (y 1).val = (y 1).val; omega

/-- Row `r` of the point's input block is row `256 T + r` of the input array, `T` the point's block row. -/
theorem iblk0_0_apply (c : Dev nD) (t : Fin cfg0.N) (r : Fin 256) (k : Fin 784) (R : Fin 4096)
    (hR : R.val = win0_15.index t (0 : Fin 2) * 256 + r.val) :
    (iblk0 V c 0 t : Vec Ideal S256x784 .f32) (ix2 r k) = (V c main_arg0 : S4096x784.Idx → EReal) (ix2 R k) := by
  obtain ⟨e0, e1, e2, e3, e4, e5, e6, e7⟩ := idx_rows t
  show (V c main_arg0 : S4096x784.Idx → EReal) (((cfg0.win 0).blk t).view.emb (ix2 r k)) = _
  refine congrArg _ (funext fun a => Fin.ext ?_)
  match a with
  | ⟨0, _⟩ => show win0_0.index t (0 : Fin 2) * 256 + 1 * r.val = R.val; omega
  | ⟨1, _⟩ => show win0_0.index t (1 : Fin 2) * 784 + 1 * k.val = k.val; omega

/-- Row `r` of the point's noise block is row `256 T + r` of the noise array. -/
theorem iblk0_1_apply (c : Dev nD) (t : Fin cfg0.N) (r : Fin 256) (R : Fin 4096)
    (hR : R.val = win0_15.index t (0 : Fin 2) * 256 + r.val) :
    (iblk0 V c 1 t : Vec Ideal S256x1 .f32) (ix2 r 0) = (V c main_arg1 : S4096x1.Idx → EReal) (ix2 R 0) := by
  obtain ⟨e0, e1, e2, e3, e4, e5, e6, e7⟩ := idx_rows t
  show (V c main_arg1 : S4096x1.Idx → EReal) (((cfg0.win 1).blk t).view.emb (ix2 r 0)) = _
  refine congrArg _ (funext fun a => Fin.ext ?_)
  match a with
  | ⟨0, _⟩ => show win0_1.index t (0 : Fin 2) * 256 + 1 * r.val = R.val; omega
  | ⟨1, _⟩ => show win0_1.index t (1 : Fin 2) * 1 + 1 * 0 = 0; omega

/-- The encoder of the point's weight blocks is the encoder of the weight arrays. -/
theorem encBlk_blocks (c : Dev nD) (t : Fin cfg0.N) :
    encBlk (iblk0 V c 2 t) (iblk0 V c 3 t) (iblk0 V c 4 t) (iblk0 V c 5 t) (iblk0 V c 6 t) (iblk0 V c 7 t) = encAt V c := by
  have h := congr (congr (congr (congr (congr (congrArg encBlk (iblk0_2_eq V c t)) (iblk0_3_eq V c t)) (iblk0_4_eq V c t)) (iblk0_5_eq V c t)) (iblk0_6_eq V c t)) (iblk0_7_eq V c t)
  exact h

/-- The decoder of the point's weight blocks is the decoder of the weight arrays. -/
theorem decBlk_blocks (c : Dev nD) (t : Fin cfg0.N) :
    decBlk (iblk0 V c 8 t) (iblk0 V c 9 t) (iblk0 V c 10 t) (iblk0 V c 11 t) (iblk0 V c 12 t) (iblk0 V c 13 t) = decAt V c := by
  have h := congr (congr (congr (congr (congr (congrArg decBlk (iblk0_8_eq V c t)) (iblk0_9_eq V c t)) (iblk0_10_eq V c t)) (iblk0_11_eq V c t)) (iblk0_12_eq V c t)) (iblk0_13_eq V c t)
  exact h

/-! ## One row of what a point leaves, over variables -/

/-- Row `r` of the latent-sample payload, when the blocks' rows and weights are those of arrays `A0`, `A1` and of
    the encoder `P`. -/
theorem z_point (x0 : Vec Ideal S256x784 .f32) (x1 : Vec Ideal S256x1 .f32) (x2 : Vec Ideal S784x1024 .bf16) (x3 : Vec Ideal S1x1024 .f32) (x4 : Vec Ideal S1024x1024 .bf16) (x5 : Vec Ideal S1x1024 .f32) (x6 : Vec Ideal S1024x2 .bf16) (x7 : Vec Ideal S1x2 .f32)
    (A0 : S4096x784.Idx → EReal) (A1 : S4096x1.Idx → EReal) (P : Cert.Vae.Enc) (r : Fin 256) (R : Fin 4096)
    (hP : encBlk x2 x3 x4 x5 x6 x7 = P) (h0 : ∀ k : Fin 784, x0 (ix2 r k) = A0 (ix2 R k)) (h1 : x1 (ix2 r 0) = A1 (ix2 R 0)) :
    k0_pay9 (k0_pay3 x0 x2 x3 x4 x5 x6 x7) (k0_pay5 x0 x2 x3 x4 x5 x6 x7) x1 (ix2 r 0) = Cert.Vae.zRow P (fun k => A0 (ix2 R k)) (A1 (ix2 R 0)) := by
  rw [z_apply, hP, h1, funext h0]

/-- Row `r` of the partial-loss payload, likewise, with the decoder `Q`. -/
theorem partial_point (x0 : Vec Ideal S256x784 .f32) (x1 : Vec Ideal S256x1 .f32) (x2 : Vec Ideal S784x1024 .bf16) (x3 : Vec Ideal S1x1024 .f32) (x4 : Vec Ideal S1024x1024 .bf16) (x5 : Vec Ideal S1x1024 .f32) (x6 : Vec Ideal S1024x2 .bf16) (x7 : Vec Ideal S1x2 .f32) (x8 : Vec Ideal S1x1024 .bf16) (x9 : Vec Ideal S1x1024 .f32) (x10 : Vec Ideal S1024x1024 .bf16) (x11 : Vec Ideal S1x1024 .f32) (x12 : Vec Ideal S1024x1568 .bf16) (x13 : Vec Ideal S1x1568 .f32)
    (A0 : S4096x784.Idx → EReal) (A1 : S4096x1.Idx → EReal) (P : Cert.Vae.Enc) (Q : Cert.Vae.Dec) (r : Fin 256) (R : Fin 4096)
    (hP : encBlk x2 x3 x4 x5 x6 x7 = P) (hQ : decBlk x8 x9 x10 x11 x12 x13 = Q)
    (h0 : ∀ k : Fin 784, x0 (ix2 r k) = A0 (ix2 R k)) (h1 : x1 (ix2 r 0) = A1 (ix2 R 0)) :
    k0_pay1 (k0_pay8 (k0_pay6 x0 x2 x3 x4 x5 x6 x7) (k0_pay7 x0 x2 x3 x4 x5 x6 x7)) (k0_pay10 x0 (k0_pay3 x0 x2 x3 x4 x5 x6 x7) (k0_pay5 x0 x2 x3 x4 x5 x6 x7) x1 x8 x9 x10 x11 x12 x13) (ix2 r 0)
      = Cert.Vae.partialRow P Q (fun k => A0 (ix2 R k)) (A1 (ix2 R 0)) := by
  rw [partial_apply, hP, hQ, h1, funext h0]

/-! ## Output window 15 -/

/-- An index of the array is in point `t`'s block iff each coordinate is in the block's range on its axis. -/
theorem mem_blk15 (t : Fin cfg0.N) (i : S4096x1.Idx) :
    i ∈ ((cfg0.win 15).blk t).view.set ↔ ∀ a : Fin 2, win0_15.index t a * S256x1.size a ≤ (i a).val ∧ (i a).val < win0_15.index t a * S256x1.size a + S256x1.size a := by
  show i ∈ ((View.whole main_v12_1).slice (win0_15.rect t)).set ↔ _
  rw [View.set_slice_whole, Rect.mem_set_unit]
  exact Iff.rfl

/-- What point `t` writes back is block `t` of `zArr`. -/
theorem flushed15_eq (c : Dev nD) (t : Fin cfg0.N) :
    (dat0 (F := Ideal) V c).flushed 15 t = ((cfg0.win 15).blk t).view.read (Elt Ideal) (zArr V c) := by
  show (cfg0.win 15).cut (grid0.coords t) ((dat0 (F := Ideal) V c).after 15 t) = _
  rw [after0_15]
  unfold out0_15
  rw [View.canon_unit_zero hz2]
  simp only [View.ld_unit_zero (S := S256x784) hz2, View.ld_unit_zero (S := S256x1) hz2, View.ld_unit_zero (S := S784x1024) hz2, View.ld_unit_zero (S := S1x1024) hz2, View.ld_unit_zero (S := S1024x1024) hz2, View.ld_unit_zero (S := S1024x2) hz2, View.ld_unit_zero (S := S1x2) hz2, View.ld_unit_zero (S := S1024x1568) hz2, View.ld_unit_zero (S := S1x1568) hz2]
  obtain ⟨e0, e1, e2, e3, e4, e5, e6, e7⟩ := idx_rows t
  refine funext fun (j : S256x1.Idx) => ?_
  obtain ⟨r, q, rfl⟩ : ∃ (r : Fin 256) (q : Fin 1), j = ix2 r q := ⟨j 0, j 1, eq_ix2 j⟩
  obtain rfl : q = 0 := Subsingleton.elim _ _
  have hR : win0_15.index t (0 : Fin 2) * 256 + r.val < 4096 := by omega
  have hi : ((cfg0.win 15).blk t).view.emb (ix2 r 0) = (ix2 (⟨win0_15.index t (0 : Fin 2) * 256 + r.val, hR⟩ : Fin 4096) 0 : S4096x1.Idx) := by
    funext a; apply Fin.ext
    match a with
    | ⟨0, _⟩ => show win0_15.index t (0 : Fin 2) * 256 + 1 * r.val = win0_15.index t (0 : Fin 2) * 256 + r.val; omega
    | ⟨1, _⟩ => show win0_15.index t (1 : Fin 2) * 1 + 1 * 0 = 0; omega
  show k0_pay9 (k0_pay3 (iblk0 V c 0 t) (iblk0 V c 2 t) (iblk0 V c 3 t) (iblk0 V c 4 t) (iblk0 V c 5 t) (iblk0 V c 6 t) (iblk0 V c 7 t)) (k0_pay5 (iblk0 V c 0 t) (iblk0 V c 2 t) (iblk0 V c 3 t) (iblk0 V c 4 t) (iblk0 V c 5 t) (iblk0 V c 6 t) (iblk0 V c 7 t)) (iblk0 V c 1 t) (ix2 r 0) = zArr V c (((cfg0.win 15).blk t).view.emb (ix2 r 0))
  rw [hi]
  exact z_point (iblk0 V c 0 t) (iblk0 V c 1 t) (iblk0 V c 2 t) (iblk0 V c 3 t) (iblk0 V c 4 t) (iblk0 V c 5 t) (iblk0 V c 6 t) (iblk0 V c 7 t) _ _ _ r ⟨_, hR⟩ (encBlk_blocks V c t) (fun k => iblk0_0_apply V c t r k _ rfl) (iblk0_1_apply V c t r _ rfl)

/-- Every row of the array is in some point's block: the one of block row `row / 256`. -/
theorem covered15 (i : S4096x1.Idx) : ∃ t : Fin cfg0.N, (cfg0.win 15).flush t = true ∧ i ∈ ((cfg0.win 15).blk t).view.set := by
  have hi0 : (i 0).val < 4096 := (i 0).isLt
  have hi1 : (i 1).val < 1 := (i 1).isLt
  obtain ⟨t, ht15, ht14⟩ := idx_onto ⟨(i 0).val / 256, by omega⟩ ⟨0, by omega⟩
  have q0 : win0_15.index t (0 : Fin 2) = (i 0).val / 256 := congrFun ht15 0
  have q1 : win0_15.index t (1 : Fin 2) = 0 := congrFun ht15 1
  refine ⟨t, flush0_15 t, ?_⟩
  rw [mem_blk15]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 1 ≤ (i 1).val ∧ (i 1).val < win0_15.index t (1 : Fin 2) * 1 + 1; omega

/-- The array after the run. -/
theorem final15 (c : Dev nD) : (dat0 (F := Ideal) V c).arrAt 15 cfg0.N = zArr V c :=
  (dat0 (F := Ideal) V c).arrAt_eq_of_cover 15 (zArr V c) (fun t _ => flushed15_eq V c t) covered15

/-! ## Output window 14 -/

/-- An index of the array is in point `t`'s block iff each coordinate is in the block's range on its axis. -/
theorem mem_blk14 (t : Fin cfg0.N) (i : S4096x1.Idx) :
    i ∈ ((cfg0.win 14).blk t).view.set ↔ ∀ a : Fin 2, win0_14.index t a * S256x1.size a ≤ (i a).val ∧ (i a).val < win0_14.index t a * S256x1.size a + S256x1.size a := by
  show i ∈ ((View.whole main_v12_0).slice (win0_14.rect t)).set ↔ _
  rw [View.set_slice_whole, Rect.mem_set_unit]
  exact Iff.rfl

/-- What point `t` writes back is block `t` of `partialArr`. -/
theorem flushed14_eq (c : Dev nD) (t : Fin cfg0.N) :
    (dat0 (F := Ideal) V c).flushed 14 t = ((cfg0.win 14).blk t).view.read (Elt Ideal) (partialArr V c) := by
  show (cfg0.win 14).cut (grid0.coords t) ((dat0 (F := Ideal) V c).after 14 t) = _
  rw [after0_14]
  unfold out0_14
  rw [View.canon_unit_zero hz2]
  simp only [View.ld_unit_zero (S := S256x784) hz2, View.ld_unit_zero (S := S256x1) hz2, View.ld_unit_zero (S := S784x1024) hz2, View.ld_unit_zero (S := S1x1024) hz2, View.ld_unit_zero (S := S1024x1024) hz2, View.ld_unit_zero (S := S1024x2) hz2, View.ld_unit_zero (S := S1x2) hz2, View.ld_unit_zero (S := S1024x1568) hz2, View.ld_unit_zero (S := S1x1568) hz2]
  obtain ⟨e0, e1, e2, e3, e4, e5, e6, e7⟩ := idx_rows t
  refine funext fun (j : S256x1.Idx) => ?_
  obtain ⟨r, q, rfl⟩ : ∃ (r : Fin 256) (q : Fin 1), j = ix2 r q := ⟨j 0, j 1, eq_ix2 j⟩
  obtain rfl : q = 0 := Subsingleton.elim _ _
  have hR : win0_15.index t (0 : Fin 2) * 256 + r.val < 4096 := by omega
  have hi : ((cfg0.win 14).blk t).view.emb (ix2 r 0) = (ix2 (⟨win0_15.index t (0 : Fin 2) * 256 + r.val, hR⟩ : Fin 4096) 0 : S4096x1.Idx) := by
    funext a; apply Fin.ext
    match a with
    | ⟨0, _⟩ => show win0_14.index t (0 : Fin 2) * 256 + 1 * r.val = win0_15.index t (0 : Fin 2) * 256 + r.val; omega
    | ⟨1, _⟩ => show win0_14.index t (1 : Fin 2) * 1 + 1 * 0 = 0; omega
  show k0_pay1 (k0_pay8 (k0_pay6 (iblk0 V c 0 t) (iblk0 V c 2 t) (iblk0 V c 3 t) (iblk0 V c 4 t) (iblk0 V c 5 t) (iblk0 V c 6 t) (iblk0 V c 7 t)) (k0_pay7 (iblk0 V c 0 t) (iblk0 V c 2 t) (iblk0 V c 3 t) (iblk0 V c 4 t) (iblk0 V c 5 t) (iblk0 V c 6 t) (iblk0 V c 7 t))) (k0_pay10 (iblk0 V c 0 t) (k0_pay3 (iblk0 V c 0 t) (iblk0 V c 2 t) (iblk0 V c 3 t) (iblk0 V c 4 t) (iblk0 V c 5 t) (iblk0 V c 6 t) (iblk0 V c 7 t)) (k0_pay5 (iblk0 V c 0 t) (iblk0 V c 2 t) (iblk0 V c 3 t) (iblk0 V c 4 t) (iblk0 V c 5 t) (iblk0 V c 6 t) (iblk0 V c 7 t)) (iblk0 V c 1 t) (iblk0 V c 8 t) (iblk0 V c 9 t) (iblk0 V c 10 t) (iblk0 V c 11 t) (iblk0 V c 12 t) (iblk0 V c 13 t)) (ix2 r 0) = partialArr V c (((cfg0.win 14).blk t).view.emb (ix2 r 0))
  rw [hi]
  exact partial_point (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _ _ _ _ r ⟨_, hR⟩ (encBlk_blocks V c t) (decBlk_blocks V c t) (fun k => iblk0_0_apply V c t r k _ rfl) (iblk0_1_apply V c t r _ rfl)

/-- Every row of the array is in some point's block: the one of block row `row / 256`. -/
theorem covered14 (i : S4096x1.Idx) : ∃ t : Fin cfg0.N, (cfg0.win 14).flush t = true ∧ i ∈ ((cfg0.win 14).blk t).view.set := by
  have hi0 : (i 0).val < 4096 := (i 0).isLt
  have hi1 : (i 1).val < 1 := (i 1).isLt
  obtain ⟨t, ht15, ht14⟩ := idx_onto ⟨(i 0).val / 256, by omega⟩ ⟨0, by omega⟩
  have q0 : win0_14.index t (0 : Fin 2) = (i 0).val / 256 := congrFun ht14 0
  have q1 : win0_14.index t (1 : Fin 2) = 0 := congrFun ht14 1
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1 ≤ (i 1).val ∧ (i 1).val < win0_14.index t (1 : Fin 2) * 1 + 1; omega

/-- The array after the run. -/
theorem final14 (c : Dev nD) : (dat0 (F := Ideal) V c).arrAt 14 cfg0.N = partialArr V c :=
  (dat0 (F := Ideal) V c).arrAt_eq_of_cover 14 (partialArr V c) (fun t _ => flushed14_eq V c t) covered14

end Cert.KernelIdeal.Hand

end
-- ==== Proof.Pieces1.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.Frame1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What each control case of the second region leaves, as one function of its loads -/

/-- One grid point's step of the cell: the stored value from the four input blocks and the cell's contents before. -/
def step1 (x0 : Vec F S512x1 .f32) (x1 : Vec F S1x512 .f32) (x2 : Vec F S512x1 .f32) (x3 : Vec F S1x512 .f32) (acc : Vec F S1x1 .f32) : Vec F S1x1 .f32 :=
  k1_pay1 (k1_pay5 x0 x3) (k1_pay6 x0 x1) (k1_pay7 x2 x3) k1_pay8 acc

theorem hzCell : (![0, 0] : Fin 2 → Nat) = fun _ => 0 := by
  funext a; match a with | ⟨0, _⟩ => rfl | ⟨1, _⟩ => rfl

/-- A middle point leaves the step of what the point before left. -/
theorem sout1_B_eq (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : ¬cond1_1 i)
    (x0 : Vec F S512x1 .f32) (x1 : Vec F S1x512 .f32) (x2 : Vec F S512x1 .f32) (x3 : Vec F S1x512 .f32) (xs0 : Vec F S1x1 .f32) :
    sout1_B (F := F) c i arg2 harg2 arg3 harg3 arg4 harg4 arg5 harg5 arg6 harg6 arg7 harg7 hc0 hc1 x0 x1 x2 x3 xs0 = step1 x0 x1 x2 x3 xs0 := by
  unfold sout1_B
  rw [View.read_writes_eq_canon _ _ _ (scover1_B c i arg2 harg2 arg3 harg3 arg4 harg4 arg5 harg5 arg6 harg6 arg7 harg7 hc0 hc1 x0 x1 x2 x3 xs0)]
  unfold kernelRun1_B
  dsimp only
  sl_unfold_words
  refine (View.canon_unit_zero (S := S1x1) hzCell _ _).trans ?_
  simp only [View.readAt_eq_ld, harg2.read_unread, harg3.read_unread, harg4.read_unread, harg5.read_unread, harg7.read_unread,
    View.ld_unit_zero (S := S512x1) hzCell, View.ld_unit_zero (S := S1x512) hzCell, View.ld_unit_zero (S := S1x1) hzCell]
  rfl

/-- The first point leaves the step of the zero the cell is reset to. -/
theorem sout1_A_eq (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : cond1_0 i) (hc1 : ¬cond1_1 i)
    (x0 : Vec F S512x1 .f32) (x1 : Vec F S1x512 .f32) (x2 : Vec F S512x1 .f32) (x3 : Vec F S1x512 .f32) :
    sout1_A (F := F) c i arg2 harg2 arg3 harg3 arg4 harg4 arg5 harg5 arg6 harg6 arg7 harg7 hc0 hc1 x0 x1 x2 x3 = step1 x0 x1 x2 x3 k1_pay2 := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  refine (View.canon_cons_unit_zero (S := S1x1) hzCell _ _ _).trans ?_
  simp only [View.readAt_eq_ld, harg2.read_unread, harg3.read_unread, harg4.read_unread, harg5.read_unread, harg7.read_unread,
    View.ld_unit_zero (S := S512x1) hzCell, View.ld_unit_zero (S := S1x512) hzCell, View.ld_unit_zero (S := S1x1) hzCell]
  exact congrArg (k1_pay1 (k1_pay5 x0 x3) (k1_pay6 x0 x1) (k1_pay7 x2 x3) k1_pay8) (View.readCov_unit_zero (S := S1x1) arg7.view hzCell _ _)

/-- The last point leaves the step in the cell … -/
theorem sout1_C_eq (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S512x1 .f32) (x1 : Vec F S1x512 .f32) (x2 : Vec F S512x1 .f32) (x3 : Vec F S1x512 .f32) (xs0 : Vec F S1x1 .f32) :
    sout1_C (F := F) c i arg2 harg2 arg3 harg3 arg4 harg4 arg5 harg5 arg6 harg6 arg7 harg7 hc0 hc1 x0 x1 x2 x3 xs0 = step1 x0 x1 x2 x3 xs0 := by
  unfold sout1_C
  rw [View.read_writes_eq_canon _ _ _ (scover1_C c i arg2 harg2 arg3 harg3 arg4 harg4 arg5 harg5 arg6 harg6 arg7 harg7 hc0 hc1 x0 x1 x2 x3 xs0)]
  unfold kernelRun1_C
  dsimp only
  sl_unfold_words
  refine (View.canon_unit_zero (S := S1x1) hzCell _ _).trans ?_
  simp only [View.readAt_eq_ld, harg2.read_unread, harg3.read_unread, harg4.read_unread, harg5.read_unread, harg7.read_unread,
    View.ld_unit_zero (S := S512x1) hzCell, View.ld_unit_zero (S := S1x512) hzCell, View.ld_unit_zero (S := S1x1) hzCell]
  rfl

/-- … and the same value in the output's staging buffer. -/
theorem out1_C_eq (c : Dev nD) (i : grid1.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole) (hc0 : ¬cond1_0 i) (hc1 : cond1_1 i)
    (x0 : Vec F S512x1 .f32) (x1 : Vec F S1x512 .f32) (x2 : Vec F S512x1 .f32) (x3 : Vec F S1x512 .f32) (xs0 : Vec F S1x1 .f32) :
    out1_C (F := F) c i arg2 harg2 arg3 harg3 arg4 harg4 arg5 harg5 arg6 harg6 arg7 harg7 hc0 hc1 x0 x1 x2 x3 xs0 = step1 x0 x1 x2 x3 xs0 := by
  unfold out1_C
  rw [View.read_writes_eq_canon _ _ _ (cover1_C c i arg2 harg2 arg3 harg3 arg4 harg4 arg5 harg5 arg6 harg6 arg7 harg7 hc0 hc1 x0 x1 x2 x3 xs0)]
  unfold kernelRun1_C
  dsimp only
  sl_unfold_words
  refine (View.canon_unit_zero (S := S1x1) hzCell _ _).trans ?_
  simp only [View.readAt_eq_ld, harg2.read_unread, harg3.read_unread, harg4.read_unread, harg5.read_unread, harg7.read_unread,
    View.ld_unit_zero (S := S512x1) hzCell, View.ld_unit_zero (S := S1x512) hzCell, View.ld_unit_zero (S := S1x1) hzCell]
  exact View.readCov_unit_zero (S := S1x1) arg7.view hzCell _ _

end Cert.KernelIdeal.Hand

end
-- ==== Proof.KPay1.lean ====
/-
  The discrepancy kernel's arithmetic read at its one index. One grid point reads a column block and a row block of
  the latent samples and of the prior samples, forms three 512 x 512 tiles of `exp(-(a - b)^2)`, sums each, and adds
  `(zz + pp) - 2 zp` to the running total it read before; at the first point the total is reset to zero.
-/
import proofs.«167655_j26061861552780_1_alg».proof.Proof.Gen.KernelIdeal.Skeleton
import proofs.«167655_j26061861552780_1_alg».proof.Proof.Spec
import proofs.«167655_j26061861552780_1_alg».proof.Proof.KLay

noncomputable section

namespace Cert.KernelIdeal.Pay

open Idealize.ShloMosaic Idealize.ShloMosaic.ValueIdx Cert.KernelIdeal Cert.KernelIdeal.Gen

/-- The sum over a 512 x 512 tile of `exp(-(u a - w b)^2)`. -/
def S (u w : Fin 512 → EReal) : EReal := ∑ a : Fin 512, ∑ b : Fin 512, Ideal.exp (-((u a - w b) * (u a - w b)))

/-- The total of a 512 x 512 tile formed along the rows, viewed as a column, summed along the column and viewed as a
    1 x 1 array: the double sum of the tile's entries. -/
theorem total_apply (E : FVec Ideal S512x512 .f32) (h1 : S512x512.Reduces [1] S512) (h2 : S512.ShapeCasts S512x1)
    (h3 : S512x1.Reduces [0] S1) (h4 : S1.ShapeCasts S1x1) (hφ : FKind.Formats .f32)
    (hacc : (0x00000000#32 : BitVec 32) = 0x00000000#32) :
    shapeCast S1x1 (multiReduction .add [0] S1 (shapeCast S512x1 (multiReduction .add [1] S512 E 0x00000000#32 h1 hφ hacc) h2)
        0x00000000#32 h3 hφ hacc) h4 (ix2 (0 : Fin 1) (0 : Fin 1))
      = ∑ a : Fin 512, ∑ b : Fin 512, E (ix2 a b) := by
  refine (shapeCast_a_1a_apply _ h4 0 0).trans ?_
  refine (colSum_apply _ h3 hφ hacc 0).trans ?_
  refine Finset.sum_congr rfl fun a _ => ?_
  refine (shapeCast_a_a1_apply _ h2 a 0).trans ?_
  exact rowSum_apply E h1 hφ hacc a

/-- One entry of a tile: a column entry minus a row entry, squared, negated by subtraction from the zero word,
    exponentiated. -/
theorem tile_apply (c : FVec Ideal S512x1 .f32) (r : FVec Ideal S1x512 .f32) (hc : S512x1.Broadcasts S512x512)
    (hr : S1x512.Broadcasts S512x512) (a b : Fin 512) :
    Idealize.ShloMosaic.exp (subf (broadcast S512x512 (Scalar.ofBits (F := Ideal) .f32 0x00000000#32))
        (mulf (subf (broadcastTo S512x512 c hc) (broadcastTo S512x512 r hr))
          (subf (broadcastTo S512x512 c hc) (broadcastTo S512x512 r hr)))) (ix2 a b)
      = Ideal.exp (-((c (ix2 a 0) - r (ix2 0 b)) * (c (ix2 a 0) - r (ix2 0 b)))) := by
  show Ideal.exp (Ideal.ofBits .f32 0x00000000#32
      - (broadcastTo S512x512 c hc (ix2 a b) - broadcastTo S512x512 r hr (ix2 a b))
        * (broadcastTo S512x512 c hc (ix2 a b) - broadcastTo S512x512 r hr (ix2 a b))) = _
  rw [zero_word_sub, broadcastTo_a1_ab_apply, broadcastTo_1b_ab_apply]

/-- The latent-latent tile total. -/
theorem tileZZ_apply (v5 : Vec Ideal S512x1 .f32) (v7 : Vec Ideal S1x512 .f32) :
    Gen.k1_pay6 v5 v7 (ix2 0 0) = S (fun a => v5 (ix2 a 0)) (fun b => v7 (ix2 0 b)) := by
  unfold Gen.k1_pay6 Gen.k1_pay3
  simp only [shapeCast_self]
  refine (total_apply _ _ _ _ _ _ _).trans ?_
  unfold S
  exact Finset.sum_congr rfl fun a _ => Finset.sum_congr rfl fun b _ => tile_apply v5 v7 _ _ a b

/-- The prior-prior tile total. -/
theorem tilePP_apply (v9 : Vec Ideal S512x1 .f32) (v10 : Vec Ideal S1x512 .f32) :
    Gen.k1_pay7 v9 v10 (ix2 0 0) = S (fun a => v9 (ix2 a 0)) (fun b => v10 (ix2 0 b)) := by
  unfold Gen.k1_pay7 Gen.k1_pay4
  simp only [shapeCast_self]
  refine (total_apply _ _ _ _ _ _ _).trans ?_
  unfold S
  exact Finset.sum_congr rfl fun a _ => Finset.sum_congr rfl fun b _ => tile_apply v9 v10 _ _ a b

/-- The latent-prior tile total, whose squared differences are formed before the exponential's argument is. -/
theorem cross_apply (v5 : Vec Ideal S512x1 .f32) (v10 : Vec Ideal S1x512 .f32) (h1 : S512x512.Reduces [1] S512)
    (h2 : S512.ShapeCasts S512x1) (h3 : S512x1.Reduces [0] S1) (h4 : S1.ShapeCasts S1x1) (hφ : FKind.Formats .f32)
    (hacc : (0x00000000#32 : BitVec 32) = 0x00000000#32) :
    shapeCast S1x1 (multiReduction .add [0] S1 (shapeCast S512x1 (multiReduction .add [1] S512
        (Idealize.ShloMosaic.exp (subf (Gen.k1_pay8 (F := Ideal)) (Gen.k1_pay5 v5 v10))) 0x00000000#32 h1 hφ hacc) h2)
        0x00000000#32 h3 hφ hacc) h4 (ix2 (0 : Fin 1) (0 : Fin 1))
      = S (fun a => v5 (ix2 a 0)) (fun b => v10 (ix2 0 b)) := by
  refine (total_apply _ h1 h2 h3 h4 hφ hacc).trans ?_
  unfold S Gen.k1_pay8 Gen.k1_pay5 Gen.k1_pay3 Gen.k1_pay4
  simp only [shapeCast_self]
  exact Finset.sum_congr rfl fun a _ => Finset.sum_congr rfl fun b _ => tile_apply v5 v10 _ _ a b

/-- What a grid point stores: the total it read plus `(zz + pp) - 2 zp` of its tile. -/
theorem step_apply (v5 : Vec Ideal S512x1 .f32) (v7 : Vec Ideal S1x512 .f32) (v9 : Vec Ideal S512x1 .f32)
    (v10 : Vec Ideal S1x512 .f32) (v45 : Vec Ideal S1x1 .f32) :
    Gen.k1_pay1 (Gen.k1_pay5 v5 v10) (Gen.k1_pay6 v5 v7) (Gen.k1_pay7 v9 v10) Gen.k1_pay8 v45 (ix2 0 0)
      = v45 (ix2 0 0) + ((S (fun a => v5 (ix2 a 0)) (fun b => v7 (ix2 0 b)) + S (fun a => v9 (ix2 a 0)) (fun b => v10 (ix2 0 b)))
          - Cert.Vae.cTwo * S (fun a => v5 (ix2 a 0)) (fun b => v10 (ix2 0 b))) := by
  unfold Gen.k1_pay1
  simp only [shapeCast_self]
  rw [addf_apply, subf_apply, addf_apply, mulf_apply, broadcast_apply, tileZZ_apply, tilePP_apply, cross_apply]
  rfl

/-- What the first grid point resets the total to: zero. -/
theorem reset_apply : Gen.k1_pay2 (F := Ideal) (ix2 0 0) = 0 := by
  unfold Gen.k1_pay2
  simp only [shapeCast_self]
  exact Ideal.ofBits_zero_f32

end Cert.KernelIdeal.Pay

end
-- ==== Proof.Value1.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.Frame1
import proofs.«167655_j26061861552780_1_alg».proof.Proof.Pieces1
import proofs.«167655_j26061861552780_1_alg».proof.Proof.KPay1
import proofs.«167655_j26061861552780_1_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Vae

/-! # The second region's output at the ideal instance: the running total of the tile terms -/

section Region
variable (V : (c : Dev nD) → (b : Ref sig .tc) → Buf (Elt Ideal) ((c : Thread nD τ).loc b))

/-- The latent samples and the prior samples, as the region finds them in its two column arrays. -/
def zcol (c : Dev nD) : Fin 4096 → EReal := fun i => (V c main_v12_1 : S4096x1.Idx → EReal) (ix2 i 0)
def pcol (c : Dev nD) : Fin 4096 → EReal := fun i => (V c main_arg2 : S4096x1.Idx → EReal) (ix2 i 0)

/-- The printed index maps over the 8 x 8 grid: the column windows follow the grid's row, the row windows its column. -/
theorem idx1 : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8 :=
  (by decide +kernel : ∀ t : Fin grid1.N, _)

/-- The column block of the latent samples at point `t`: rows `512 * (t / 8) + a`. -/
theorem blk0 (c : Dev nD) (t : Fin cfg1.N) (a : Fin 512) :
    (iblk1 V c 0 t : Vec Ideal S512x1 .f32) (ix2 a 0) = zcol V c (tileIx (pointRow t.val) a) := by
  have hN : t.val < 64 := lt_of_lt_of_eq t.isLt (show cfg1.N = 64 from N_1)
  obtain ⟨e0, e1, -, -, -, -, -, -⟩ := idx1 t
  show V c main_v12_1 (((cfg1.win 0).blk t).view.emb (ix2 a 0)) = V c main_v12_1 (ix2 (tileIx (pointRow t.val) a) 0)
  refine congrArg _ ?_
  funext d; apply Fin.ext
  match d with
  | ⟨0, _⟩ => show win1_0.index t (0 : Fin 2) * 512 + 1 * a.val = (t.val / 8) % 8 * 512 + a.val; omega
  | ⟨1, _⟩ => show win1_0.index t (1 : Fin 2) * 1 + 1 * 0 = 0; omega

/-- The row block of the latent samples at point `t`: columns `512 * (t % 8) + b`. -/
theorem blk1 (c : Dev nD) (t : Fin cfg1.N) (b : Fin 512)
    (hz : ∀ j : Fin 4096, (V c main_v13 : S1x4096.Idx → EReal) (ix2 0 j) = zcol V c j) :
    (iblk1 V c 1 t : Vec Ideal S1x512 .f32) (ix2 0 b) = zcol V c (tileIx (pointCol t.val) b) := by
  obtain ⟨-, -, e0, e1, -, -, -, -⟩ := idx1 t
  rw [← hz]
  show V c main_v13 (((cfg1.win 1).blk t).view.emb (ix2 0 b)) = V c main_v13 (ix2 0 (tileIx (pointCol t.val) b))
  refine congrArg _ ?_
  funext d; apply Fin.ext
  match d with
  | ⟨0, _⟩ => show win1_1.index t (0 : Fin 2) * 1 + 1 * 0 = 0; omega
  | ⟨1, _⟩ => show win1_1.index t (1 : Fin 2) * 512 + 1 * b.val = t.val % 8 * 512 + b.val; omega

theorem blk2 (c : Dev nD) (t : Fin cfg1.N) (a : Fin 512) :
    (iblk1 V c 2 t : Vec Ideal S512x1 .f32) (ix2 a 0) = pcol V c (tileIx (pointRow t.val) a) := by
  have hN : t.val < 64 := lt_of_lt_of_eq t.isLt (show cfg1.N = 64 from N_1)
  obtain ⟨-, -, -, -, e0, e1, -, -⟩ := idx1 t
  show V c main_arg2 (((cfg1.win 2).blk t).view.emb (ix2 a 0)) = V c main_arg2 (ix2 (tileIx (pointRow t.val) a) 0)
  refine congrArg _ ?_
  funext d; apply Fin.ext
  match d with
  | ⟨0, _⟩ => show win1_2.index t (0 : Fin 2) * 512 + 1 * a.val = (t.val / 8) % 8 * 512 + a.val; omega
  | ⟨1, _⟩ => show win1_2.index t (1 : Fin 2) * 1 + 1 * 0 = 0; omega

theorem blk3 (c : Dev nD) (t : Fin cfg1.N) (b : Fin 512)
    (hp : ∀ j : Fin 4096, (V c main_v14 : S1x4096.Idx → EReal) (ix2 0 j) = pcol V c j) :
    (iblk1 V c 3 t : Vec Ideal S1x512 .f32) (ix2 0 b) = pcol V c (tileIx (pointCol t.val) b) := by
  obtain ⟨-, -, -, -, -, -, e0, e1⟩ := idx1 t
  rw [← hp]
  show V c main_v14 (((cfg1.win 3).blk t).view.emb (ix2 0 b)) = V c main_v14 (ix2 0 (tileIx (pointCol t.val) b))
  refine congrArg _ ?_
  funext d; apply Fin.ext
  match d with
  | ⟨0, _⟩ => show win1_3.index t (0 : Fin 2) * 1 + 1 * 0 = 0; omega
  | ⟨1, _⟩ => show win1_3.index t (1 : Fin 2) * 512 + 1 * b.val = t.val % 8 * 512 + b.val; omega

/-- One grid point's step adds its tile term to the cell. -/
theorem step_total (c : Dev nD) (t : Fin cfg1.N) (acc : Vec Ideal S1x1 .f32)
    (hz : ∀ j : Fin 4096, (V c main_v13 : S1x4096.Idx → EReal) (ix2 0 j) = zcol V c j)
    (hp : ∀ j : Fin 4096, (V c main_v14 : S1x4096.Idx → EReal) (ix2 0 j) = pcol V c j) :
    step1 (F := Ideal) (iblk1 V c 0 t) (iblk1 V c 1 t) (iblk1 V c 2 t) (iblk1 V c 3 t) acc (ix2 0 0)
      = acc (ix2 0 0) + tileTerm (zcol V c) (pcol V c) (pointRow t.val) (pointCol t.val) := by
  unfold step1
  refine (Cert.KernelIdeal.Pay.step_apply _ _ _ _ _).trans ?_
  unfold tileTerm tileSum Cert.KernelIdeal.Pay.S
  simp only [blk0 V c t, blk2 V c t, blk1 V c t _ hz, blk3 V c t _ hp]

/-- THE ACCUMULATION, READ: after point `n` the cell holds the running total. -/
theorem acc_eq (c : Dev nD)
    (hz : ∀ j : Fin 4096, (V c main_v13 : S1x4096.Idx → EReal) (ix2 0 j) = zcol V c j)
    (hp : ∀ j : Fin 4096, (V c main_v14 : S1x4096.Idx → EReal) (ix2 0 j) = pcol V c j) :
    ∀ (n : ℕ) (hn : n < cfg1.N), (outsAt1 V c n hn).2 (ix2 0 0) = runningTotal (zcol V c) (pcol V c) n
  | 0, hn => by
    rw [show outsAt1 V c 0 hn = _ from outsAt1_A V c ⟨0, hn⟩ rfl (by show ¬(0 : ℕ) = 63; decide)]
    dsimp only
    rw [sout1_A_eq, step_total V c ⟨0, hn⟩ _ hz hp, Cert.KernelIdeal.Pay.reset_apply]
    rfl
  | n + 1, hn => by
    have ih := acc_eq c hz hp n (Nat.lt_of_succ_lt hn)
    by_cases h1 : n + 1 = 63
    · rw [show outsAt1 V c (n + 1) hn = _ from outsAt1_C V c ⟨n + 1, hn⟩ (Nat.succ_ne_zero n) h1]
      dsimp only
      rw [sout1_C_eq, step_total V c ⟨n + 1, hn⟩ _ hz hp]
      show (outsAt1 V c n _).2 (ix2 0 0) + _ = _
      rw [ih]; rfl
    · rw [show outsAt1 V c (n + 1) hn = _ from outsAt1_B V c ⟨n + 1, hn⟩ (Nat.succ_ne_zero n) h1]
      dsimp only
      rw [sout1_B_eq, step_total V c ⟨n + 1, hn⟩ _ hz hp]
      show (outsAt1 V c n _).2 (ix2 0 0) + _ = _
      rw [ih]; rfl

/-- What the last point copies out is the total after it. -/
theorem out_last (c : Dev nD)
    (hz : ∀ j : Fin 4096, (V c main_v13 : S1x4096.Idx → EReal) (ix2 0 j) = zcol V c j)
    (hp : ∀ j : Fin 4096, (V c main_v14 : S1x4096.Idx → EReal) (ix2 0 j) = pcol V c j)
    (t : Fin cfg1.N) (h : t.val = 63) :
    (outsAt1 V c t.val t.isLt).1 (ix2 0 0) = runningTotal (zcol V c) (pcol V c) 63 := by
  have h0 : ¬t.val = 0 := by omega
  rw [outsAt1_C V c t h0 h]
  dsimp only
  rw [out1_C_eq, step_total V c t _ hz hp, acc_eq V c hz hp (t.val - 1) _]
  have e : t.val - 1 = 62 := by omega
  rw [e, h]
  rfl

/-- The output array's one cell is in the last point's block. -/
theorem mem_blk4 (t : Fin cfg1.N) (i : S1x1.Idx) : i ∈ ((cfg1.win 4).blk t).view.set := by
  show i ∈ ((View.whole main_v15).slice (win1_4.rect t)).set
  rw [View.set_slice_whole, Rect.mem_set_unit]
  have hw : ∀ a : Fin 2, win1_4.index t a = 0 := fun a =>
    (by decide +kernel : ∀ (t : Fin grid1.N) (a : Fin 2), win1_4.index t a = 0) t a
  intro a
  match a with
  | ⟨0, _⟩ => show win1_4.index t (0 : Fin 2) * 1 ≤ (i 0).val ∧ (i 0).val < win1_4.index t (0 : Fin 2) * 1 + 1; have := hw 0; have hi : (i 0).val < 1 := (i 0).isLt; omega
  | ⟨1, _⟩ => show win1_4.index t (1 : Fin 2) * 1 ≤ (i 1).val ∧ (i 1).val < win1_4.index t (1 : Fin 2) * 1 + 1; have := hw 1; have hi : (i 1).val < 1 := (i 1).isLt; omega

/-- THE OUTPUT ARRAY after the run: its one cell holds the total after the last point. -/
theorem final4 (c : Dev nD)
    (hz : ∀ j : Fin 4096, (V c main_v13 : S1x4096.Idx → EReal) (ix2 0 j) = zcol V c j)
    (hp : ∀ j : Fin 4096, (V c main_v14 : S1x4096.Idx → EReal) (ix2 0 j) = pcol V c j) :
    ((dat1 V c).arrAt 4 cfg1.N : S1x1.Idx → EReal) = fun _ => runningTotal (zcol V c) (pcol V c) 63 := by
  refine (dat1 V c).arrAt_eq_of_cover 4 (fun _ => runningTotal (zcol V c) (pcol V c) 63) (fun t hf => ?_) (fun i => ?_)
  · have hN : t.val < 64 := lt_of_lt_of_eq t.isLt (show cfg1.N = 64 from N_1)
    have ht : t.val = 63 := by have := (flush1_4 t).mp hf; omega
    show (cfg1.win 4).cut (grid1.coords t) ((dat1 V c).after 4 t) = _
    rw [after1_4]
    funext j
    have hj : j = ix2 0 0 := by
      funext d; apply Fin.ext
      match d with
      | ⟨0, _⟩ => have h0 : (j 0).val < 1 := (j 0).isLt; show (j 0).val = 0; omega
      | ⟨1, _⟩ => have h1 : (j 1).val < 1 := (j 1).isLt; show (j 1).val = 0; omega
    subst hj
    exact out_last V c hz hp t ht
  · exact ⟨⟨63, by rw [show cfg1.N = 64 from N_1]; decide⟩, (flush1_4 _).mpr (by decide), mem_blk4 _ i⟩

end Region

end Cert.KernelIdeal.Hand

end
-- ==== Proof.HostIdeal.lean ====
/-
  The host lines of the program read on the extended reals.  Before the first region: six conversions to a
  narrower float format, which change nothing on the extended reals, and six vectors laid out as one-row
  matrices.  Between the regions: two columns laid out as rows.  After the second region: the accumulated
  total divided by 2^24, halved, and added to every row's partial loss.
-/
import proofs.«167655_j26061861552780_1_alg».proof.Proof.Run
import proofs.«167655_j26061861552780_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Layout changes read at an index -/

/-- A column `[n, 1]` laid out as a row `[1, n]` reads, at `(0, j)`, the column at `(j, 0)`. -/
theorem shapeCast_col_row {α : Type} {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 0 j) = x (ix2 j 0) :=
  shapeCast_apply x h _ _ (by
    rw [Shape.rowMajor_val_two, Shape.rowMajor_val_two]
    show j.val * 1 + 0 = 0 * n + j.val
    omega)

/-- A column `[n, 1]` laid out as a vector `[n]` reads, at `i`, the column at `(i, 0)`. -/
theorem shapeCast_col_vec {α : Type} {n : ℕ} (x : (⟨2, ![n, 1]⟩ : Shape).Idx → α)
    (h : (⟨2, ![n, 1]⟩ : Shape).ShapeCasts ⟨1, ![n]⟩) (i : (⟨1, ![n]⟩ : Shape).Idx) :
    shapeCast ⟨1, ![n]⟩ x h i = x (ix2 (i 0) 0) :=
  shapeCast_apply x h _ _ (by
    rw [Shape.rowMajor_val_two, Shape.rowMajor_val_one]
    show (i 0).val * 1 + 0 = (i 0).val
    omega)

/-- A `[1, 1]` matrix laid out as a scalar reads the matrix at `(0, 0)`. -/
theorem shapeCast_11_scalar {α : Type} (x : (⟨2, ![1, 1]⟩ : Shape).Idx → α)
    (h : (⟨2, ![1, 1]⟩ : Shape).ShapeCasts ⟨0, ![]⟩) (i : (⟨0, ![]⟩ : Shape).Idx) :
    shapeCast ⟨0, ![]⟩ x h i = x (ix2 0 0) :=
  shapeCast_apply x h _ _ (by
    rw [Shape.rowMajor_val_two]
    show 0 * 1 + 0 = (Shape.rowMajorPi _ _).val
    rw [Shape.rowMajorPi_zero])

/-- A scalar broadcast to a vector reads the scalar everywhere. -/
theorem broadcast_scalar {α : Type} {t : Shape} (h : (⟨0, ![]⟩ : Shape).BroadcastsInDim t (![] : Fin 0 → Fin t.rank))
    (v : (⟨0, ![]⟩ : Shape).Idx → α) (i : t.Idx) : broadcastInDim t ![] h v i = v ix0 :=
  broadcastInDim_apply _ h v i ix0 (fun a => a.elim0)

variable (m : (ℓ : Loc nD τ sig) → Buf (Elt Ideal) ℓ) (c : Dev nD)

/-! ## The first region's entry -/

theorem VA1_v0 : (VA1 m c main_v0 : S784x1024.Idx → EReal) = m ((c : Thread nD τ).loc main_arg3) := by
  show StableHlo.after (hostOps0 (F := Ideal)) (W0 m c) (Proc.devRef .tc main_v0) = _
  after_results
  rfl

theorem VA1_v1 : (VA1 m c main_v1 : S1024x1024.Idx → EReal) = m ((c : Thread nD τ).loc main_arg5) := by
  show StableHlo.after (hostOps0 (F := Ideal)) (W0 m c) (Proc.devRef .tc main_v1) = _
  after_results
  rfl

theorem VA1_v2 : (VA1 m c main_v2 : S1024x2.Idx → EReal) = m ((c : Thread nD τ).loc main_arg7) := by
  show StableHlo.after (hostOps0 (F := Ideal)) (W0 m c) (Proc.devRef .tc main_v2) = _
  after_results
  rfl

theorem VA1_v3 : (VA1 m c main_v3 : S1x1024.Idx → EReal) = m ((c : Thread nD τ).loc main_arg9) := by
  show StableHlo.after (hostOps0 (F := Ideal)) (W0 m c) (Proc.devRef .tc main_v3) = _
  after_results
  rfl

theorem VA1_v4 : (VA1 m c main_v4 : S1024x1024.Idx → EReal) = m ((c : Thread nD τ).loc main_arg11) := by
  show StableHlo.after (hostOps0 (F := Ideal)) (W0 m c) (Proc.devRef .tc main_v4) = _
  after_results
  rfl

theorem VA1_v5 : (VA1 m c main_v5 : S1024x1568.Idx → EReal) = m ((c : Thread nD τ).loc main_arg13) := by
  show StableHlo.after (hostOps0 (F := Ideal)) (W0 m c) (Proc.devRef .tc main_v5) = _
  after_results
  rfl

theorem VA1_v6 (j : Fin 1024) :
    (VA1 m c main_v6 : S1x1024.Idx → EReal) (ix2 0 j) = (m ((c : Thread nD τ).loc main_arg4) : S1024.Idx → EReal) (ix1 j) := by
  have e : (VA1 m c main_v6 : S1x1024.Idx → EReal)
      = shapeCast S1x1024 (m ((c : Thread nD τ).loc main_arg4) : S1024.Idx → EReal) Facts₀.shapeCasts_S1024_S1x1024 := by
    show StableHlo.after (hostOps0 (F := Ideal)) (W0 m c) (Proc.devRef .tc main_v6) = _
    after_results
    rfl
  rw [e]
  exact shapeCast_a_1a_apply _ _ 0 j

theorem VA1_v7 (j : Fin 1024) :
    (VA1 m c main_v7 : S1x1024.Idx → EReal) (ix2 0 j) = (m ((c : Thread nD τ).loc main_arg6) : S1024.Idx → EReal) (ix1 j) := by
  have e : (VA1 m c main_v7 : S1x1024.Idx → EReal)
      = shapeCast S1x1024 (m ((c : Thread nD τ).loc main_arg6) : S1024.Idx → EReal) Facts₀.shapeCasts_S1024_S1x1024 := by
    show StableHlo.after (hostOps0 (F := Ideal)) (W0 m c) (Proc.devRef .tc main_v7) = _
    after_results
    rfl
  rw [e]
  exact shapeCast_a_1a_apply _ _ 0 j

theorem VA1_v8 (j : Fin 2) :
    (VA1 m c main_v8 : S1x2.Idx → EReal) (ix2 0 j) = (m ((c : Thread nD τ).loc main_arg8) : S2.Idx → EReal) (ix1 j) := by
  have e : (VA1 m c main_v8 : S1x2.Idx → EReal)
      = shapeCast S1x2 (m ((c : Thread nD τ).loc main_arg8) : S2.Idx → EReal) Facts₀.shapeCasts_S2_S1x2 := by
    show StableHlo.after (hostOps0 (F := Ideal)) (W0 m c) (Proc.devRef .tc main_v8) = _
    after_results
    rfl
  rw [e]
  exact shapeCast_a_1a_apply _ _ 0 j

theorem VA1_v9 (j : Fin 1024) :
    (VA1 m c main_v9 : S1x1024.Idx → EReal) (ix2 0 j) = (m ((c : Thread nD τ).loc main_arg10) : S1024.Idx → EReal) (ix1 j) := by
  have e : (VA1 m c main_v9 : S1x1024.Idx → EReal)
      = shapeCast S1x1024 (m ((c : Thread nD τ).loc main_arg10) : S1024.Idx → EReal) Facts₀.shapeCasts_S1024_S1x1024 := by
    show StableHlo.after (hostOps0 (F := Ideal)) (W0 m c) (Proc.devRef .tc main_v9) = _
    after_results
    rfl
  rw [e]
  exact shapeCast_a_1a_apply _ _ 0 j

theorem VA1_v10 (j : Fin 1024) :
    (VA1 m c main_v10 : S1x1024.Idx → EReal) (ix2 0 j) = (m ((c : Thread nD τ).loc main_arg12) : S1024.Idx → EReal) (ix1 j) := by
  have e : (VA1 m c main_v10 : S1x1024.Idx → EReal)
      = shapeCast S1x1024 (m ((c : Thread nD τ).loc main_arg12) : S1024.Idx → EReal) Facts₀.shapeCasts_S1024_S1x1024 := by
    show StableHlo.after (hostOps0 (F := Ideal)) (W0 m c) (Proc.devRef .tc main_v10) = _
    after_results
    rfl
  rw [e]
  exact shapeCast_a_1a_apply _ _ 0 j

theorem VA1_v11 (j : Fin 1568) :
    (VA1 m c main_v11 : S1x1568.Idx → EReal) (ix2 0 j) = (m ((c : Thread nD τ).loc main_arg14) : S1568.Idx → EReal) (ix1 j) := by
  have e : (VA1 m c main_v11 : S1x1568.Idx → EReal)
      = shapeCast S1x1568 (m ((c : Thread nD τ).loc main_arg14) : S1568.Idx → EReal) Facts₀.shapeCasts_S1568_S1x1568 := by
    show StableHlo.after (hostOps0 (F := Ideal)) (W0 m c) (Proc.devRef .tc main_v11) = _
    after_results
    rfl
  rw [e]
  exact shapeCast_a_1a_apply _ _ 0 j

theorem VA1_arg0 : VA1 m c main_arg0 = m ((c : Thread nD τ).loc main_arg0) :=
  StableHlo.after_of_writes_sub hostOps0 _ hostOps0_writes (r := main_arg0) (by decide)

theorem VA1_arg1 : VA1 m c main_arg1 = m ((c : Thread nD τ).loc main_arg1) :=
  StableHlo.after_of_writes_sub hostOps0 _ hostOps0_writes (r := main_arg1) (by decide)

/-! ## The second region's entry -/

/-- The middle host lines leave the first region's second result as the region left it. -/
theorem VA3_v12_1 : VA3 m c main_v12_1 = (dat0 (VA1 m) c).arrAt 15 cfg0.N :=
  (StableHlo.after_of_writes_sub hostOps1 _ hostOps1_writes (r := main_v12_1) (by decide)).trans (W2_arr m c 15)

theorem VA3_v13 (j : Fin 4096) :
    (VA3 m c main_v13 : S1x4096.Idx → EReal) (ix2 0 j) = (VA3 m c main_v12_1 : S4096x1.Idx → EReal) (ix2 j 0) := by
  have e : (VA3 m c main_v13 : S1x4096.Idx → EReal)
      = shapeCast S1x4096 (W2 m c (Proc.devRef .tc main_v12_1) : S4096x1.Idx → EReal) Facts₀.shapeCasts_S4096x1_S1x4096 := by
    show StableHlo.after (hostOps1 (F := Ideal)) (W2 m c) (Proc.devRef .tc main_v13) = _
    after_results
    rfl
  have e' : (VA3 m c main_v12_1 : S4096x1.Idx → EReal) = (W2 m c (Proc.devRef .tc main_v12_1) : S4096x1.Idx → EReal) :=
    StableHlo.after_of_writes_sub hostOps1 _ hostOps1_writes (r := main_v12_1) (by decide)
  rw [e, e']
  exact shapeCast_col_row _ _ j

theorem VA3_arg2 : VA3 m c main_arg2 = m ((c : Thread nD τ).loc main_arg2) :=
  calc VA3 m c main_arg2
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem VA3_v14 (j : Fin 4096) :
    (VA3 m c main_v14 : S1x4096.Idx → EReal) (ix2 0 j) = (m ((c : Thread nD τ).loc main_arg2) : S4096x1.Idx → EReal) (ix2 j 0) := by
  have e : (VA3 m c main_v14 : S1x4096.Idx → EReal)
      = shapeCast S1x4096 (W2 m c (Proc.devRef .tc main_arg2) : S4096x1.Idx → EReal) Facts₀.shapeCasts_S4096x1_S1x4096 := by
    show StableHlo.after (hostOps1 (F := Ideal)) (W2 m c) (Proc.devRef .tc main_v14) = _
    after_results
    rfl
  have e' : (W2 m c (Proc.devRef .tc main_arg2) : S4096x1.Idx → EReal) = (m ((c : Thread nD τ).loc main_arg2) : S4096x1.Idx → EReal) :=
    calc W2 m c (Proc.devRef .tc main_arg2)
      _ = W1 m c (Proc.devRef .tc main_arg2) := W2_of_ne m c main_arg2 (by decide)
      _ = W0 m c (Proc.devRef .tc main_arg2) := StableHlo.after_of_writes_sub hostOps0 _ hostOps0_writes (r := main_arg2) (by decide)
      _ = m ((c : Thread nD τ).loc main_arg2) := rfl
  rw [e, e']
  exact shapeCast_col_row _ _ j

/-! ## The tail -/

/-- At the second region's exit, the first region's first result is still what that region left. -/
theorem W4_v12_0 : (W4 m c (Proc.devRef .tc main_v12_0) : S4096x1.Idx → EReal) = ((dat0 (VA1 m) c).arrAt 14 cfg0.N : S4096x1.Idx → EReal) :=
  calc W4 m c (Proc.devRef .tc main_v12_0)
    _ = W3 m c (Proc.devRef .tc main_v12_0) := W4_of_ne m c main_v12_0 (by decide)
    _ = W2 m c (Proc.devRef .tc main_v12_0) := StableHlo.after_of_writes_sub hostOps1 _ hostOps1_writes (r := main_v12_0) (by decide)
    _ = (dat0 (VA1 m) c).arrAt 14 cfg0.N := W2_arr m c 14

theorem W4_v15 : (W4 m c (Proc.devRef .tc main_v15) : S1x1.Idx → EReal) = ((dat1 (VA3 m) c).arrAt 4 cfg1.N : S1x1.Idx → EReal) :=
  W4_arr m c 4

/-- The returned vector, given what the two regions left as plain arrays `r` (every row's partial loss) and `t`
    (the accumulated total): `r` plus half of `t` over `2^24`. -/
theorem W5_v21_of (i : S4096.Idx) (r : S4096x1.Idx → EReal) (t : S1x1.Idx → EReal)
    (hr : ((dat0 (VA1 m) c).arrAt 14 cfg0.N : S4096x1.Idx → EReal) = r)
    (ht : ((dat1 (VA3 m) c).arrAt 4 cfg1.N : S1x1.Idx → EReal) = t) :
    (W5 m c (Proc.devRef .tc main_v21) : S4096.Idx → EReal) i
      = r (ix2 (i 0) 0) + Cert.Vae.cHalf * Ideal.div (t (ix2 0 0)) Cert.Vae.cCount := by
  have e0 : (W4 m c (Proc.devRef .tc main_v12_0) : S4096x1.Idx → EReal) = r := (W4_v12_0 m c).trans hr
  have e1 : (W4 m c (Proc.devRef .tc main_v15) : S1x1.Idx → EReal) = t := (W4_v15 m c).trans ht
  show StableHlo.after (hostOps2 (F := Ideal)) (W4 m c) (Proc.devRef .tc main_v21) i = _
  after_results
  show shapeCast (s := S4096x1) (α := EReal) S4096 (W4 m c (Proc.devRef .tc main_v12_0)) _ i
      + Cert.Vae.cHalf * Ideal.div (shapeCast (s := S1x1) (α := EReal) S_ (W4 m c (Proc.devRef .tc main_v15)) _ _) Cert.Vae.cCount = _
  rw [e0, e1, shapeCast_col_vec, shapeCast_11_scalar]

/-- The returned vector: every row's partial loss plus half the accumulated total over `2^24`. -/
theorem W5_v21 (i : S4096.Idx) :
    (W5 m c (Proc.devRef .tc main_v21) : S4096.Idx → EReal) i
      = @HAdd.hAdd EReal EReal EReal instHAdd
          (((dat0 (VA1 m) c).arrAt 14 cfg0.N : S4096x1.Idx → EReal) (ix2 (i 0) 0))
          (Cert.Vae.cHalf * Ideal.div (((dat1 (VA3 m) c).arrAt 4 cfg1.N : S1x1.Idx → EReal) (ix2 0 0)) Cert.Vae.cCount) :=
  W5_v21_of m c i _ _ rfl rfl

end Cert.KernelIdeal.Hand

end
-- ==== Proof.SpecArrays.lean ====
/-
  The specification read off whole argument arrays: the encoder and decoder weights as the arrays that hold
  them, a row of the input, the latent sample of every row, and every row's loss given the discrepancy.
-/
import proofs.«167655_j26061861552780_1_alg».proof.Proof.Spec
import Idealize.ShloMosaic.Lib.ValueIdx

noncomputable section

namespace Cert.Vae

open Idealize.ShloMosaic Idealize.ShloMosaic.ValueIdx

/-- A rank-2 and a rank-1 array of extended reals. -/
abbrev A2 (a b : ℕ) : Type := (⟨2, ![a, b]⟩ : Shape).Idx → EReal
abbrev A1 (a : ℕ) : Type := (⟨1, ![a]⟩ : Shape).Idx → EReal

/-- The encoder whose weights and biases are these six arrays. -/
def encOf (w1 : A2 784 1024) (b1 : A1 1024) (w2 : A2 1024 1024) (b2 : A1 1024) (w3 : A2 1024 2) (b3 : A1 2) : Enc where
  W1 k j := w1 (ix2 k j)
  b1 j := b1 (ix1 j)
  W2 k j := w2 (ix2 k j)
  b2 j := b2 (ix1 j)
  W3 k j := w3 (ix2 k j)
  b3 j := b3 (ix1 j)

/-- The decoder whose weights and biases are these six arrays. -/
def decOf (d1 : A2 1 1024) (c1 : A1 1024) (d2 : A2 1024 1024) (c2 : A1 1024) (d3 : A2 1024 1568) (c3 : A1 1568) : Dec where
  D1 k j := d1 (ix2 k j)
  c1 j := c1 (ix1 j)
  D2 k j := d2 (ix2 k j)
  c2 j := c2 (ix1 j)
  D3 k j := d3 (ix2 k j)
  c3 j := c3 (ix1 j)

/-- Row `r` of the input, and entry `r` of a column of noise. -/
def rowOf (x : A2 4096 784) (r : Fin 4096) : Fin 784 → EReal := fun k => x (ix2 r k)
def colOf (e : A2 4096 1) (r : Fin 4096) : EReal := e (ix2 r 0)

/-- The latent sample of every row. -/
def zAll (P : Enc) (x : A2 4096 784) (e : A2 4096 1) (r : Fin 4096) : EReal := zRow P (rowOf x r) (colOf e r)

/-- Every row's loss before the shared term. -/
def partialAll (P : Enc) (Q : Dec) (x : A2 4096 784) (e : A2 4096 1) (r : Fin 4096) : EReal :=
  partialRow P Q (rowOf x r) (colOf e r)

/-- Every row's loss, given the discrepancy `d`. -/
def lossAll (P : Enc) (Q : Dec) (x : A2 4096 784) (e : A2 4096 1) (d : EReal) (r : Fin 4096) : EReal :=
  loss P Q (rowOf x r) (colOf e r) d

theorem lossAll_eq (P : Enc) (Q : Dec) (x : A2 4096 784) (e : A2 4096 1) (d : EReal) (r : Fin 4096) :
    lossAll P Q x e d r = partialAll P Q x e r + cHalf * d := rfl

end Cert.Vae

end
-- ==== Proof.KernelValue.lean ====
import proofs.«167655_j26061861552780_1_alg».proof.Proof.Gen.KernelIdeal.Launch
import proofs.«167655_j26061861552780_1_alg».proof.Proof.Gen.KernelIdeal.Skeleton
import proofs.«167655_j26061861552780_1_alg».proof.Proof.Gen.KernelIdeal.Points
import proofs.«167655_j26061861552780_1_alg».proof.Proof.Run
import proofs.«167655_j26061861552780_1_alg».proof.Proof.Value0
import proofs.«167655_j26061861552780_1_alg».proof.Proof.Value1
import proofs.«167655_j26061861552780_1_alg».proof.Proof.HostIdeal
import proofs.«167655_j26061861552780_1_alg».proof.Proof.SpecArrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Vae

/-! # What the kernel's program returns, at the ideal instance, as the specification's function of the arguments -/

section
variable {F : FTy → Type} [FloatOps F]
variable (m : (ℓ : Loc nD τ sig) → Buf (Elt F) ℓ) (ρ : Dev nD → PrngReg)

/-- The run with the result buffer named: it ends at the last boundary's contents, the arguments unchanged. -/
theorem run_result : θ_run defs (onTc (τ := τ) (main (F := F))) ⟨m, fun _ => 0, ρ⟩ (fun r => ∀ c : Dev nD,
      r.2.mem ((c.tc : Thread nD τ).loc main_v21) = W5 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v21 (by decide)),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c),
    (h c _ (mem_uc main_arg7 (by decide))).trans (W5_main_arg7 m c),
    (h c _ (mem_uc main_arg8 (by decide))).trans (W5_main_arg8 m c),
    (h c _ (mem_uc main_arg9 (by decide))).trans (W5_main_arg9 m c),
    (h c _ (mem_uc main_arg10 (by decide))).trans (W5_main_arg10 m c),
    (h c _ (mem_uc main_arg11 (by decide))).trans (W5_main_arg11 m c),
    (h c _ (mem_uc main_arg12 (by decide))).trans (W5_main_arg12 m c),
    (h c _ (mem_uc main_arg13 (by decide))).trans (W5_main_arg13 m c),
    (h c _ (mem_uc main_arg14 (by decide))).trans (W5_main_arg14 m c)⟩) (run_all m ρ)
end

variable (m : (ℓ : Loc nD τ sig) → Buf (Elt Ideal) ℓ) (c : Dev nD)

/-- The encoder and the decoder whose weights are the program's argument arrays. -/
def encM : Enc := encOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
def decM : Dec := decOf (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The first region finds the weights as launched: a change of float format is the identity here, and a bias vector
    recast as a row holds the same entries. -/
theorem encAt_VA1 : encAt (VA1 m) c = encM m c := by
  unfold encAt encM Cert.Vae.encOf
  simp only [VA1_v0 m c, VA1_v1 m c, VA1_v2 m c, VA1_v6 m c, VA1_v7 m c, VA1_v8 m c]
theorem decAt_VA1 : decAt (VA1 m) c = decM m c := by
  unfold decAt decM Cert.Vae.decOf
  simp only [VA1_v3 m c, VA1_v4 m c, VA1_v5 m c, VA1_v9 m c, VA1_v10 m c, VA1_v11 m c]

/-- The second region finds the latent samples the first one wrote, and the prior samples as launched. -/
theorem z_entry : zcol (VA3 m) c = zAll (encM m c) (m ((c : Thread nD τ).loc main_arg0)) (m ((c : Thread nD τ).loc main_arg1)) := by
  funext i
  unfold zcol
  rw [VA3_v12_1 m c, final15 (VA1 m) c]
  unfold zArr zAll rowOf colOf
  rw [encAt_VA1, VA1_arg0, VA1_arg1]
theorem p_entry : pcol (VA3 m) c = colOf (m ((c : Thread nD τ).loc main_arg2)) := by
  funext i
  unfold pcol colOf
  rw [VA3_arg2]

/-- THE KERNEL'S RESULT: every row's loss with the discrepancy in its tiled form. -/
theorem kernel_result (i : S4096.Idx) :
    (W5 m c (Proc.devRef .tc main_v21) : S4096.Idx → EReal) i
      = lossAll (encM m c) (decM m c) (m ((c : Thread nD τ).loc main_arg0)) (m ((c : Thread nD τ).loc main_arg1))
          (mmdTiled (zAll (encM m c) (m ((c : Thread nD τ).loc main_arg0)) (m ((c : Thread nD τ).loc main_arg1))) (colOf (m ((c : Thread nD τ).loc main_arg2)))) (i 0) := by
  have hr : ((dat0 (VA1 m) c).arrAt 14 cfg0.N : S4096x1.Idx → EReal) = partialArr (VA1 m) c := final14 (VA1 m) c
  have ht : ((dat1 (VA3 m) c).arrAt 4 cfg1.N : S1x1.Idx → EReal)
      = fun _ => runningTotal (zcol (VA3 m) c) (pcol (VA3 m) c) 63 :=
    final4 (VA3 m) c (fun j => VA3_v13 m c j) (fun j => (VA3_v14 m c j).trans (by unfold pcol; rw [VA3_arg2]))
  rw [W5_v21_of m c i _ _ hr ht]
  unfold partialArr
  rw [encAt_VA1, decAt_VA1, VA1_arg0, VA1_arg1, z_entry, p_entry]
  rfl

end Cert.KernelIdeal.Hand

end
-- ==== Proof.RefValueEnc.lean ====
/-
  The reference's encoder, read at an index: the two tanh layers, the linear layer, the mean and the log standard
  deviation it gives a row, the latent sample `mean + exp(logsd) * noise` and the row's KL term, each as the
  specification's function of the argument arrays.  A matrix product's element is the sum over the contracted axis,
  a broadcast bias reads the bias at the column, and a slice reads the sliced array at the shifted column.
-/
import proofs.«167655_j26061861552780_1_alg».proof.Proof.Gen.ReferenceIdeal.Read
import proofs.«167655_j26061861552780_1_alg».proof.Proof.SpecArrays

noncomputable section

namespace Cert.ReferenceIdeal.RefValue

open Cert.ReferenceIdeal Cert.ReferenceIdeal.Gen Cert.ReferenceIdeal.Read Idealize.ShloMosaic Idealize.ShloMosaic.ValueIdx Cert.Vae

/-- Two indices of rank 2 (of rank 1) whose coordinates agree are equal. -/
macro "idx2" : tactic => `(tactic| (funext a; apply Fin.ext; match a with | ⟨0, _⟩ => rfl | ⟨1, _⟩ => rfl))
macro "idx1" : tactic => `(tactic| (funext a; apply Fin.ext; match a with | ⟨0, _⟩ => rfl))

variable (a0 : A2 4096 784) (a1 : A2 4096 1) (a3 : A2 784 1024) (a4 : A1 1024) (a5 : A2 1024 1024) (a6 : A1 1024)
  (a7 : A2 1024 2) (a8 : A1 2)

/-- The first hidden layer of the encoder at row `r`, unit `j`. -/
theorem hid1_at (r : Fin 4096) (j : Fin 1024) :
    val_main_v4 (F := Ideal) a0 a3 a4 (ix2 r j) = encHid1 (encOf a3 a4 a5 a6 a7 a8) (rowOf a0 r) j := by
  have e1 : ∀ k, lidx_main_v0 (ix2 r j) k = ix2 r k := fun k => by idx2
  have e2 : ∀ k, ridx_main_v0 (ix2 r j) k = ix2 k j := fun k => by idx2
  have e3 : idx_main_v1 (idx_main_v2 (ix2 r j)) = ix1 j := by idx1
  rw [val_main_v4_apply, val_main_v3_apply, val_main_v0_apply, val_main_v2_apply, val_main_v1_apply]
  simp only [e1, e2, e3]
  rfl

/-- The second hidden layer of the encoder at row `r`, unit `j`. -/
theorem hid2_at (r : Fin 4096) (j : Fin 1024) :
    val_main_v9 (F := Ideal) a0 a3 a4 a5 a6 (ix2 r j) = encHid2 (encOf a3 a4 a5 a6 a7 a8) (rowOf a0 r) j := by
  have e1 : ∀ k, lidx_main_v5 (ix2 r j) k = ix2 r k := fun k => by idx2
  have e2 : ∀ k, ridx_main_v5 (ix2 r j) k = ix2 k j := fun k => by idx2
  have e3 : idx_main_v6 (idx_main_v7 (ix2 r j)) = ix1 j := by idx1
  rw [val_main_v9_apply, val_main_v8_apply, val_main_v5_apply, val_main_v7_apply, val_main_v6_apply]
  simp only [e1, e2, e3, hid1_at a0 a3 a4 a5 a6 a7 a8]
  rfl

/-- The encoder's output at row `r`, column `c` (0: the mean, 1: the log standard deviation). -/
theorem encOut_at (r : Fin 4096) (c : Fin 2) :
    val_main_v13 (F := Ideal) a0 a3 a4 a5 a6 a7 a8 (ix2 r c) = encOut (encOf a3 a4 a5 a6 a7 a8) (rowOf a0 r) c := by
  have e1 : ∀ k, lidx_main_v10 (ix2 r c) k = ix2 r k := fun k => by idx2
  have e2 : ∀ k, ridx_main_v10 (ix2 r c) k = ix2 k c := fun k => by idx2
  have e3 : idx_main_v11 (idx_main_v12 (ix2 r c)) = ix1 c := by idx1
  rw [val_main_v13_apply, val_main_v10_apply, val_main_v12_apply, val_main_v11_apply]
  simp only [e1, e2, e3, hid2_at a0 a3 a4 a5 a6 a7 a8]
  rfl

/-- The first column of the encoder's output is the mean. -/
theorem mean_at (r : Fin 4096) :
    val_main_v14 (F := Ideal) a0 a3 a4 a5 a6 a7 a8 (ix2 r (0 : Fin 1)) = zMean (encOf a3 a4 a5 a6 a7 a8) (rowOf a0 r) := by
  have e : idx_main_v14 (ix2 r (0 : Fin 1)) = ix2 r (0 : Fin 2) := by idx2
  rw [val_main_v14_apply, e, encOut_at]
  rfl

/-- The second column of the encoder's output is the log standard deviation. -/
theorem logsd_at (r : Fin 4096) :
    val_main_v15 (F := Ideal) a0 a3 a4 a5 a6 a7 a8 (ix2 r (0 : Fin 1)) = zLogSd (encOf a3 a4 a5 a6 a7 a8) (rowOf a0 r) := by
  have e : idx_main_v15 (ix2 r (0 : Fin 1)) = ix2 r (1 : Fin 2) := by idx2
  rw [val_main_v15_apply, e, encOut_at]
  rfl

/-- The latent sample of row `r`. -/
theorem z_at (r : Fin 4096) :
    val_main_v28 (F := Ideal) a0 a1 a3 a4 a5 a6 a7 a8 (ix2 r (0 : Fin 1)) = zAll (encOf a3 a4 a5 a6 a7 a8) a0 a1 r := by
  rw [val_main_v28_apply, val_main_v27_apply, val_main_v16_apply, mean_at, logsd_at]
  rfl

/-- The KL term of row `r`, after the column is reshaped to a vector. -/
theorem kl_at (r : Fin 4096) :
    val_main_v26 (F := Ideal) a0 a3 a4 a5 a6 a7 a8 (ix1 r) = klRow (encOf a3 a4 a5 a6 a7 a8) (rowOf a0 r) := by
  have e : idx_main_v26 (ix1 r) = ix2 r (0 : Fin 1) := by
    funext a; apply Fin.ext
    match a with
    | ⟨0, _⟩ => exact Nat.div_one _
    | ⟨1, _⟩ => rfl
  rw [val_main_v26_apply, e, val_main_v25_apply, val_main_v17_apply, val_main_v24_apply, val_main_v23_apply,
    val_main_cst_0_apply, val_main_v22_apply, val_main_v20_apply, val_main_v18_apply, val_main_v19_apply,
    val_main_v16_apply, val_main_v21_apply, val_main_cst_apply, mean_at, logsd_at]
  rfl

end Cert.ReferenceIdeal.RefValue

end
-- ==== Proof.RefValueDec.lean ====
/-
  The reference's decoder and the row's loss before the shared term, read at an index: the latent sample through
  the two tanh layers and the linear layer, the per-pixel mean and log standard deviation as the two halves of the
  decoder's output, the Gaussian log-likelihood of a pixel, and the negated sum over the pixels plus half the KL
  term.  The sum over the pixels starts from the zero word, which is the extended real 0.
-/
import proofs.«167655_j26061861552780_1_alg».proof.Proof.RefValueEnc

noncomputable section

namespace Cert.ReferenceIdeal.RefValue

open Cert.ReferenceIdeal Cert.ReferenceIdeal.Gen Cert.ReferenceIdeal.Read Idealize.ShloMosaic Idealize.ShloMosaic.ValueIdx Cert.Vae

variable (a0 : A2 4096 784) (a1 : A2 4096 1) (a3 : A2 784 1024) (a4 : A1 1024) (a5 : A2 1024 1024) (a6 : A1 1024)
  (a7 : A2 1024 2) (a8 : A1 2)
variable (a9 : A2 1 1024) (a10 : A1 1024) (a11 : A2 1024 1024) (a12 : A1 1024) (a13 : A2 1024 1568) (a14 : A1 1568)

/-- The first hidden layer of the decoder at row `r`, unit `j`: the contracted axis has one entry, the latent sample. -/
theorem dhid1_at (r : Fin 4096) (j : Fin 1024) :
    val_main_v33 (F := Ideal) a0 a1 a3 a4 a5 a6 a7 a8 a9 a10 (ix2 r j) = decHid1 (decOf a9 a10 a11 a12 a13 a14) (zAll (encOf a3 a4 a5 a6 a7 a8) a0 a1 r) j := by
  have e1 : ∀ k : Fin 1, lidx_main_v29 (ix2 r j) k = ix2 r (0 : Fin 1) := fun k => by
    obtain rfl : k = 0 := Subsingleton.elim _ _
    idx2
  have e2 : ∀ k, ridx_main_v29 (ix2 r j) k = ix2 k j := fun k => by idx2
  have e3 : idx_main_v30 (idx_main_v31 (ix2 r j)) = ix1 j := by idx1
  rw [val_main_v33_apply, val_main_v32_apply, val_main_v29_apply, val_main_v31_apply, val_main_v30_apply]
  simp only [e1, e2, e3, z_at a0 a1 a3 a4 a5 a6 a7 a8]
  rfl

/-- The second hidden layer of the decoder at row `r`, unit `j`. -/
theorem dhid2_at (r : Fin 4096) (j : Fin 1024) :
    val_main_v38 (F := Ideal) a0 a1 a3 a4 a5 a6 a7 a8 a9 a10 a11 a12 (ix2 r j) = decHid2 (decOf a9 a10 a11 a12 a13 a14) (zAll (encOf a3 a4 a5 a6 a7 a8) a0 a1 r) j := by
  have e1 : ∀ k, lidx_main_v34 (ix2 r j) k = ix2 r k := fun k => by idx2
  have e2 : ∀ k, ridx_main_v34 (ix2 r j) k = ix2 k j := fun k => by idx2
  have e3 : idx_main_v35 (idx_main_v36 (ix2 r j)) = ix1 j := by idx1
  rw [val_main_v38_apply, val_main_v37_apply, val_main_v34_apply, val_main_v36_apply, val_main_v35_apply]
  simp only [e1, e2, e3, dhid1_at a0 a1 a3 a4 a5 a6 a7 a8 a9 a10 a11 a12 a13 a14]
  rfl

/-- The decoder's output at row `r`, column `q`. -/
theorem dout_at (r : Fin 4096) (q : Fin 1568) :
    val_main_v42 (F := Ideal) a0 a1 a3 a4 a5 a6 a7 a8 a9 a10 a11 a12 a13 a14 (ix2 r q) = decOut (decOf a9 a10 a11 a12 a13 a14) (zAll (encOf a3 a4 a5 a6 a7 a8) a0 a1 r) q := by
  have e1 : ∀ k, lidx_main_v39 (ix2 r q) k = ix2 r k := fun k => by idx2
  have e2 : ∀ k, ridx_main_v39 (ix2 r q) k = ix2 k q := fun k => by idx2
  have e3 : idx_main_v40 (idx_main_v41 (ix2 r q)) = ix1 q := by idx1
  rw [val_main_v42_apply, val_main_v39_apply, val_main_v41_apply, val_main_v40_apply]
  simp only [e1, e2, e3, dhid2_at a0 a1 a3 a4 a5 a6 a7 a8 a9 a10 a11 a12 a13 a14]
  rfl

/-- The first 784 columns of the decoder's output are the pixel means. -/
theorem xmean_at (r : Fin 4096) (i : Fin 784) :
    val_main_v43 (F := Ideal) a0 a1 a3 a4 a5 a6 a7 a8 a9 a10 a11 a12 a13 a14 (ix2 r i) = xMean (decOf a9 a10 a11 a12 a13 a14) (zAll (encOf a3 a4 a5 a6 a7 a8) a0 a1 r) i := by
  have e : idx_main_v43 (ix2 r i) = ix2 r (⟨i.val, by omega⟩ : Fin 1568) := by idx2
  rw [val_main_v43_apply, e, dout_at]
  rfl

/-- The last 784 columns of the decoder's output are the pixel log standard deviations. -/
theorem xlogsd_at (r : Fin 4096) (i : Fin 784) :
    val_main_v44 (F := Ideal) a0 a1 a3 a4 a5 a6 a7 a8 a9 a10 a11 a12 a13 a14 (ix2 r i) = xLogSd (decOf a9 a10 a11 a12 a13 a14) (zAll (encOf a3 a4 a5 a6 a7 a8) a0 a1 r) i := by
  have e : idx_main_v44 (ix2 r i) = ix2 r (⟨784 + i.val, by omega⟩ : Fin 1568) := by idx2
  rw [val_main_v44_apply, e, dout_at]
  rfl

/-- The Gaussian log-likelihood of pixel `i` of row `r`. -/
theorem logprob_at (r : Fin 4096) (i : Fin 784) :
    val_main_v54 (F := Ideal) a0 a1 a3 a4 a5 a6 a7 a8 a9 a10 a11 a12 a13 a14 (ix2 r i) = logProb (decOf a9 a10 a11 a12 a13 a14) (zAll (encOf a3 a4 a5 a6 a7 a8) a0 a1 r) (rowOf a0 r) i := by
  rw [val_main_v54_apply, val_main_v52_apply, val_main_v51_apply, val_main_v50_apply, val_main_cst_1_apply,
    val_main_v49_apply, val_main_v48_apply, val_main_v47_apply, val_main_v46_apply, val_main_v45_apply,
    val_main_v53_apply, val_main_cst_2_apply, xmean_at, xlogsd_at]
  rfl

/-- The loss of row `r` before the shared term: the negated sum of the pixels' log-likelihoods plus half the KL term. -/
theorem partial_at (r : Fin 4096) :
    val_main_v122 (F := Ideal) a0 a1 a3 a4 a5 a6 a7 a8 a9 a10 a11 a12 a13 a14 (ix1 r) = partialAll (encOf a3 a4 a5 a6 a7 a8) (decOf a9 a10 a11 a12 a13 a14) a0 a1 r := by
  have e : ∀ k, idx_main_v55 (ix1 r) k = ix2 r k := fun k => by idx2
  rw [val_main_v122_apply, val_main_v56_apply, val_main_v55_apply, val_main_cst_3_apply, val_main_v121_apply,
    val_main_v120_apply, val_main_cst_23_apply, kl_at]
  simp only [e, logprob_at a0 a1 a3 a4 a5 a6 a7 a8 a9 a10 a11 a12 a13 a14, Ideal.ofBits_def, Ideal.ofBits_zero_f32, zero_add]
  rfl

end Cert.ReferenceIdeal.RefValue

end
-- ==== Proof.RefValueMmdZZ.lean ====
/-
  The reference's sample-against-sample kernel mean, read at an index.  The reference expands the square: the squared
  distance of two scalars `a`, `b` is formed as `(a * a + b * b) - 2 * (a * b)`, negated, divided by the latent dimension 1 and
  exponentiated; the mean is the total over all 4096 x 4096 pairs over 2^24.
-/
import proofs.«167655_j26061861552780_1_alg».proof.Proof.RefValueEnc

noncomputable section

namespace Cert.ReferenceIdeal.RefValue

open Cert.ReferenceIdeal Cert.ReferenceIdeal.Gen Cert.ReferenceIdeal.Read Idealize.ShloMosaic Idealize.ShloMosaic.ValueIdx Cert.Vae

variable (a0 : A2 4096 784) (a1 : A2 4096 1) (a3 : A2 784 1024) (a4 : A1 1024) (a5 : A2 1024 1024) (a6 : A1 1024)
  (a7 : A2 1024 2) (a8 : A1 2)

/-- One term of the sample-against-sample mean: the squares come from sums over an axis of size one, the cross term from a matrix
    product whose contracted axis has size one, and each such sum is its single term. -/
theorem rbf_zz_at (i j : Fin 4096) :
    val_main_v74 (F := Ideal) a0 a1 a3 a4 a5 a6 a7 a8 (ix2 i j) = rbf (zAll (encOf a3 a4 a5 a6 a7 a8) a0 a1) (zAll (encOf a3 a4 a5 a6 a7 a8) a0 a1) i j := by
  have eL : ∀ k : Fin 1, idx_main_v58 (idx_main_v59 (idx_main_v63 (ix2 i j))) k = ix2 i (0 : Fin 1) := fun k => by
    obtain rfl : k = 0 := Subsingleton.elim _ _
    idx2
  have eR : ∀ k : Fin 1, idx_main_v61 (idx_main_v62 (idx_main_v64 (ix2 i j))) k = ix2 j (0 : Fin 1) := fun k => by
    obtain rfl : k = 0 := Subsingleton.elim _ _
    idx2
  have eDL : ∀ k : Fin 1, lidx_main_v67 (ix2 i j) k = ix2 i (0 : Fin 1) := fun k => by
    obtain rfl : k = 0 := Subsingleton.elim _ _
    idx2
  have eDR : ∀ k : Fin 1, idx_main_v66 (ridx_main_v67 (ix2 i j) k) = ix2 j (0 : Fin 1) := fun k => by
    obtain rfl : k = 0 := Subsingleton.elim _ _
    idx2
  rw [val_main_v74_apply, val_main_v73_apply, val_main_v72_apply, val_main_cst_7_apply, val_main_v71_apply, val_main_v70_apply,
    val_main_v65_apply, val_main_v63_apply, val_main_v59_apply, val_main_v58_apply, val_main_cst_4_apply,
    val_main_v64_apply, val_main_v62_apply, val_main_v61_apply, val_main_cst_5_apply,
    val_main_v69_apply, val_main_v68_apply, val_main_cst_6_apply, val_main_v67_apply]
  simp only [val_main_v57_apply, val_main_v60_apply, val_main_v66_apply, eL, eR, eDL, eDR, z_at a0 a1 a3 a4 a5 a6 a7 a8, Fin.sum_univ_one,
    Ideal.ofBits_def, Ideal.ofBits_zero_f32, zero_add]
  rfl

/-- The sample-against-sample mean: the total over all pairs, from the zero word, over the count. -/
theorem mean_zz :
    val_main_v76 (F := Ideal) a0 a1 a3 a4 a5 a6 a7 a8 ix0 = rbfMean (zAll (encOf a3 a4 a5 a6 a7 a8) a0 a1) (zAll (encOf a3 a4 a5 a6 a7 a8) a0 a1) := by
  rw [val_main_v76_apply, val_main_v75_apply, val_main_cst_8_apply, val_main_cst_9_apply, sum_idx2]
  simp only [rbf_zz_at a0 a1 a3 a4 a5 a6 a7 a8, Ideal.ofBits_def, Ideal.ofBits_zero_f32, zero_add]
  rfl

end Cert.ReferenceIdeal.RefValue

end
-- ==== Proof.RefValueMmdPP.lean ====
/-
  The reference's prior-against-prior kernel mean, read at an index.  The reference expands the square: the squared
  distance of two scalars `a`, `b` is formed as `(a * a + b * b) - 2 * (a * b)`, negated, divided by the latent dimension 1 and
  exponentiated; the mean is the total over all 4096 x 4096 pairs over 2^24.
-/
import proofs.«167655_j26061861552780_1_alg».proof.Proof.RefValueEnc

noncomputable section

namespace Cert.ReferenceIdeal.RefValue

open Cert.ReferenceIdeal Cert.ReferenceIdeal.Gen Cert.ReferenceIdeal.Read Idealize.ShloMosaic Idealize.ShloMosaic.ValueIdx Cert.Vae

variable (a2 : A2 4096 1)

/-- One term of the prior-against-prior mean: the squares come from sums over an axis of size one, the cross term from a matrix
    product whose contracted axis has size one, and each such sum is its single term. -/
theorem rbf_pp_at (i j : Fin 4096) :
    val_main_v94 (F := Ideal) a2 (ix2 i j) = rbf (colOf a2) (colOf a2) i j := by
  have eL : ∀ k : Fin 1, idx_main_v78 (idx_main_v79 (idx_main_v83 (ix2 i j))) k = ix2 i (0 : Fin 1) := fun k => by
    obtain rfl : k = 0 := Subsingleton.elim _ _
    idx2
  have eR : ∀ k : Fin 1, idx_main_v81 (idx_main_v82 (idx_main_v84 (ix2 i j))) k = ix2 j (0 : Fin 1) := fun k => by
    obtain rfl : k = 0 := Subsingleton.elim _ _
    idx2
  have eDL : ∀ k : Fin 1, lidx_main_v87 (ix2 i j) k = ix2 i (0 : Fin 1) := fun k => by
    obtain rfl : k = 0 := Subsingleton.elim _ _
    idx2
  have eDR : ∀ k : Fin 1, idx_main_v86 (ridx_main_v87 (ix2 i j) k) = ix2 j (0 : Fin 1) := fun k => by
    obtain rfl : k = 0 := Subsingleton.elim _ _
    idx2
  rw [val_main_v94_apply, val_main_v93_apply, val_main_v92_apply, val_main_cst_13_apply, val_main_v91_apply, val_main_v90_apply,
    val_main_v85_apply, val_main_v83_apply, val_main_v79_apply, val_main_v78_apply, val_main_cst_10_apply,
    val_main_v84_apply, val_main_v82_apply, val_main_v81_apply, val_main_cst_11_apply,
    val_main_v89_apply, val_main_v88_apply, val_main_cst_12_apply, val_main_v87_apply]
  simp only [val_main_v77_apply, val_main_v80_apply, val_main_v86_apply, eL, eR, eDL, eDR, Fin.sum_univ_one,
    Ideal.ofBits_def, Ideal.ofBits_zero_f32, zero_add]
  rfl

/-- The prior-against-prior mean: the total over all pairs, from the zero word, over the count. -/
theorem mean_pp :
    val_main_v96 (F := Ideal) a2 ix0 = rbfMean (colOf a2) (colOf a2) := by
  rw [val_main_v96_apply, val_main_v95_apply, val_main_cst_14_apply, val_main_cst_15_apply, sum_idx2]
  simp only [rbf_pp_at a2, Ideal.ofBits_def, Ideal.ofBits_zero_f32, zero_add]
  rfl

end Cert.ReferenceIdeal.RefValue

end
-- ==== Proof.RefValueMmdZP.lean ====
/-
  The reference's sample-against-prior kernel mean, read at an index.  The reference expands the square: the squared
  distance of two scalars `a`, `b` is formed as `(a * a + b * b) - 2 * (a * b)`, negated, divided by the latent dimension 1 and
  exponentiated; the mean is the total over all 4096 x 4096 pairs over 2^24.
-/
import proofs.«167655_j26061861552780_1_alg».proof.Proof.RefValueEnc

noncomputable section

namespace Cert.ReferenceIdeal.RefValue

open Cert.ReferenceIdeal Cert.ReferenceIdeal.Gen Cert.ReferenceIdeal.Read Idealize.ShloMosaic Idealize.ShloMosaic.ValueIdx Cert.Vae

variable (a0 : A2 4096 784) (a1 a2 : A2 4096 1) (a3 : A2 784 1024) (a4 : A1 1024) (a5 : A2 1024 1024) (a6 : A1 1024)
  (a7 : A2 1024 2) (a8 : A1 2)

/-- One term of the sample-against-prior mean: the squares come from sums over an axis of size one, the cross term from a matrix
    product whose contracted axis has size one, and each such sum is its single term. -/
theorem rbf_zp_at (i j : Fin 4096) :
    val_main_v115 (F := Ideal) a0 a1 a2 a3 a4 a5 a6 a7 a8 (ix2 i j) = rbf (zAll (encOf a3 a4 a5 a6 a7 a8) a0 a1) (colOf a2) i j := by
  have eL : ∀ k : Fin 1, idx_main_v99 (idx_main_v100 (idx_main_v104 (ix2 i j))) k = ix2 i (0 : Fin 1) := fun k => by
    obtain rfl : k = 0 := Subsingleton.elim _ _
    idx2
  have eR : ∀ k : Fin 1, idx_main_v102 (idx_main_v103 (idx_main_v105 (ix2 i j))) k = ix2 j (0 : Fin 1) := fun k => by
    obtain rfl : k = 0 := Subsingleton.elim _ _
    idx2
  have eDL : ∀ k : Fin 1, lidx_main_v108 (ix2 i j) k = ix2 i (0 : Fin 1) := fun k => by
    obtain rfl : k = 0 := Subsingleton.elim _ _
    idx2
  have eDR : ∀ k : Fin 1, idx_main_v107 (ridx_main_v108 (ix2 i j) k) = ix2 j (0 : Fin 1) := fun k => by
    obtain rfl : k = 0 := Subsingleton.elim _ _
    idx2
  rw [val_main_v115_apply, val_main_v114_apply, val_main_v113_apply, val_main_cst_19_apply, val_main_v112_apply, val_main_v111_apply,
    val_main_v106_apply, val_main_v104_apply, val_main_v100_apply, val_main_v99_apply, val_main_cst_16_apply,
    val_main_v105_apply, val_main_v103_apply, val_main_v102_apply, val_main_cst_17_apply,
    val_main_v110_apply, val_main_v109_apply, val_main_cst_18_apply, val_main_v108_apply]
  simp only [val_main_v98_apply, val_main_v101_apply, val_main_v107_apply, eL, eR, eDL, eDR, z_at a0 a1 a3 a4 a5 a6 a7 a8, Fin.sum_univ_one,
    Ideal.ofBits_def, Ideal.ofBits_zero_f32, zero_add]
  rfl

/-- The sample-against-prior mean: the total over all pairs, from the zero word, over the count. -/
theorem mean_zp :
    val_main_v117 (F := Ideal) a0 a1 a2 a3 a4 a5 a6 a7 a8 ix0 = rbfMean (zAll (encOf a3 a4 a5 a6 a7 a8) a0 a1) (colOf a2) := by
  rw [val_main_v117_apply, val_main_v116_apply, val_main_cst_20_apply, val_main_cst_21_apply, sum_idx2]
  simp only [rbf_zp_at a0 a1 a2 a3 a4 a5 a6 a7 a8, Ideal.ofBits_def, Ideal.ofBits_zero_f32, zero_add]
  rfl

end Cert.ReferenceIdeal.RefValue

end
-- ==== Proof.RefValue.lean ====
/-
  The reference's value: every row's loss is the row's negated log-likelihood plus half its KL term plus half the
  discrepancy between the latent samples and the prior samples, the discrepancy being the sum of the two same-set
  kernel means minus twice the cross mean.  The pieces are read in the sibling modules; here they are put together.
-/
import proofs.«167655_j26061861552780_1_alg».proof.Proof.RefValueDec
import proofs.«167655_j26061861552780_1_alg».proof.Proof.RefValueMmdZZ
import proofs.«167655_j26061861552780_1_alg».proof.Proof.RefValueMmdPP
import proofs.«167655_j26061861552780_1_alg».proof.Proof.RefValueMmdZP

noncomputable section

namespace Cert.ReferenceIdeal.RefValue

open Cert.ReferenceIdeal Cert.ReferenceIdeal.Gen Cert.ReferenceIdeal.Read Idealize.ShloMosaic Idealize.ShloMosaic.ValueIdx Cert.Vae

variable (a0 : A2 4096 784) (a1 a2 : A2 4096 1) (a3 : A2 784 1024) (a4 : A1 1024) (a5 : A2 1024 1024) (a6 : A1 1024)
  (a7 : A2 1024 2) (a8 : A1 2)
variable (a9 : A2 1 1024) (a10 : A1 1024) (a11 : A2 1024 1024) (a12 : A1 1024) (a13 : A2 1024 1568) (a14 : A1 1568)

/-- The discrepancy as the reference forms it. -/
theorem mmd_eq :
    val_main_v119 (F := Ideal) a0 a1 a2 a3 a4 a5 a6 a7 a8 ix0
      = mmdExpanded (zAll (encOf a3 a4 a5 a6 a7 a8) a0 a1) (colOf a2) := by
  rw [val_main_v119_apply, val_main_v97_apply, val_main_v118_apply, val_main_cst_22_apply, mean_zz, mean_pp, mean_zp]
  rfl

/-- The reference's result is the specification's loss of every row, with the expanded-square discrepancy. -/
theorem result_eq :
    val_main_v125 (F := Ideal) a0 a1 a2 a3 a4 a5 a6 a7 a8 a9 a10 a11 a12 a13 a14
      = fun i => lossAll (encOf a3 a4 a5 a6 a7 a8) (decOf a9 a10 a11 a12 a13 a14) a0 a1
          (mmdExpanded (zAll (encOf a3 a4 a5 a6 a7 a8) a0 a1) (colOf a2)) (i 0) := by
  funext i
  obtain ⟨r, rfl⟩ : ∃ r : Fin 4096, i = ix1 r := ⟨i 0, eq_ix1 i⟩
  have e : idx_main_v124 (ix1 r) = ix0 := eq_ix0 _
  rw [val_main_v125_apply, val_main_v124_apply, e, val_main_v123_apply, val_main_cst_24_apply, partial_at, mmd_eq]
  rfl

end Cert.ReferenceIdeal.RefValue

end
-- ==== Proof.Reals.lean ====
/-
  Real-valued extended reals: the predicate, its closure under the arithmetic the specification uses, and the
  fact that a latent sample is a real number as soon as the last encoder layer's weights, its biases and the
  noise are real (the layer before it is a hyperbolic tangent, which is real whatever it is applied to).
-/
import proofs.«167655_j26061861552780_1_alg».proof.Proof.Spec

noncomputable section

namespace Cert.Vae

open Idealize.ShloMosaic

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The hyperbolic tangent is real at every extended real: it is `-1` and `1` at the two infinities. -/
theorem isReal_tanh (x : EReal) : IsReal (Ideal.tanh x) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

theorem IsReal.exp {x : EReal} (hx : IsReal x) : IsReal (Ideal.exp x) := by
  obtain ⟨a, rfl⟩ := hx
  exact ⟨Real.exp a, Ideal.exp_coe a⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A real divided by a nonzero real is real. -/
theorem IsReal.div {x y : EReal} (hx : IsReal x) (hy : IsReal y) (h0 : y ≠ 0) : IsReal (Ideal.div x y) := by
  obtain ⟨a, rfl⟩ := hx
  obtain ⟨b, rfl⟩ := hy
  have hb : b ≠ 0 := fun hb => h0 (by rw [hb, EReal.coe_zero])
  exact ⟨a * (1 / b), by rw [Ideal.div_coe hb, EReal.coe_mul]⟩

/-- A family of real extended reals is the coercion of a family of reals. -/
theorem exists_real_family {ι : Type*} (z : ι → EReal) (hz : ∀ i, IsReal (z i)) :
    ∃ r : ι → ℝ, z = fun i => (r i : EReal) := by
  choose r hr using hz
  exact ⟨r, funext hr⟩

/-- An affine layer with real inputs, real weights and real biases has real outputs. -/
theorem isReal_layer {K N : ℕ} (a : Fin K → EReal) (W : Fin K → Fin N → EReal) (b : Fin N → EReal) (j : Fin N)
    (ha : ∀ k, IsReal (a k)) (hW : ∀ k, IsReal (W k j)) (hb : IsReal (b j)) : IsReal (layer a W b j) :=
  (isReal_sum _ _ fun k _ => (ha k).mul (hW k)).add hb

theorem encOut_isReal (P : Enc) (xr : Fin 784 → EReal) (a : Fin 2) (hW3 : ∀ k a, IsReal (P.W3 k a))
    (hb3 : ∀ a, IsReal (P.b3 a)) : IsReal (encOut P xr a) :=
  isReal_layer _ _ _ _ (fun k => isReal_tanh _) (fun k => hW3 k a) (hb3 a)

/-- The latent sample `mean + exp(logsd) * noise` of a row is real: mean and log standard deviation are an affine
    image, through real weights and biases, of hyperbolic tangents. -/
theorem zRow_isReal (P : Enc) (xr : Fin 784 → EReal) (e : EReal) (hW3 : ∀ k a, IsReal (P.W3 k a))
    (hb3 : ∀ a, IsReal (P.b3 a)) (he : IsReal e) : IsReal (zRow P xr e) :=
  (encOut_isReal P xr 0 hW3 hb3).add ((encOut_isReal P xr 1 hW3 hb3).exp.mul he)

end Cert.Vae

end
-- ==== Proof.MmdAlgebra.lean ====
/-
  The discrepancy accumulated tile by tile equals the discrepancy by the expanded square, when every sample is
  a real number.

  With real samples every quantity is the coercion of a real number, so the statement is an identity of real
  numbers: `(a - b)^2 = (a^2 + b^2) - 2 (a b)`, division by one changes nothing, the running total after the
  last of the 64 grid points is the sum over all 8 x 8 tiles, the 512 x 512 tiles partition the 4096 x 4096
  pairs, and `((A + B) - 2 C) / N = (A / N + B / N) - 2 (C / N)`.
-/
import proofs.«167655_j26061861552780_1_alg».proof.Proof.Reals

noncomputable section

namespace Cert.Vae

open Idealize.ShloMosaic

/-! ## The float words -/

theorem cOne_eq : cOne = ((1 : ℝ) : EReal) := by
  simp [cOne, Ideal.ofBits, Ideal.ieee, -EReal.coe_mul]; norm_num

theorem cTwo_eq : cTwo = ((2 : ℝ) : EReal) := by
  simp [cTwo, Ideal.ofBits, Ideal.ieee, -EReal.coe_mul]; norm_num

theorem cCount_eq : cCount = ((16777216 : ℝ) : EReal) := by
  simp [cCount, Ideal.ofBits, Ideal.ieee, -EReal.coe_mul]; norm_num

/-! ## The real-number side -/

/-- The kernel `exp(-(a - b)^2)` on two real samples. -/
def kR (u w : Fin 4096 → ℝ) (i j : Fin 4096) : ℝ := Real.exp (-((u i - w j) * (u i - w j)))

/-- Its sum over the tile `(bi, bj)`. -/
def tileSumR (u w : Fin 4096 → ℝ) (bi bj : Fin 8) : ℝ :=
  ∑ a : Fin 512, ∑ b : Fin 512, kR u w (tileIx bi a) (tileIx bj b)

/-- Its sum over all pairs. -/
def pairSumR (u w : Fin 4096 → ℝ) : ℝ := ∑ i : Fin 4096, ∑ j : Fin 4096, kR u w i j

/-- What one grid point adds, as a real number. -/
def tileTermR (z p : Fin 4096 → ℝ) (bi bj : Fin 8) : ℝ :=
  (tileSumR z z bi bj + tileSumR p p bi bj) - 2 * tileSumR z p bi bj

/-- The eight blocks of 512 partition the 4096 indices. -/
theorem sum_tileIx (h : Fin 4096 → ℝ) : ∑ bi : Fin 8, ∑ a : Fin 512, h (tileIx bi a) = ∑ i : Fin 4096, h i := by
  rw [← Fintype.sum_prod_type']
  refine Fintype.sum_equiv (finProdFinEquiv (m := 8) (n := 512)) _ _ fun x => ?_
  congr 1
  apply Fin.ext
  simp only [tileIx, finProdFinEquiv_apply_val]
  omega

/-- The 64 tiles partition the pairs. -/
theorem sum_tileSumR (u w : Fin 4096 → ℝ) : ∑ bi : Fin 8, ∑ bj : Fin 8, tileSumR u w bi bj = pairSumR u w := by
  unfold tileSumR pairSumR
  calc ∑ bi : Fin 8, ∑ bj : Fin 8, ∑ a : Fin 512, ∑ b : Fin 512, kR u w (tileIx bi a) (tileIx bj b)
      = ∑ bi : Fin 8, ∑ a : Fin 512, ∑ bj : Fin 8, ∑ b : Fin 512, kR u w (tileIx bi a) (tileIx bj b) :=
        Finset.sum_congr rfl fun bi _ => Finset.sum_comm
    _ = ∑ bi : Fin 8, ∑ a : Fin 512, ∑ j : Fin 4096, kR u w (tileIx bi a) j :=
        Finset.sum_congr rfl fun bi _ => Finset.sum_congr rfl fun a _ => sum_tileIx fun j => kR u w (tileIx bi a) j
    _ = ∑ i : Fin 4096, ∑ j : Fin 4096, kR u w i j := sum_tileIx fun i => ∑ j : Fin 4096, kR u w i j

/-- Row-major enumeration of the 8 x 8 grid: the sum over the 64 grid points is the sum over the tiles. -/
theorem sum_points (f : Fin 8 → Fin 8 → ℝ) :
    ∑ t ∈ Finset.range 64, f (pointRow t) (pointCol t) = ∑ bi : Fin 8, ∑ bj : Fin 8, f bi bj := by
  rw [Finset.sum_range, ← Fintype.sum_prod_type']
  refine (Fintype.sum_equiv (finProdFinEquiv (m := 8) (n := 8)) _ _ fun x => ?_).symm
  have h1 : pointRow ((finProdFinEquiv (m := 8) (n := 8) x : Fin (8 * 8)) : ℕ) = x.1 := by
    apply Fin.ext
    simp only [pointRow, finProdFinEquiv_apply_val]
    omega
  have h2 : pointCol ((finProdFinEquiv (m := 8) (n := 8) x : Fin (8 * 8)) : ℕ) = x.2 := by
    apply Fin.ext
    simp only [pointCol, finProdFinEquiv_apply_val]
    omega
  rw [h1, h2]

/-- The sum of what the 64 grid points add. -/
theorem sum_tileTermR (z p : Fin 4096 → ℝ) :
    ∑ t ∈ Finset.range 64, tileTermR z p (pointRow t) (pointCol t)
      = (pairSumR z z + pairSumR p p) - 2 * pairSumR z p := by
  rw [sum_points (tileTermR z p)]
  unfold tileTermR
  simp only [Finset.sum_sub_distrib, Finset.sum_add_distrib, ← Finset.mul_sum, sum_tileSumR]

/-! ## From extended reals to reals -/

section Coe

variable (u w z p : Fin 4096 → ℝ)

theorem exp_sq_coe (a b : ℝ) :
    Ideal.exp (-(((a : EReal) - (b : EReal)) * ((a : EReal) - (b : EReal)))) = ((Real.exp (-((a - b) * (a - b))) : ℝ) : EReal) := by
  rw [← EReal.coe_sub, ← EReal.coe_mul, ← EReal.coe_neg, Ideal.exp_coe]

theorem tileSum_coe (bi bj : Fin 8) :
    tileSum (fun i => (u i : EReal)) (fun i => (w i : EReal)) bi bj = ((tileSumR u w bi bj : ℝ) : EReal) := by
  unfold tileSum tileSumR kR
  rw [coe_finset_sum]
  refine Finset.sum_congr rfl fun a _ => ?_
  rw [coe_finset_sum]
  exact Finset.sum_congr rfl fun b _ => exp_sq_coe _ _

theorem tileTerm_coe (bi bj : Fin 8) :
    tileTerm (fun i => (z i : EReal)) (fun i => (p i : EReal)) bi bj = ((tileTermR z p bi bj : ℝ) : EReal) := by
  unfold tileTerm tileTermR
  rw [tileSum_coe, tileSum_coe, tileSum_coe, cTwo_eq, ← EReal.coe_add, ← EReal.coe_mul, ← EReal.coe_sub]

/-- The running total after grid point `n` is the sum of what the points `0 .. n` add. -/
theorem runningTotal_coe (n : ℕ) :
    runningTotal (fun i => (z i : EReal)) (fun i => (p i : EReal)) n
      = ((∑ t ∈ Finset.range (n + 1), tileTermR z p (pointRow t) (pointCol t) : ℝ) : EReal) := by
  induction n with
  | zero =>
    rw [runningTotal, tileTerm_coe, zero_add, Finset.sum_range_one]
  | succ n ih =>
    rw [runningTotal, ih, tileTerm_coe, ← EReal.coe_add, ← Finset.sum_range_succ]

theorem mmdTiled_coe :
    mmdTiled (fun i => (z i : EReal)) (fun i => (p i : EReal))
      = ((((pairSumR z z + pairSumR p p) - 2 * pairSumR z p) * (1 / 16777216) : ℝ) : EReal) := by
  unfold mmdTiled
  rw [runningTotal_coe, sum_tileTermR, cCount_eq, Ideal.div_coe (by norm_num), ← EReal.coe_mul]

/-- The expanded square over one is the square. -/
theorem rbf_coe (i j : Fin 4096) :
    rbf (fun i => (u i : EReal)) (fun i => (w i : EReal)) i j = ((kR u w i j : ℝ) : EReal) := by
  unfold rbf kR
  rw [cTwo_eq, cOne_eq, Ideal.div_coe (by norm_num), ← EReal.coe_mul, ← EReal.coe_mul, ← EReal.coe_mul,
    ← EReal.coe_add, ← EReal.coe_mul, ← EReal.coe_sub, ← EReal.coe_neg, ← EReal.coe_mul, Ideal.exp_coe]
  congr 2
  ring

theorem rbfMean_coe :
    rbfMean (fun i => (u i : EReal)) (fun i => (w i : EReal)) = ((pairSumR u w * (1 / 16777216) : ℝ) : EReal) := by
  unfold rbfMean pairSumR
  have hsum : (∑ i : Fin 4096, ∑ j : Fin 4096, rbf (fun i => (u i : EReal)) (fun i => (w i : EReal)) i j)
      = ((∑ i : Fin 4096, ∑ j : Fin 4096, kR u w i j : ℝ) : EReal) := by
    rw [coe_finset_sum]
    refine Finset.sum_congr rfl fun i _ => ?_
    rw [coe_finset_sum]
    exact Finset.sum_congr rfl fun j _ => rbf_coe u w i j
  rw [hsum, cCount_eq, Ideal.div_coe (by norm_num), ← EReal.coe_mul]

theorem mmdExpanded_coe :
    mmdExpanded (fun i => (z i : EReal)) (fun i => (p i : EReal))
      = (((pairSumR z z * (1 / 16777216) + pairSumR p p * (1 / 16777216)) - 2 * (pairSumR z p * (1 / 16777216)) : ℝ) : EReal) := by
  unfold mmdExpanded
  rw [rbfMean_coe, rbfMean_coe, rbfMean_coe, cTwo_eq, ← EReal.coe_add, ← EReal.coe_mul, ← EReal.coe_sub]

end Coe

/-- On real samples, the discrepancy accumulated over the 64 tiles is the discrepancy by the expanded square. -/
theorem mmd_tiled_eq_expanded (z p : Fin 4096 → EReal) (hz : ∀ i, IsReal (z i)) (hp : ∀ i, IsReal (p i)) :
    mmdTiled z p = mmdExpanded z p := by
  obtain ⟨zr, rfl⟩ := exists_real_family z hz
  obtain ⟨pr, rfl⟩ := exists_real_family p hp
  rw [mmdTiled_coe, mmdExpanded_coe]
  congr 1
  ring

end Cert.Vae

end
-- ==== Proof.Finite.lean ====
/-
  From the precondition to real entries.  The precondition says, of every argument array, that the absolute
  value of every entry is below plus infinity; on the extended reals that rules out both infinities, so the
  entry is a real number.  The printed predicate is a conjunction of one such statement per argument; the
  conjuncts for the two noise columns and for the last encoder layer's weights and biases are read off here.
-/
import proofs.«167655_j26061861552780_1_alg».proof.Defs
import proofs.«167655_j26061861552780_1_alg».proof.Proof.Reals
import Idealize.ShloMosaic.Lib.ReduceAll
import Idealize.ShloMosaic.Lib.ValueIdx

noncomputable section

namespace Cert.Vae

open Idealize.ShloMosaic Idealize.SL.Sem Cert.Pre_finite_inputs

/-- The float word of plus infinity denotes the top element. -/
theorem inf_word : Ideal.ofBits .f32 0x7F800000#32 = (⊤ : EReal) := by
  simp [Ideal.ofBits, Ideal.ieee]

/-- An extended real whose absolute value `max x (-x)` is below plus infinity is a real number. -/
theorem isReal_of_abs_lt_inf (x : EReal)
    (h : Ideal.cmp .olt (max x (-x)) (Ideal.ofBits .f32 0x7F800000#32) = 1#1) : IsReal x := by
  rw [inf_word] at h
  induction x using EReal.rec with
  | bot => simp [Ideal.cmp] at h
  | top => simp [Ideal.cmp] at h
  | coe r => exact ⟨r, rfl⟩

/-- The shape with no axes has one index. -/
instance : Subsingleton S_.Idx := ⟨fun a b => funext fun d => d.elim0⟩

/-- One conjunct of the precondition: if "every `|x i|` is below plus infinity", reduced over all axes, holds,
    every entry of `x` is real. -/
theorem all_isReal {s : Shape} {axes : List (Fin s.rank)} (x : FVec Ideal s .f32) (init : IVec S_ 1)
    (hb : S_.BroadcastsInDim s (![] : Fin 0 → Fin s.rank)) (hr : s.ReducesTo axes S_) (hu : 0 < S_.numel) (j : S_.Idx)
    (e : Host.reduce IntOp.andi
      (cmpf .olt (Host.absf x) (broadcastInDim s ![] hb (constant (F := Ideal) S_ .f32 0x7F800000#32))) init hr hu j = 1#1)
    (i : s.Idx) : IsReal (x i) :=
  isReal_of_abs_lt_inf (x i) (Host.reduce_andi_all _ init hr hu j e i)

/-- A conjunction of two truth words at an index. -/
theorem andi_at {x y : IVec S_ 1} {j : S_.Idx} (h : andi x y j = 1#1) : x j = 1#1 ∧ y j = 1#1 :=
  IntOp.andi_eq_one.1 h

/-- Under the precondition, the two noise columns and the last encoder layer's weights and biases have real
    entries. -/
theorem pre_isReal [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg1) : FVec Ideal S4096x1 .f32) i))
    ∧ (∀ i, IsReal ((m ((c.tc : Thread Cert.KernelIdeal.nD Cert.KernelIdeal.τ).loc Cert.KernelIdeal.main_arg2) : FVec Ideal S4096x1 .f32) i))
    ∧ (∀ i, IsReal ((m ((c.tc : Thread Cert.KernelIdeal.nD Cert.KernelIdeal.τ).loc Cert.KernelIdeal.main_arg7) : FVec Ideal S1024x2 .f32) i))
    ∧ (∀ i, IsReal ((m ((c.tc : Thread Cert.KernelIdeal.nD Cert.KernelIdeal.τ).loc Cert.KernelIdeal.main_arg8) : FVec Ideal S2 .f32) i)) := by
  have h0 := congrFun (h c) ValueIdx.ix0
  dsimp only [Cert.Pre_finite_inputs.fn, fn_part1, fn_part2, fn_part3, fn_part4] at h0
  have h68 := (andi_at h0).1
  have h63 := (andi_at h68).1
  have h58 := (andi_at h63).1
  have h53 := (andi_at h58).1
  have h48 := (andi_at h53).1
  have h43 := (andi_at h48).1
  have h38 := (andi_at h43).1
  have h33 := (andi_at h38).1
  have h28 := (andi_at h33).1
  have h23 := (andi_at h28).1
  have h18 := (andi_at h23).1
  have h13 := (andi_at h18).1
  have h8 := (andi_at h13).1
  exact ⟨fun i => all_isReal _ _ _ _ _ _ (andi_at h8).2 i, fun i => all_isReal _ _ _ _ _ _ (andi_at h13).2 i,
    fun i => all_isReal _ _ _ _ _ _ (andi_at h38).2 i, fun i => all_isReal _ _ _ _ _ _ (andi_at h43).2 i⟩

end Cert.Vae

end
-- ==== Proof.lean ====
/-
  Two programs compute the same loss of a variational autoencoder over 4096 rows: a three-layer encoder, a latent
  sample, a three-layer decoder, the Gaussian log-likelihood of the row and the KL term, plus half the maximum mean
  discrepancy between the latent samples and prior samples under the kernel exp(-(a - b)^2).

  The first program runs the network in a kernel region over sixteen blocks of 256 rows and the discrepancy in a second
  kernel region over an 8 x 8 grid of 512 x 512 tiles, adding each tile's term to a scratch cell that it resets at the
  first grid point and copies out at the last; the second is a sequence of whole-array operations that expands the square
  as a^2 + b^2 - 2ab and takes three means.

  Frames: each region's body is run once per control case on whole staging buffers; the proof data name what every output
  buffer and the carried cell hold after every grid point; the run of the whole program composes the host lines and the two
  regions and ends with every buffer at a named contents, the arguments among them unchanged.
  Values, on the extended reals: the network is the same term on both sides, row by row (`Cert.Vae.partialRow`,
  `Cert.Vae.zRow`); the running total after the 64th tile is the sum over all pairs, and the two forms of the discrepancy
  agree because every latent sample is a real number (a tanh layer is bounded, the last layer's weights and the noise are
  finite by the precondition) and so is every prior sample.
-/
import proofs.«167655_j26061861552780_1_alg».proof.Defs
import proofs.«167655_j26061861552780_1_alg».proof.Proof.Gen.Kernel
import proofs.«167655_j26061861552780_1_alg».proof.Proof.Gen.KernelIdeal
import proofs.«167655_j26061861552780_1_alg».proof.Proof.Gen.ReferenceIdeal
import proofs.«167655_j26061861552780_1_alg».proof.Proof.Gen.Pre_finite_inputs
import proofs.«167655_j26061861552780_1_alg».proof.Proof.RunK
import proofs.«167655_j26061861552780_1_alg».proof.Proof.KernelValue
import proofs.«167655_j26061861552780_1_alg».proof.Proof.RefValue
import proofs.«167655_j26061861552780_1_alg».proof.Proof.MmdAlgebra
import proofs.«167655_j26061861552780_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Vae

/-- The word-level program runs to the end and leaves its arguments unchanged. -/
theorem frame_k : Cert.frame_Kernel := fun m ρ _ => Cert.Kernel.Hand.frame (F := Bits) m ρ
/-- So does its reading on the extended reals. -/
theorem frame_ki : Cert.frame_KernelIdeal := fun m ρ _ => Cert.KernelIdeal.Hand.frame (F := Ideal) m ρ
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Every latent sample is a real number: the last encoder layer's weights and bias and the noise are finite, and what
    feeds that layer is a tanh. -/
theorem z_isReal (m : (ℓ : Loc Cert.KernelIdeal.nD Cert.KernelIdeal.τ Cert.KernelIdeal.sig) → Buf (Elt Ideal) ℓ) (h : Cert.Pre_KernelIdeal m) (c : Dev Cert.KernelIdeal.nD)
    (i : Fin 4096) :
    IsReal (zAll (Cert.KernelIdeal.Hand.encM m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) i) := by
  obtain ⟨he, -, hW3, hb3⟩ := pre_isReal m h c
  exact zRow_isReal _ _ _ (fun k a => hW3 (ix2 k a)) (fun a => hb3 (ix1 a)) (he (ix2 i 0))

/-- The two programs return the same array. -/
theorem algebraic : Cert.algebraic_KernelIdeal_ReferenceIdeal := by
  intro m ρ m' ρ' hpre hagree
  refine ⟨fun c => Cert.KernelIdeal.Hand.W5 m c (Proc.devRef .tc Cert.KernelIdeal.main_v21), Cert.KernelIdeal.Hand.run_result (F := Ideal) m ρ, ?_⟩
  refine (θ_run Cert.ReferenceIdeal.defs _ _).mono (fun r h c => ⟨?_, (h c).2⟩) (Cert.ReferenceIdeal.Value.run (F := Ideal) m' ρ')
  obtain ⟨g0, g1, g2, g3, g4, g5, g6, g7, g8, g9, g10, g11, g12, g13, g14⟩ := hagree c
  rw [(h c).1, Cert.ReferenceIdeal.Read.val_main_v125_eq, Cert.ReferenceIdeal.RefValue.result_eq, g0, g1, g2, g3, g4, g5, g6, g7, g8, g9, g10, g11, g12, g13, g14]
  funext i
  have hp : ∀ j, IsReal (colOf (m ((c.tc : Thread Cert.KernelIdeal.nD Cert.KernelIdeal.τ).loc Cert.KernelIdeal.main_arg2)) j) := fun j => (pre_isReal m hpre c).2.1 (ix2 j 0)
  refine Eq.trans ?_ (Cert.KernelIdeal.Hand.kernel_result m c i).symm
  rw [mmd_tiled_eq_expanded _ _ (z_isReal m hpre c) hp]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
